-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024x1024 : Shape := ⟨2, ![1024, 1024]⟩
abbrev S256x256 : Shape := ⟨2, ![256, 256]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v50 : IVec S1024x1024 1) : IVec S_ 1 :=
  let main_c_19 : IVec S_ 1 := constantI S_ 1 1#1
  let main_v51 : IVec S_ 1 := (fun x v => Host.reduce IntOp.andi x v reducesTo_S1024x1024_S_d0_1 h_S_) main_v50 main_c_19
  let main_v52 : IVec S_ 1 := andi main_v48 main_v51
  main_v52

def fn_part2 {F : FTy → Type} [FloatOps F] (main_arg1 : FVec F S1024x1024 .f32) (main_arg7 : FVec F S256 .f32) (main_arg8 : FVec F S256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_cst_18 : FVec F S_ .f32 := constant S_ .f32 0x00000000#32
  let main_v49 : FVec F S1024x1024 .f32 := broadcastInDim S1024x1024 ![] bcast_S_S1024x1024 main_cst_18
  let main_v50 : IVec S1024x1024 1 := cmpf .oge main_arg1 main_v49
  fn_part3 (F := F) main_v48 main_v50

def fn_part1 {F : FTy → Type} [FloatOps F] (main_arg1 : FVec F S1024x1024 .f32) (main_arg4 : FVec F S256 .f32) (main_arg5 : FVec F S256 .f32) (main_arg6 : FVec F S256x256 .f32) (main_arg7 : FVec F S256 .f32) (main_arg8 : FVec F S256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg7 main_arg8 main_arg9 main_v33

def fn {F : FTy → Type} [FloatOps F] (main_arg0 : FVec F S1024x256 .f32) (main_arg1 : FVec F S1024x1024 .f32) (main_arg2 : FVec F S256x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg4 main_arg5 main_arg6 main_arg7 main_arg8 main_arg9 main_v13 main_v16
-- ==== Kernel.lean ====
abbrev S1024x256 : Shape := ⟨2, ![1024, 256]⟩
abbrev S1024x1024 : Shape := ⟨2, ![1024, 1024]⟩
abbrev S256x256 : Shape := ⟨2, ![256, 256]⟩
abbrev S256 : Shape := ⟨1, ![256]⟩
abbrev S1x256 : Shape := ⟨2, ![1, 256]⟩
abbrev S128x1024 : Shape := ⟨2, ![128, 1024]⟩
abbrev S128x256 : Shape := ⟨2, ![128, 256]⟩
abbrev S1024x1 : Shape := ⟨2, ![1024, 1]⟩
abbrev S2x256 : Shape := ⟨2, ![2, 256]⟩
abbrev S128 : Shape := ⟨1, ![128]⟩
abbrev S128x1 : Shape := ⟨2, ![128, 1]⟩

abbrev nBuf : Space → Nat
  | .hbm => 17
  | .vmem => 19
  | .smem => 0
  | _ => 0

abbrev bufTy : (tb : Table) → Fin (tcTables nBuf tb) → BufTy
  | .hbm, ⟨0, _⟩ => ⟨S1024x256, .f32⟩
  | .hbm, ⟨1, _⟩ => ⟨S1024x1024, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1024x256, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S128x256, .f32⟩
  | .local _ .vmem, ⟨13, _⟩ => ⟨S128x256, .f32⟩
  | .local _ .vmem, ⟨14, _⟩ => ⟨S1024x1024, .bf16⟩
  | .local _ .vmem, ⟨15, _⟩ => ⟨S1024x1, .f32⟩
  | .local _ .vmem, ⟨16, _⟩ => ⟨S1024x256, .f32⟩
  | .local _ .vmem, ⟨17, _⟩ => ⟨S1024x256, .f32⟩
  | .local _ .vmem, ⟨18, _⟩ => ⟨S2x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c128_i32_4 : BitVec 32 := 128#32
  let v19 : BitVec 32 := Scalar.muli arg0 c128_i32_4
  let v20 : Index := Scalar.indexCast v19
  let c0_5 : Index := 0#32
  ![v20.toNat, 0]
def k0_off2 (i : grid0.Coords) : Fin 2 → Nat :=
  let arg0 : BitVec 32 := BitVec.ofNat 32 (i 0).val
  let c128_i32_7 : BitVec 32 := 128#32
  let v26 : BitVec 32 := Scalar.muli arg0 c128_i32_7
  let v27 : Index := Scalar.indexCast v26
  let c0_8 : Index := 0#32
  ![v27.toNat, 0]
def k0_off3 (i : grid0.Coords) : Fin 2 → Nat :=
  let arg0 : BitVec 32 := BitVec.ofNat 32 (i 0).val
  let c128_i32_14 : BitVec 32 := 128#32
  let v34 : BitVec 32 := Scalar.muli arg0 c128_i32_14
  let v35 : Index := Scalar.indexCast v34
  let c0_15 : Index := 0#32
  ![v35.toNat, 0]
def k0_cond3 (i : grid0.Coords) : BitVec 1 :=
  let arg0 : BitVec 32 := BitVec.ofNat 32 (i 0).val
  let c8_i32_1 : BitVec 32 := 8#32
  let v6 : BitVec 1 := Scalar.cmpi .sge arg0 c8_i32_1
  let v7 : BitVec 32 := Scalar.extui v6
  let c0_i32_2 : BitVec 32 := 0#32
  let v8 : BitVec 1 := Scalar.cmpi .ne v7 c0_i32_2
  v8

def k0_off4 (i : grid0.Coords) : Fin 2 → Nat :=
  let arg0 : BitVec 32 := BitVec.ofNat 32 (i 0).val
  let c8_i32_3 : BitVec 32 := 8#32
  let v9 : BitVec 32 := Scalar.subi arg0 c8_i32_3
  let c128_i32 : BitVec 32 := 128#32
  let v10 : BitVec 32 := Scalar.muli v9 c128_i32
  let v11 : Index := Scalar.indexCast v10
  let c0 : Index := 0#32
  ![v11.toNat, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S256_S1x256 : S256.ShapeCasts S1x256
  inb_S128x1024_S128x1024_0_0 : ∀ a, (![0, 0] : Fin 2 → Nat) a + S128x1024.size a ≤ S128x1024.size a
  h_S128x1024 : 0 < S128x1024.numel
  iota_S128x1024_d0_w32 : S128x1024.Iotas .tc 32 [0]
  iota_S128x1024_d1_w32 : S128x1024.Iotas .tc 32 [1]
  bitsLt_bf16_f32 : FTy.bits .bf16 < FTy.bits .f32
  shapeCasts_S128x1024_S128x1024 : S128x1024.ShapeCasts S128x1024
  reduces_S128x1024_S128 : S128x1024.Reduces [1] S128
  shapeCasts_S128_S128x1 : S128.ShapeCasts S128x1
  h_S128x1 : 0 < S128x1.numel
  shapeCasts_S128x1_S128x1 : S128x1.ShapeCasts S128x1
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  shapeCasts_S128x256_S128x256 : S128x256.ShapeCasts S128x256
  inb_S1024x1_S1024x1_0_0 : ∀ a, (![0, 0] : Fin 2 → Nat) a + S1024x1.size a ≤ S1024x1.size a
  h_S1024x1 : 0 < S1024x1.numel
  inb_S1024x1024_S1024x1024_0_0 : ∀ a, (![0, 0] : Fin 2 → Nat) a + S1024x1024.size a ≤ S1024x1024.size a
  h_S1024x1024 : 0 < S1024x1024.numel
  inb_S1024x256_S1024x256_0_0 : ∀ a, (![0, 0] : Fin 2 → Nat) a + S1024x256.size a ≤ S1024x256.size a
  h_S1024x256 : 0 < S1024x256.numel
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S256 : S1024x256.Reduces [0] S256
  shapeCasts_S1024x256_S1024x256 : S1024x256.ShapeCasts S1024x256
  inb_S2x256_S1x256_0_0 : ∀ a, (![0, 0] : Fin 2 → Nat) a + S1x256.size a ≤ S2x256.size a
  inb_S2x256_S1x256_1_0 : ∀ a, (![1, 0] : Fin 2 → Nat) a + S1x256.size a ≤ S2x256.size a
  broadcasts_S1x256_S128x256 : S1x256.Broadcasts S128x256
  dot_S128x256_S256x256_S128x256_1_0_0_1_n_n_wf : DotDims.WF S128x256 S256x256 S128x256 [1] [0] [0] [1] [] []
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  k0_off1_inb : ∀ i : grid0.Coords, ∀ (k0_h1 : k0_cond1 i = 1#1), ∀ a, (k0_off1 i) a + S128x1024.size a ≤ S1024x1024.size a
  k0_off1_packedbf16 : ∀ i : grid0.Coords, ∀ (k0_h1 : k0_cond1 i = 1#1), (Rect.unit (s := S1024x1024) (k0_off1 i) S128x1024.size (k0_off1_inb i k0_h1)).PackedRows (EltTy.packing .bf16)
  k0_off2_inb : ∀ i : grid0.Coords, ∀ (k0_h1 : k0_cond1 i = 1#1), ∀ a, (k0_off2 i) a + S128x1.size a ≤ S1024x1.size a
  k0_off3_inb : ∀ i : grid0.Coords, ∀ (k0_h1 : k0_cond1 i = 1#1), ∀ a, (k0_off3 i) a + S128x256.size a ≤ S1024x256.size a
  k0_off4_inb : ∀ i : grid0.Coords, ∀ (k0_h3 : k0_cond3 i = 1#1), ∀ a, (k0_off4 i) a + S128x256.size a ≤ S1024x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S1024x1024.size a
  hwx0_0 : ∀ i : grid0.Coords, EltTy.bits .f32 = 32 ∨ (Rect.block (s := S1024x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S1024x256.size a
  hwx0_1 : ∀ i : grid0.Coords, EltTy.bits .f32 = 32 ∨ (Rect.block (s := S1024x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x256.size a ≤ S1024x256.size a
  hwx0_10 : ∀ i : grid0.Coords, EltTy.bits .f32 = 32 ∨ (Rect.block (s := S1024x256) S128x256.size (cc0_transform_10 i) (hinb0_10 i)).WholeWords (EltTy.packing .f32)

variable [Facts₀]

def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S128x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | ⟨_ + 11, h⟩ => absurd h (Nat.not_lt.2 (Nat.le_add_left _ _))

class Facts : Prop extends Facts₀ where

variable [Facts]
-- ==== ReferenceIdeal.lean ====
abbrev S1024x256 : Shape := ⟨2, ![1024, 256]⟩
abbrev S1024x1024 : Shape := ⟨2, ![1024, 1024]⟩
abbrev S256x256 : Shape := ⟨2, ![256, 256]⟩
abbrev S256 : Shape := ⟨1, ![256]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1x256 : Shape := ⟨2, ![1, 256]⟩

abbrev nBuf : Space → Nat
  | .hbm => 143
  | .vmem => 0
  | .smem => 0
  | _ => 0

abbrev hbmTy0_0 (i : Nat) : BufTy := match i % 128 with
  | 0 => ⟨S1024x256, .f32⟩
  | 1 => ⟨S1024x1024, .f32⟩
  | 2 => ⟨S256x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S1024x1024, .i32⟩
  | 11 => ⟨S1024x1024, .i32⟩
  | 12 => ⟨S_, .i32⟩
  | 13 => ⟨S1024x1024, .i32⟩
  | 14 => ⟨S1024x1024, .i32⟩
  | 15 => ⟨S1024x1024, .i1⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S1024x1024, .f32⟩
  | 22 => ⟨S_, .f32⟩
  | 23 => ⟨S1024, .f32⟩
  | 24 => ⟨S_, .f32⟩
  | 25 => ⟨S1024, .f32⟩
  | 26 => ⟨S1024, .i1⟩
  | 27 => ⟨S_, .f32⟩
  | 28 => ⟨S1024, .f32⟩
  | 29 => ⟨S1024, .f32⟩
  | 30 => ⟨S_, .f32⟩
  | 31 => ⟨S_, .f32⟩
  | 32 => ⟨S1024, .f32⟩
  | 33 => ⟨S1024, .f32⟩
  | 34 => ⟨S1024x1, .f32⟩
  | 35 => ⟨S1024x1024, .f32⟩
  | 36 => ⟨S1024x1024, .f32⟩
  | 37 => ⟨S1x1024, .f32⟩
  | 38 => ⟨S1024x1024, .f32⟩
  | 39 => ⟨S1024x1024, .f32⟩
  | 40 => ⟨S1024x256, .f32⟩
  | 41 => ⟨S1024x256, .f32⟩
  | 42 => ⟨S1x256, .f32⟩
  | 43 => ⟨S1024x256, .f32⟩
  | 44 => ⟨S1024x256, .f32⟩
  | 45 => ⟨S_, .f32⟩
  | 46 => ⟨S256, .f32⟩
  | 47 => ⟨S_, .f32⟩
  | 48 => ⟨S256, .f32⟩
  | 49 => ⟨S256, .f32⟩
  | 50 => ⟨S1x256, .f32⟩
  | 51 => ⟨S1024x256, .f32⟩
  | 52 => ⟨S1024x256, .f32⟩
  | 53 => ⟨S1024x256, .f32⟩
  | 54 => ⟨S_, .f32⟩
  | 55 => ⟨S256, .f32⟩
  | 56 => ⟨S_, .f32⟩
  | 57 => ⟨S256, .f32⟩
  | 58 => ⟨S256, .f32⟩
  | 59 => ⟨S1x256, .f32⟩
  | 60 => ⟨S1024x256, .f32⟩
  | 61 => ⟨S1024x256, .f32⟩
  | 62 => ⟨S1x256, .f32⟩
  | 63 => ⟨S1024x256, .f32⟩
  | 64 => ⟨S1024x256, .f32⟩
  | 65 => ⟨S_, .f32⟩
  | 66 => ⟨S256, .f32⟩
  | 67 => ⟨S256, .f32⟩
  | 68 => ⟨S256, .f32⟩
  | 69 => ⟨S1x256, .f32⟩
  | 70 => ⟨S1024x256, .f32⟩
  | 71 => ⟨S1024x256, .f32⟩
  | 72 => ⟨S1x256, .f32⟩
  | 73 => ⟨S1024x256, .f32⟩
  | 74 => ⟨S1024x256, .f32⟩
  | 75 => ⟨S_, .f32⟩
  | 76 => ⟨S1024x256, .f32⟩
  | 77 => ⟨S1024x256, .f32⟩
  | 78 => ⟨S1024x1024, .i32⟩
  | 79 => ⟨S1024x1024, .i32⟩
  | 80 => ⟨S_, .i32⟩
  | 81 => ⟨S1024x1024, .i32⟩
  | 82 => ⟨S1024x1024, .i32⟩
  | 83 => ⟨S1024x1024, .i1⟩
  | 84 => ⟨S1024x1024, .f32⟩
  | 85 => ⟨S_, .f32⟩
  | 86 => ⟨S1024x1024, .f32⟩
  | 87 => ⟨S1024x1024, .f32⟩
  | 88 => ⟨S1024x1024, .f32⟩
  | 89 => ⟨S1024x1024, .f32⟩
  | 90 => ⟨S_, .f32⟩
  | 91 => ⟨S1024, .f32⟩
  | 92 => ⟨S_, .f32⟩
  | 93 => ⟨S1024, .f32⟩
  | 94 => ⟨S1024, .i1⟩
  | 95 => ⟨S_, .f32⟩
  | 96 => ⟨S1024, .f32⟩
  | 97 => ⟨S1024, .f32⟩
  | 98 => ⟨S_, .f32⟩
  | 99 => ⟨S_, .f32⟩
  | 100 => ⟨S1024, .f32⟩
  | 101 => ⟨S1024, .f32⟩
  | 102 => ⟨S1024x1, .f32⟩
  | 103 => ⟨S1024x1024, .f32⟩
  | 104 => ⟨S1024x1024, .f32⟩
  | 105 => ⟨S1x1024, .f32⟩
  | 106 => ⟨S1024x1024, .f32⟩
  | 107 => ⟨S1024x1024, .f32⟩
  | 108 => ⟨S1024x256, .f32⟩
  | 109 => ⟨S1024x256, .f32⟩
  | 110 => ⟨S1x256, .f32⟩
  | 111 => ⟨S1024x256, .f32⟩
  | 112 => ⟨S1024x256, .f32⟩
  | 113 => ⟨S_, .f32⟩
  | 114 => ⟨S256, .f32⟩
  | 115 => ⟨S_, .f32⟩
  | 116 => ⟨S256, .f32⟩
  | 117 => ⟨S256, .f32⟩
  | 118 => ⟨S1x256, .f32⟩
  | 119 => ⟨S1024x256, .f32⟩
  | 120 => ⟨S1024x256, .f32⟩
  | 121 => ⟨S1024x256, .f32⟩
  | 122 => ⟨S_, .f32⟩
  | 123 => ⟨S256, .f32⟩
  | 124 => ⟨S_, .f32⟩
  | 125 => ⟨S256, .f32⟩
  | 126 => ⟨S256, .f32⟩
  | 127 => ⟨S1x256, .f32⟩
  | _ => ⟨S1024x256, .f32⟩

abbrev hbmTy0_1 (i : Nat) : BufTy := match i % 128 with
  | 0 => ⟨S1024x256, .f32⟩
  | 1 => ⟨S1024x256, .f32⟩
  | 2 => ⟨S1x256, .f32⟩
  | 3 => ⟨S1024x256, .f32⟩
  | 4 => ⟨S1024x256, .f32⟩
  | 5 => ⟨S_, .f32⟩
  | 6 => ⟨S256, .f32⟩
  | 7 => ⟨S256, .f32⟩
  | 8 => ⟨S256, .f32⟩
  | 9 => ⟨S1x256, .f32⟩
  | 10 => ⟨S1024x256, .f32⟩
  | 11 => ⟨S1024x256, .f32⟩
  | 12 => ⟨S1x256, .f32⟩
  | 13 => ⟨S1024x256, .f32⟩
  | 14 => ⟨S1024x256, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_call2_v0 : Ref sig .tc := ⟨.hbm, 99, rfl⟩
abbrev main_call2_v1 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_cst_16 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_17 : Ref sig .tc := ⟨.hbm, 122, rfl⟩
abbrev main_v87 : Ref sig .tc := ⟨.hbm, 123, rfl⟩
abbrev main_cst_18 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_19 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  reducesTo_S1024x256_S256_d0 : S1024x256.ReducesTo [0] S256
  bcast_S_S256 : S_.BroadcastsInDim S256 (![] : Fin 0 → Fin S256.rank)
  bcast_S_S1024x256 : S_.BroadcastsInDim S1024x256 (![] : Fin 0 → Fin S1024x256.rank)
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

class Facts : Prop extends Facts₀ where

variable [Facts]
-- ==== Proof.K.Cases.lean ====
/-
  The body of the fused kernel at one grid point, in its three control cases. Below point eight it forces the diagonal
  of a 128-row slab of the adjacency to one and stores the slab, its row sums and the slab's rows of the first feature
  product into three carried buffers; at point seven it goes on to the serial tail (both aggregations, the first batch
  normalisation, the rectifier, the second weight product) and stores the second layer and its column statistics; from
  point eight on it normalises one 128-row block of the second layer and stores it into the result's block.
  Each case is stated with what it stores written out as pieces over the buffers' prior contents.
-/
import proofs.«169710_g34591666602572_cont_8to1_b_883_10_alg».proof.Proof.Gen.Kernel.Frame
import proofs.«169710_g34591666602572_cont_8to1_b_883_10_alg».proof.Proof.Gen.Kernel.Skeleton
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions over the sixteen grid points

The body has three guarded regions: rows of the adjacency are prepared while the point is below eight, the
serial tail runs at point seven, and one block of the result is normalised and written at each point from
eight on. -/

/-- The second region's condition, as the body spells it (the point is the seventh). -/
abbrev cond2 (i : grid0.Coords) : Prop :=
  Scalar.cmpi .ne (Scalar.extui (Scalar.cmpi .eq (BitVec.ofNat 32 (i 0).val) 7#32)) 0#32 = 1#1

theorem hcond1 : ∀ t : Fin cfg0.N, k0_cond1 (grid0.coords t) = 1#1 ↔ t.val < 8 :=
  (by decide +kernel : ∀ t : Fin grid0.N, k0_cond1 (grid0.coords t) = 1#1 ↔ t.val < 8)
theorem hcond2 : ∀ t : Fin cfg0.N, cond2 (grid0.coords t) ↔ t.val = 7 :=
  (by decide +kernel : ∀ t : Fin grid0.N, cond2 (grid0.coords t) ↔ t.val = 7)
theorem hcond3 : ∀ t : Fin cfg0.N, k0_cond3 (grid0.coords t) = 1#1 ↔ 8 ≤ t.val :=
  (by decide +kernel : ∀ t : Fin grid0.N, k0_cond3 (grid0.coords t) = 1#1 ↔ 8 ≤ t.val)
/-- The one grid coordinate is the point's number. -/
theorem coord_val : ∀ t : Fin cfg0.N, ((grid0.coords t) 0).val = t.val :=
  (by decide +kernel : ∀ t : Fin grid0.N, ((grid0.coords t) 0).val = t.val)
/-- From point eight on, the block of the carried layer-two rows that is read starts at row 128 (t - 8). -/
theorem off4_eq : ∀ t : Fin cfg0.N, 8 ≤ t.val → k0_off4 (grid0.coords t) = ![128 * (t.val - 8), 0] :=
  (by decide +kernel : ∀ t : Fin grid0.N, 8 ≤ t.val → k0_off4 (grid0.coords t) = ![128 * (t.val - 8), 0])

theorem zero2 : (![0, 0] : Fin 2 → ℕ) = fun _ => 0 := by
  funext a; fin_cases a <;> rfl

/-- A load of a whole buffer reads its contents. -/
theorem readAt_whole {S : Shape} {e : EltTy} (M : Memref sig .tc .vmem S e) (h : M.IsWhole) {off : Fin S.rank → ℕ}
    (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

/-- A load through any rectangle of a whole buffer reads the contents at the rectangle's indices. -/
theorem readAt_rect {S : Shape} {e : EltTy} (M : Memref sig .tc .vmem S e) (h : M.IsWhole) (r : Rect S)
    (X : S.Idx → Elt F e) :
    View.readAt (Elt F) M.view r.toLoadRect (h.unread X) = View.ld X r := by
  rw [View.readAt_eq_ld, h.read_unread]

/-! ## The write-out points (eight to fifteen) -/

/-- What a write-out point stores: the block of carried layer-two rows, centred and scaled by the carried
    column statistics, with the second layer's scale and shift. -/
def outC (i : grid0.Coords) (hc3 : k0_cond3 i = 1#1) (x9 x10 : Vec F S1x256 .f32) (xs3 : Vec F S1024x256 .f32)
    (xs4 : Vec F S2x256 .f32) : Vec F S128x256 .f32 :=
  k0_pay10 (View.ld xs3 (Rect.unit (k0_off4 i) S128x256.size (k0_off4_inb i hc3))) x9
    (View.ld xs4 (Rect.unit ![0, 0] S1x256.size inb_S2x256_S1x256_0_0))
    (View.ld xs4 (Rect.unit ![1, 0] S1x256.size inb_S2x256_S1x256_1_0)) x10

set_option maxHeartbeats 1000000 in
theorem runC (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S2x256 .f32) (harg16 : arg16.IsWhole)
    (hc1 : ¬ k0_cond1 i = 1#1) (hc2 : ¬ cond2 i) (hc3 : k0_cond3 i = 1#1)
    (x9 : Vec F S1x256 .f32) (x10 : Vec F S1x256 .f32) (xs3 : Vec F S1024x256 .f32) (xs4 : Vec F S2x256 .f32)
    (E : Set ℕ) (K : PUnit → sProp 𝕄) :
    iprop(owns (c : Thread nD τ) arg9 fullShare x9 ∗ owns (c : Thread nD τ) arg10 fullShare x10
        ∗ (∃ d, owns (c : Thread nD τ) arg11 fullShare d)
        ∗ owns (c : Thread nD τ) arg15 fullShare xs3 ∗ owns (c : Thread nD τ) arg16 fullShare xs4
        ∗ (iprop(owns (c : Thread nD τ) arg9 fullShare x9 ∗ owns (c : Thread nD τ) arg10 fullShare x10
            ∗ owns (c : Thread nD τ) arg11 fullShare (outC i hc3 x9 x10 xs3 xs4)
            ∗ owns (c : Thread nD τ) arg15 fullShare xs3 ∗ owns (c : Thread nD τ) arg16 fullShare xs4) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gcn_body_eq_skeleton]; unfold cc0__gcn_body_skel
  unfold owns
  iintro ⟨⟨%f9, %hf9, H9⟩, ⟨%f10, %hf10, H10⟩, ⟨%d11, %f11, -, H11⟩, ⟨%f15, %hf15, H15⟩, ⟨%f16, %hf16, H16⟩, Hk⟩
  obtain rfl := harg9.eq_unread hf9; obtain rfl := harg10.eq_unread hf10
  obtain rfl := harg15.eq_unread hf15; obtain rfl := harg16.eq_unread hf16
  sl_exec (disch := first | exact hc1 | exact hc2 | exact hc3)
  sl_step
  iapply Hk
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    funext y
    refine (View.read_writes_cons_unit_of_mem arg11.view f11 inb_S128x256_S128x256_0_0 _ [] y y zero2
      (fun a => (Nat.zero_add _).symm)).trans ?_
    unfold outC
    rw [readAt_whole arg9 harg9 zero2, readAt_whole arg10 harg10 zero2, readAt_rect arg15 harg15, readAt_rect arg16 harg16,
      readAt_rect arg16 harg16]
  isplitl [H15]
  · iexists _; isplitr; · ipureintro; exact harg15.read_unread _
    iexact H15
  · iexists _; isplitr; · ipureintro; exact harg16.read_unread _
    iexact H16

/-! ## The row-preparing points (zero to six), and the stores they share with point seven -/

/-- The slab of 128 adjacency rows stored at a preparing point: the diagonal forced to one. -/
def L12 (i : grid0.Coords) (arg1 : Memref sig .tc .vmem S128x1024 .f32) (harg1 : arg1.IsWhole) (hc1 : k0_cond1 i = 1#1)
    (x1 : Vec F S128x1024 .f32) : List (View.Piece (Elt F) S1024x1024 .bf16) :=
  [⟨Rect.unit (k0_off1 i) S128x1024.size (k0_off1_inb i hc1),
    k0_pay2 i (View.readAt (Elt F) arg1.view (Rect.unit ![0, 0] S128x1024.size inb_S128x1024_S128x1024_0_0).toLoadRect (harg1.unread x1))⟩]
/-- The 128 row sums (degrees) stored at a preparing point. -/
def L13 (i : grid0.Coords) (arg1 : Memref sig .tc .vmem S128x1024 .f32) (harg1 : arg1.IsWhole) (hc1 : k0_cond1 i = 1#1)
    (x1 : Vec F S128x1024 .f32) : List (View.Piece (Elt F) S1024x1 .f32) :=
  [⟨Rect.unit (k0_off2 i) S128x1.size (k0_off2_inb i hc1),
    k0_pay3 i (View.readAt (Elt F) arg1.view (Rect.unit ![0, 0] S128x1024.size inb_S128x1024_S128x1024_0_0).toLoadRect (harg1.unread x1))⟩]
/-- The 128 rows of the first layer's feature product stored at a preparing point. -/
def L14 (i : grid0.Coords) (arg2 : Memref sig .tc .vmem S128x256 .f32) (harg2 : arg2.IsWhole)
    (arg3 : Memref sig .tc .vmem S256x256 .f32) (harg3 : arg3.IsWhole) (hc1 : k0_cond1 i = 1#1)
    (x2 : Vec F S128x256 .f32) (x3 : Vec F S256x256 .f32) : List (View.Piece (Elt F) S1024x256 .f32) :=
  [⟨Rect.unit (k0_off3 i) S128x256.size (k0_off3_inb i hc1),
    k0_pay4 (View.readAt (Elt F) arg2.view (Rect.unit ![0, 0] S128x256.size inb_S128x256_S128x256_0_0).toLoadRect (harg2.unread x2))
      (View.readAt (Elt F) arg3.view (Rect.unit ![0, 0] S256x256.size inb_S256x256_S256x256_0_0).toLoadRect (harg3.unread x3))⟩]

/-- A whole buffer's contents after stores into it, read back. -/
abbrev upd {S : Shape} {e : EltTy} (M : Memref sig .tc .vmem S e) (h : M.IsWhole) (X : S.Idx → Elt F e)
    (L : List (View.Piece (Elt F) S e)) : S.Idx → Elt F e :=
  M.view.read (Elt F) (M.view.writes (Elt F) (h.unread X) L)

set_option maxHeartbeats 1000000 in
theorem runA (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S2x256 .f32) (harg16 : arg16.IsWhole)
    (hc1 : k0_cond1 i = 1#1) (hc2 : ¬ cond2 i) (hc3 : ¬ k0_cond3 i = 1#1)
    (x1 : Vec F S128x1024 .f32) (x2 : Vec F S128x256 .f32) (x3 : Vec F S256x256 .f32)
    (xs0 : Vec F S1024x1024 .bf16) (xs1 : Vec F S1024x1 .f32) (xs2 : Vec F S1024x256 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg12 fullShare xs0 ∗ owns (c : Thread nD τ) arg13 fullShare xs1 ∗ owns (c : Thread nD τ) arg14 fullShare xs2
        ∗ (iprop(owns (c : Thread nD τ) arg1 fullShare x1 ∗ owns (c : Thread nD τ) arg2 fullShare x2 ∗ owns (c : Thread nD τ) arg3 fullShare x3
            ∗ owns (c : Thread nD τ) arg12 fullShare (upd arg12 harg12 xs0 (L12 i arg1 harg1 hc1 x1))
            ∗ owns (c : Thread nD τ) arg13 fullShare (upd arg13 harg13 xs1 (L13 i arg1 harg1 hc1 x1))
            ∗ owns (c : Thread nD τ) arg14 fullShare (upd arg14 harg14 xs2 (L14 i arg2 harg2 arg3 harg3 hc1 x2 x3))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gcn_body_eq_skeleton]; unfold cc0__gcn_body_skel
  unfold owns
  iintro ⟨⟨%f1, %hf1, H1⟩, ⟨%f2, %hf2, H2⟩, ⟨%f3, %hf3, H3⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3
  obtain rfl := harg12.eq_unread hf12; obtain rfl := harg13.eq_unread hf13; obtain rfl := harg14.eq_unread hf14
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H12]
  · iexists _; isplitr; · ipureintro; rfl
    iexact H12
  isplitl [H13]
  · iexists _; isplitr; · ipureintro; rfl
    iexact H13
  · iexists _; isplitr; · ipureintro; rfl
    iexact H14

/-! ## Point seven: the last slab, then the serial tail -/

section Tail
variable (i : grid0.Coords) (arg1 : Memref sig .tc .vmem S128x1024 .f32) (harg1 : arg1.IsWhole) (arg2 : Memref sig .tc .vmem S128x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S2x256 .f32) (harg16 : arg16.IsWhole) (hc1 : k0_cond1 i = 1#1)
  (x1 : Vec F S128x1024 .f32) (x2 : Vec F S128x256 .f32) (x3 : Vec F S256x256 .f32)
  (x4 x5 x6 : Vec F S1x256 .f32) (x7 : Vec F S256x256 .f32) (x8 : Vec F S1x256 .f32)
  (xs0 : Vec F S1024x1024 .bf16) (xs1 : Vec F S1024x1 .f32) (xs2 : Vec F S1024x256 .f32)

/-- The degrees, the adjacency and the feature product as the tail loads them (whole, after this point's slab). -/
def tV9 : Vec F S1024x1 .f32 :=
  View.readAt (Elt F) arg13.view (Rect.unit ![0, 0] S1024x1.size inb_S1024x1_S1024x1_0_0).toLoadRect
    (arg13.view.writes (Elt F) (harg13.unread xs1) (L13 i arg1 harg1 hc1 x1))
def tV11 : Vec F S1024x1024 .bf16 :=
  View.readAt (Elt F) arg12.view (Rect.unit ![0, 0] S1024x1024.size inb_S1024x1024_S1024x1024_0_0).toLoadRect
    (arg12.view.writes (Elt F) (harg12.unread xs0) (L12 i arg1 harg1 hc1 x1))
def tV12 : Vec F S1024x256 .f32 :=
  View.readAt (Elt F) arg14.view (Rect.unit ![0, 0] S1024x256.size inb_S1024x256_S1024x256_0_0).toLoadRect
    (arg14.view.writes (Elt F) (harg14.unread xs2) (L14 i arg2 harg2 arg3 harg3 hc1 x2 x3))
def tV19 : Vec F S1x256 .f32 := View.readAt (Elt F) arg4.view (Rect.unit ![0, 0] S1x256.size inb_S1x256_S1x256_0_0).toLoadRect (harg4.unread x4)
def tV34 : Vec F S1x256 .f32 := View.readAt (Elt F) arg5.view (Rect.unit ![0, 0] S1x256.size inb_S1x256_S1x256_0_0).toLoadRect (harg5.unread x5)
def tV45 : Vec F S1x256 .f32 := View.readAt (Elt F) arg6.view (Rect.unit ![0, 0] S1x256.size inb_S1x256_S1x256_0_0).toLoadRect (harg6.unread x6)
def tV51 : Vec F S256x256 .f32 := View.readAt (Elt F) arg7.view (Rect.unit ![0, 0] S256x256.size inb_S256x256_S256x256_0_0).toLoadRect (harg7.unread x7)
def tV59 : Vec F S1x256 .f32 := View.readAt (Elt F) arg8.view (Rect.unit ![0, 0] S1x256.size inb_S1x256_S1x256_0_0).toLoadRect (harg8.unread x8)
end Tail

set_option maxHeartbeats 4000000 in
theorem runB (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S2x256 .f32) (harg16 : arg16.IsWhole)
    (hc1 : k0_cond1 i = 1#1) (hc2 : cond2 i) (hc3 : ¬ k0_cond3 i = 1#1)
    (x1 : Vec F S128x1024 .f32) (x2 : Vec F S128x256 .f32) (x3 : Vec F S256x256 .f32)
    (x4 x5 x6 : Vec F S1x256 .f32) (x7 : Vec F S256x256 .f32) (x8 : Vec F S1x256 .f32)
    (xs0 : Vec F S1024x1024 .bf16) (xs1 : Vec F S1024x1 .f32) (xs2 : Vec F S1024x256 .f32)
    (xs3 : Vec F S1024x256 .f32) (xs4 : Vec F S2x256 .f32)
    (E : Set ℕ) (K : PUnit → sProp 𝕄) :
    let v9 := tV9 i arg1 harg1 arg13 harg13 hc1 x1 xs1
    let v11 := tV11 i arg1 harg1 arg12 harg12 hc1 x1 xs0
    let v12 := tV12 i arg2 harg2 arg3 harg3 arg14 harg14 hc1 x2 x3 xs2
    let v10 := k0_pay11 v9
    let v48 := k0_pay12 v9 v11 v12 (tV19 arg4 harg4 x4) (tV34 arg5 harg5 x5) (tV45 arg6 harg6 x6)
    let v51 := tV51 arg7 harg7 x7
    let v59 := tV59 arg8 harg8 x8
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg12 fullShare xs0 ∗ owns (c : Thread nD τ) arg13 fullShare xs1 ∗ owns (c : Thread nD τ) arg14 fullShare xs2
        ∗ owns (c : Thread nD τ) arg15 fullShare xs3 ∗ owns (c : Thread nD τ) arg16 fullShare xs4
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg12 fullShare (upd arg12 harg12 xs0 (L12 i arg1 harg1 hc1 x1))
            ∗ owns (c : Thread nD τ) arg13 fullShare (upd arg13 harg13 xs1 (L13 i arg1 harg1 hc1 x1))
            ∗ owns (c : Thread nD τ) arg14 fullShare (upd arg14 harg14 xs2 (L14 i arg2 harg2 arg3 harg3 hc1 x2 x3))
            ∗ owns (c : Thread nD τ) arg15 fullShare (upd arg15 harg15 xs3
                [⟨Rect.unit ![0, 0] S1024x256.size inb_S1024x256_S1024x256_0_0, k0_pay7 v10 v11 v48 k0_pay13 v51 v59⟩])
            ∗ owns (c : Thread nD τ) arg16 fullShare (upd arg16 harg16 xs4
                [⟨Rect.unit ![1, 0] S1x256.size inb_S2x256_S1x256_1_0, k0_pay9 v10 v11 v48 k0_pay13 v51 v59⟩,
                 ⟨Rect.unit ![0, 0] S1x256.size inb_S2x256_S1x256_0_0, k0_pay8 v10 v11 v48 k0_pay13 v51 v59⟩])) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro v9 v11 v12 v10 v48 v51 v59
  simp only [cc0__gcn_body_eq_skeleton]; unfold cc0__gcn_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f12, %hf12, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  obtain rfl := harg12.eq_unread hf12; obtain rfl := harg13.eq_unread hf13; obtain rfl := harg14.eq_unread hf14
  obtain rfl := harg15.eq_unread hf15; obtain rfl := harg16.eq_unread hf16
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; · ipureintro; rfl
    iexact H15
  · iexists _; isplitr; · ipureintro; rfl
    iexact H16

end Cert.Kernel.Body

end
-- ==== Proof.K.Inv.lean ====
/-
  What the five carried buffers hold between grid points, as functions of the argument arrays, and the invariant:
  before point n the first 128 n rows of the adjacency cache, the degrees and the first feature product are in place;
  from point eight on the second layer and its column statistics are. A slab store extends the rows in place by one
  slab and leaves the rows below; once all eight slabs are in, what the tail loads is the named whole arrays.
-/
import proofs.«169710_g34591666602572_cont_8to1_b_883_10_alg».proof.Proof.K.Cases
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers, the staging buffers, and the argument blocks at a point -/

abbrev scM0 : Memref sig .tc .vmem S1024x1024 .bf16 := Memref.whole cc0_scratch0
abbrev scM1 : Memref sig .tc .vmem S1024x1 .f32 := Memref.whole cc0_scratch1
abbrev scM2 : Memref sig .tc .vmem S1024x256 .f32 := Memref.whole cc0_scratch2
abbrev scM3 : Memref sig .tc .vmem S1024x256 .f32 := Memref.whole cc0_scratch3
abbrev scM4 : Memref sig .tc .vmem S2x256 .f32 := Memref.whole cc0_scratch4
abbrev hM0 : (scM0).IsWhole := Memref.isWhole_whole _
abbrev hM1 : (scM1).IsWhole := Memref.isWhole_whole _
abbrev hM2 : (scM2).IsWhole := Memref.isWhole_whole _
abbrev hM3 : (scM3).IsWhole := Memref.isWhole_whole _
abbrev hM4 : (scM4).IsWhole := Memref.isWhole_whole _

abbrev ms0 (t : Fin cfg0.N) : Memref sig .tc .vmem S128x1024 .f32 := win0_0.stage (cfg0.slots t 0)
abbrev hs0 (t : Fin cfg0.N) : (ms0 t).IsWhole := hstage0_0 ((cfg0.slots t 0).cast nbuf0_0)
abbrev b0 (c : Dev nD) (t : Fin cfg0.N) : Vec F S128x1024 .f32 := iblk m c 0 t
abbrev ms1 (t : Fin cfg0.N) : Memref sig .tc .vmem S128x256 .f32 := win0_1.stage (cfg0.slots t 1)
abbrev hs1 (t : Fin cfg0.N) : (ms1 t).IsWhole := hstage0_1 ((cfg0.slots t 1).cast nbuf0_1)
abbrev b1 (c : Dev nD) (t : Fin cfg0.N) : Vec F S128x256 .f32 := iblk m c 1 t
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev b2 (c : Dev nD) (t : Fin cfg0.N) : Vec F S256x256 .f32 := iblk m c 2 t
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev b3 (c : Dev nD) (t : Fin cfg0.N) : Vec F S1x256 .f32 := iblk m c 3 t
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev b4 (c : Dev nD) (t : Fin cfg0.N) : Vec F S1x256 .f32 := iblk m c 4 t
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev b5 (c : Dev nD) (t : Fin cfg0.N) : Vec F S1x256 .f32 := iblk m c 5 t
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)
abbrev b6 (c : Dev nD) (t : Fin cfg0.N) : Vec F S256x256 .f32 := iblk m c 6 t
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev b7 (c : Dev nD) (t : Fin cfg0.N) : Vec F S1x256 .f32 := iblk m c 7 t
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev b8 (c : Dev nD) (t : Fin cfg0.N) : Vec F S1x256 .f32 := iblk m c 8 t
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev b9 (c : Dev nD) (t : Fin cfg0.N) : Vec F S1x256 .f32 := iblk m c 9 t
abbrev ms10 (t : Fin cfg0.N) : Memref sig .tc .vmem S128x256 .f32 := win0_10.stage (cfg0.slots t 10)
abbrev hs10 (t : Fin cfg0.N) : (ms10 t).IsWhole := hstage0_10 ((cfg0.slots t 10).cast nbuf0_10)
abbrev b10 (c : Dev nD) (t : Fin cfg0.N) : Vec F S128x256 .f32 := iblk m c 10 t

theorem N16 : cfg0.N = 16 := N_0

/-- The point that holds row `r` of the 1024 rows: rows come in slabs of 128. -/
def tOf (r : ℕ) (h : r < 1024) : Fin cfg0.N := ⟨r / 128, by rw [N16]; omega⟩
theorem tOf_val (r : ℕ) (h : r < 1024) : (tOf r h).val = r / 128 := rfl
/-- Point seven, where the serial tail runs. -/
def t7 : Fin cfg0.N := ⟨7, by rw [N16]; decide⟩

/-! ## What the scratch buffers come to hold, as functions of the argument arrays -/

/-- The adjacency with its diagonal forced to one, all 1024 rows: row `r` is computed at point `r / 128`. -/
def A16 (c : Dev nD) : Vec F S1024x1024 .bf16 := fun y =>
  k0_pay2 (grid0.coords (tOf (y 0).val (y 0).isLt)) (b0 m c (tOf (y 0).val (y 0).isLt))
    (ValueIdx.ix2 ⟨(y 0).val % 128, Nat.mod_lt _ (by decide)⟩ (y 1))
/-- The degrees: the row sums of that matrix. -/
def DEG (c : Dev nD) : Vec F S1024x1 .f32 := fun y =>
  k0_pay3 (grid0.coords (tOf (y 0).val (y 0).isLt)) (b0 m c (tOf (y 0).val (y 0).isLt))
    (ValueIdx.ix2 ⟨(y 0).val % 128, Nat.mod_lt _ (by decide)⟩ (y 1))
/-- The first layer's feature product, row slab by row slab. -/
def XW (c : Dev nD) : Vec F S1024x256 .f32 := fun y =>
  k0_pay4 (b1 m c (tOf (y 0).val (y 0).isLt)) (b2 m c (tOf (y 0).val (y 0).isLt))
    (ValueIdx.ix2 ⟨(y 0).val % 128, Nat.mod_lt _ (by decide)⟩ (y 1))

/-- The inverse square roots of the degrees and the first layer after its batch normalisation, as the tail has them. -/
def TV10 (c : Dev nD) : Vec F S1024x1 .f32 := k0_pay11 (DEG m c)
def TV48 (c : Dev nD) : Vec F S1024x256 .f32 := k0_pay12 (DEG m c) (A16 m c) (XW m c) (b3 m c t7) (b4 m c t7) (b5 m c t7)
/-- The second layer before its normalisation, and its column means and inverse deviations. -/
def H2 (c : Dev nD) : Vec F S1024x256 .f32 := k0_pay7 (TV10 m c) (A16 m c) (TV48 m c) k0_pay13 (b6 m c t7) (b7 m c t7)
def MU2 (c : Dev nD) : Vec F S1x256 .f32 := k0_pay8 (TV10 m c) (A16 m c) (TV48 m c) k0_pay13 (b6 m c t7) (b7 m c t7)
def RS2 (c : Dev nD) : Vec F S1x256 .f32 := k0_pay9 (TV10 m c) (A16 m c) (TV48 m c) k0_pay13 (b6 m c t7) (b7 m c t7)
/-- The two statistic rows side by side: row 0 the means, row 1 the inverse deviations. -/
def ST (c : Dev nD) : Vec F S2x256 .f32 := fun y =>
  if (y 0).val = 0 then MU2 m c (ValueIdx.ix2 (0 : Fin 1) (y 1)) else RS2 m c (ValueIdx.ix2 (0 : Fin 1) (y 1))

/-! ## The invariant between points -/

/-- Before point `n` the first `128 n` rows of the three row-wise scratch buffers are in place. -/
def RowsInv (c : Dev nD) (n : ℕ) (d0 : Vec F S1024x1024 .bf16) (d1 : Vec F S1024x1 .f32) (d2 : Vec F S1024x256 .f32) : Prop :=
  (∀ y : S1024x1024.Idx, (y 0).val < 128 * n → d0 y = A16 m c y)
  ∧ (∀ y : S1024x1.Idx, (y 0).val < 128 * n → d1 y = DEG m c y)
  ∧ (∀ y : S1024x256.Idx, (y 0).val < 128 * n → d2 y = XW m c y)

/-- From point eight on the tail's two results are in place as well. -/
def Inv (c : Dev nD) (n : ℕ) (d0 : Vec F S1024x1024 .bf16) (d1 : Vec F S1024x1 .f32) (d2 : Vec F S1024x256 .f32)
    (d3 : Vec F S1024x256 .f32) (d4 : Vec F S2x256 .f32) : Prop :=
  RowsInv m c n d0 d1 d2 ∧ (8 ≤ n → d3 = H2 m c ∧ d4 = ST m c)

theorem inv_zero (c : Dev nD) (d0 d1 d2 d3 d4) : Inv m c 0 d0 d1 d2 d3 d4 :=
  ⟨⟨fun y h => absurd h (by omega), fun y h => absurd h (by omega), fun y h => absurd h (by omega)⟩, fun h => absurd h (by omega)⟩

/-- All eight slabs in place: the three buffers are the named arrays. -/
theorem rows_full (c : Dev nD) (n : ℕ) (hn : 8 ≤ n) (d0 d1 d2) (h : RowsInv m c n d0 d1 d2) :
    d0 = A16 m c ∧ d1 = DEG m c ∧ d2 = XW m c :=
  ⟨funext fun y => h.1 y (by have : (y 0).val < 1024 := (y 0).isLt; omega),
   funext fun y => h.2.1 y (by have : (y 0).val < 1024 := (y 0).isLt; omega),
   funext fun y => h.2.2 y (by have : (y 0).val < 1024 := (y 0).isLt; omega)⟩

/-! ## One slab more -/

theorem off1_at (t : Fin cfg0.N) : k0_off1 (grid0.coords t) = ![128 * t.val, 0] := by rw [k0_off1_eq, coord_val]
theorem off2_at (t : Fin cfg0.N) : k0_off2 (grid0.coords t) = ![128 * t.val, 0] := by rw [k0_off2_eq, coord_val]
theorem off3_at (t : Fin cfg0.N) : k0_off3 (grid0.coords t) = ![128 * t.val, 0] := by rw [k0_off3_eq, coord_val]

/-- A row below the first `128 (t + 1)` is either below `128 t` or in the slab of point `t`. -/
theorem tOf_eq (t : Fin cfg0.N) (r : ℕ) (hr : r < 1024) (h1 : 128 * t.val ≤ r) (h2 : r < 128 * t.val + 128) : tOf r hr = t :=
  Fin.ext (by rw [tOf_val]; omega)

/-- The slab stores of point `t` put rows `[128 t, 128 t + 128)` of the three row-wise buffers in place and leave the
    rows below as they were. -/
theorem rows_step (c : Dev nD) (t : Fin cfg0.N) (ht : t.val < 8) (hc1 : k0_cond1 (grid0.coords t) = 1#1)
    (d0 : Vec F S1024x1024 .bf16) (d1 : Vec F S1024x1 .f32) (d2 : Vec F S1024x256 .f32) (h : RowsInv m c t.val d0 d1 d2) :
    RowsInv m c (t.val + 1)
      (upd scM0 hM0 d0 (L12 (grid0.coords t) (ms0 t) (hs0 t) hc1 (b0 m c t)))
      (upd scM1 hM1 d1 (L13 (grid0.coords t) (ms0 t) (hs0 t) hc1 (b0 m c t)))
      (upd scM2 hM2 d2 (L14 (grid0.coords t) (ms1 t) (hs1 t) (ms2 t) (hs2 t) hc1 (b1 m c t) (b2 m c t))) := by
  refine ⟨fun y hy => ?_, fun y hy => ?_, fun y hy => ?_⟩
  · have hr : (y 0).val < 1024 := (y 0).isLt
    by_cases hlt : (y 0).val < 128 * t.val
    · unfold L12
      refine (View.read_writes_cons_rows_of_not_mem (W := 128) scM0.view (hM0.unread d0) _ _ [] y (off1_at t) rfl (Or.inl hlt)).trans ?_
      rw [View.writes_nil, hM0.read_unread]; exact h.1 y hlt
    · unfold L12
      refine (View.read_writes_cons_rows_of_mem scM0.view (hM0.unread d0) _ _ [] y
        (ValueIdx.ix2 ⟨(y 0).val % 128, Nat.mod_lt _ (by decide)⟩ (y 1)) (off1_at t)
        (by show (y 0).val = 128 * t.val + (y 0).val % 128; omega) rfl).trans ?_
      rw [readAt_whole (ms0 t) (hs0 t) zero2]
      unfold A16; rw [tOf_eq t (y 0).val hr (by omega) (by omega)]
      rfl
  · have hr : (y 0).val < 1024 := (y 0).isLt
    by_cases hlt : (y 0).val < 128 * t.val
    · unfold L13
      refine (View.read_writes_cons_rows_of_not_mem (W := 128) scM1.view (hM1.unread d1) _ _ [] y (off2_at t) rfl (Or.inl hlt)).trans ?_
      rw [View.writes_nil, hM1.read_unread]; exact h.2.1 y hlt
    · unfold L13
      refine (View.read_writes_cons_rows_of_mem scM1.view (hM1.unread d1) _ _ [] y
        (ValueIdx.ix2 ⟨(y 0).val % 128, Nat.mod_lt _ (by decide)⟩ (y 1)) (off2_at t)
        (by show (y 0).val = 128 * t.val + (y 0).val % 128; omega) rfl).trans ?_
      rw [readAt_whole (ms0 t) (hs0 t) zero2]
      unfold DEG; rw [tOf_eq t (y 0).val hr (by omega) (by omega)]
      rfl
  · have hr : (y 0).val < 1024 := (y 0).isLt
    by_cases hlt : (y 0).val < 128 * t.val
    · unfold L14
      refine (View.read_writes_cons_rows_of_not_mem (W := 128) scM2.view (hM2.unread d2) _ _ [] y (off3_at t) rfl (Or.inl hlt)).trans ?_
      rw [View.writes_nil, hM2.read_unread]; exact h.2.2 y hlt
    · unfold L14
      refine (View.read_writes_cons_rows_of_mem scM2.view (hM2.unread d2) _ _ [] y
        (ValueIdx.ix2 ⟨(y 0).val % 128, Nat.mod_lt _ (by decide)⟩ (y 1)) (off3_at t)
        (by show (y 0).val = 128 * t.val + (y 0).val % 128; omega) rfl).trans ?_
      rw [readAt_whole (ms1 t) (hs1 t) zero2, readAt_whole (ms2 t) (hs2 t) zero2]
      unfold XW; rw [tOf_eq t (y 0).val hr (by omega) (by omega)]
      rfl

/-- Rows already in place stay in place at a point that stores into none of the three buffers. -/
theorem rows_mono (c : Dev nD) (n : ℕ) (hn : 8 ≤ n) (d0 d1 d2) (h : RowsInv m c n d0 d1 d2) : RowsInv m c (n + 1) d0 d1 d2 :=
  ⟨fun y _ => h.1 y (by have : (y 0).val < 1024 := (y 0).isLt; omega),
   fun y _ => h.2.1 y (by have : (y 0).val < 1024 := (y 0).isLt; omega),
   fun y _ => h.2.2 y (by have : (y 0).val < 1024 := (y 0).isLt; omega)⟩

/-! ## The serial tail at point seven -/

theorem hc1_7 : k0_cond1 (grid0.coords t7) = 1#1 := (hcond1 t7).mpr (by show (7 : ℕ) < 8; omega)

/-- A load of a whole buffer, whatever it holds, reads what it holds. -/
theorem readAt_whole' {S : Shape} {e : EltTy} (M : Memref sig .tc .vmem S e) (f : M.view.ty.Contents (Elt F))
    {off : Fin S.rank → ℕ} (hz : off = fun _ => 0) (inb : ∀ a, off a + S.size a ≤ S.size a) :
    View.readAt (Elt F) M.view (Rect.unit off S.size inb).toLoadRect f = M.view.read (Elt F) f := by
  rw [View.readAt_eq_ld, View.ld_unit_zero hz]

/-- What the tail loads at point seven, over the scratch contents the point found. -/
def q9 (c : Dev nD) (d1 : Vec F S1024x1 .f32) : Vec F S1024x1 .f32 :=
  tV9 (grid0.coords t7) (ms0 t7) (hs0 t7) scM1 hM1 hc1_7 (b0 m c t7) d1
def q11 (c : Dev nD) (d0 : Vec F S1024x1024 .bf16) : Vec F S1024x1024 .bf16 :=
  tV11 (grid0.coords t7) (ms0 t7) (hs0 t7) scM0 hM0 hc1_7 (b0 m c t7) d0
def q12 (c : Dev nD) (d2 : Vec F S1024x256 .f32) : Vec F S1024x256 .f32 :=
  tV12 (grid0.coords t7) (ms1 t7) (hs1 t7) (ms2 t7) (hs2 t7) scM2 hM2 hc1_7 (b1 m c t7) (b2 m c t7) d2
def q48 (c : Dev nD) (d0 : Vec F S1024x1024 .bf16) (d1 : Vec F S1024x1 .f32) (d2 : Vec F S1024x256 .f32) : Vec F S1024x256 .f32 :=
  k0_pay12 (q9 m c d1) (q11 m c d0) (q12 m c d2) (tV19 (ms3 t7) (hs3 t7) (b3 m c t7)) (tV34 (ms4 t7) (hs4 t7) (b4 m c t7))
    (tV45 (ms5 t7) (hs5 t7) (b5 m c t7))
def q51 (c : Dev nD) : Vec F S256x256 .f32 := tV51 (ms6 t7) (hs6 t7) (b6 m c t7)
def q59 (c : Dev nD) : Vec F S1x256 .f32 := tV59 (ms7 t7) (hs7 t7) (b7 m c t7)

section
variable (c : Dev nD) (d0 : Vec F S1024x1024 .bf16) (d1 : Vec F S1024x1 .f32) (d2 : Vec F S1024x256 .f32)
  (h : RowsInv m c t7.val d0 d1 d2)
include h

theorem q9_eq : q9 m c d1 = DEG m c := by
  unfold q9 tV9; rw [readAt_whole' scM1 _ zero2]
  exact (rows_full m c 8 (le_refl _) _ _ _ (rows_step m c t7 (by show (7 : ℕ) < 8; omega) hc1_7 d0 d1 d2 h)).2.1
theorem q11_eq : q11 m c d0 = A16 m c := by
  unfold q11 tV11; rw [readAt_whole' scM0 _ zero2]
  exact (rows_full m c 8 (le_refl _) _ _ _ (rows_step m c t7 (by show (7 : ℕ) < 8; omega) hc1_7 d0 d1 d2 h)).1
theorem q12_eq : q12 m c d2 = XW m c := by
  unfold q12 tV12; rw [readAt_whole' scM2 _ zero2]
  exact (rows_full m c 8 (le_refl _) _ _ _ (rows_step m c t7 (by show (7 : ℕ) < 8; omega) hc1_7 d0 d1 d2 h)).2.2
theorem q48_eq : q48 m c d0 d1 d2 = TV48 m c := by
  unfold q48 TV48 tV19 tV34 tV45
  rw [q9_eq m c d0 d1 d2 h, q11_eq m c d0 d1 d2 h, q12_eq m c d0 d1 d2 h, readAt_whole (ms3 t7) (hs3 t7) zero2,
    readAt_whole (ms4 t7) (hs4 t7) zero2, readAt_whole (ms5 t7) (hs5 t7) zero2]
omit h in
theorem q51_eq : q51 m c = b6 m c t7 := by unfold q51 tV51; rw [readAt_whole (ms6 t7) (hs6 t7) zero2]
omit h in
theorem q59_eq : q59 m c = b7 m c t7 := by unfold q59 tV59; rw [readAt_whole (ms7 t7) (hs7 t7) zero2]

/-- The one store that covers the carried layer-two buffer leaves the second layer before its normalisation. -/
theorem tail_h2 (d3 : Vec F S1024x256 .f32) :
    upd scM3 hM3 d3 [⟨Rect.unit ![0, 0] S1024x256.size inb_S1024x256_S1024x256_0_0,
      k0_pay7 (k0_pay11 (q9 m c d1)) (q11 m c d0) (q48 m c d0 d1 d2) k0_pay13 (q51 m c) (q59 m c)⟩] = H2 m c := by
  funext y
  refine (View.read_writes_cons_unit_of_mem scM3.view (hM3.unread d3) inb_S1024x256_S1024x256_0_0 _ [] y y zero2
    (fun a => (Nat.zero_add _).symm)).trans ?_
  rw [q9_eq m c d0 d1 d2 h, q11_eq m c d0 d1 d2 h, q48_eq m c d0 d1 d2 h, q51_eq, q59_eq]
  rfl

/-- The two single-row stores leave the column means in row 0 and the inverse deviations in row 1. -/
theorem tail_st (d4 : Vec F S2x256 .f32) :
    upd scM4 hM4 d4 [⟨Rect.unit ![1, 0] S1x256.size inb_S2x256_S1x256_1_0,
        k0_pay9 (k0_pay11 (q9 m c d1)) (q11 m c d0) (q48 m c d0 d1 d2) k0_pay13 (q51 m c) (q59 m c)⟩,
      ⟨Rect.unit ![0, 0] S1x256.size inb_S2x256_S1x256_0_0,
        k0_pay8 (k0_pay11 (q9 m c d1)) (q11 m c d0) (q48 m c d0 d1 d2) k0_pay13 (q51 m c) (q59 m c)⟩] = ST m c := by
  funext y
  have hy : (y 0).val < 2 := (y 0).isLt
  rw [q9_eq m c d0 d1 d2 h, q11_eq m c d0 d1 d2 h, q48_eq m c d0 d1 d2 h, q51_eq, q59_eq]
  by_cases h0 : (y 0).val = 0
  · refine (View.read_writes_cons_rows_of_not_mem (o := 1) (W := 1) scM4.view (hM4.unread d4) _ _ _ y rfl rfl (Or.inl (by omega))).trans ?_
    refine (View.read_writes_cons_rows_of_mem (o := 0) scM4.view (hM4.unread d4) _ _ [] y
      (ValueIdx.ix2 (0 : Fin 1) (y 1)) rfl (by show (y 0).val = 0 + 0; omega) rfl).trans ?_
    unfold ST MU2; rw [if_pos h0]; rfl
  · refine (View.read_writes_cons_rows_of_mem (o := 1) scM4.view (hM4.unread d4) _ _ _ y
      (ValueIdx.ix2 (0 : Fin 1) (y 1)) rfl (by show (y 0).val = 1 + 0; omega) rfl).trans ?_
    unfold ST RS2; rw [if_neg h0]; rfl
end

/-! ## What a write-out point leaves in the result's staging buffer -/

/-- Block `t - 8` of the result, at a point from eight on (no block is stored before). -/
def OUT10 (c : Dev nD) (t : Fin cfg0.N) : Vec F S128x256 .f32 :=
  if h : 8 ≤ t.val then outC (grid0.coords t) ((hcond3 t).mpr h) (b8 m c t) (b9 m c t) (H2 m c) (ST m c)
  else fun _ => Classical.choice (Elt.nonempty F .f32)

end Cert.Kernel.Body

end
-- ==== Proof.K.Obl.lean ====
/-
  The region's invariant as a proposition over the five carried buffers, the data of the launch (each input window
  leaves its block in place; the result's window is untouched below point eight and holds block t - 8 from then on),
  the body's obligation at every point by the three control cases, and the run: the program ends, nothing faults,
  and the argument arrays end as they began.
-/
import proofs.«169710_g34591666602572_cont_8to1_b_883_10_alg».proof.Proof.K.Inv
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's invariant -/

/-- What the launch hands the body and takes back: the five scratch buffers at some contents, and the generator's register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)
          ∗ (∃ d, owns (c : Thread nD τ) scM4 fullShare d)) ∗ (∃ r, prngReg c r)) := by
  unfold Pipeline.ΦA; rw [scopedRest0_eq]; simp only [scM0, scM1, scM2, scM3, scM4, owns_whole]; try rfl

/-- Before point `n`: the scratch buffers at contents that satisfy the row-wise invariant. -/
def PhiS (c : Dev nD) (n : ℕ) : sProp 𝕄 :=
  iprop(∃ d0 : Vec F S1024x1024 .bf16, ∃ d1 : Vec F S1024x1 .f32, ∃ d2 : Vec F S1024x256 .f32, ∃ d3 : Vec F S1024x256 .f32,
    ∃ d4 : Vec F S2x256 .f32, ⌜Inv m c n d0 d1 d2 d3 d4⌝
      ∗ owns (c : Thread nD τ) scM0 fullShare d0 ∗ owns (c : Thread nD τ) scM1 fullShare d1 ∗ owns (c : Thread nD τ) scM2 fullShare d2
      ∗ owns (c : Thread nD τ) scM3 fullShare d3 ∗ owns (c : Thread nD τ) scM4 fullShare d4 ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => OUT10 m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem liveAt_0 : ∀ t : Fin cfg0.N, cfg0.idle 0 (grid0.coords t) = false := by decide +kernel
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem liveAt_1 : ∀ t : Fin cfg0.N, cfg0.idle 1 (grid0.coords t) = false := by decide +kernel
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem liveAt_2 : ∀ t : Fin cfg0.N, cfg0.idle 2 (grid0.coords t) = false := by decide +kernel
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem liveAt_3 : ∀ t : Fin cfg0.N, cfg0.idle 3 (grid0.coords t) = false := by decide +kernel
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem liveAt_4 : ∀ t : Fin cfg0.N, cfg0.idle 4 (grid0.coords t) = false := by decide +kernel
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem liveAt_5 : ∀ t : Fin cfg0.N, cfg0.idle 5 (grid0.coords t) = false := by decide +kernel
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem liveAt_6 : ∀ t : Fin cfg0.N, cfg0.idle 6 (grid0.coords t) = false := by decide +kernel
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem liveAt_7 : ∀ t : Fin cfg0.N, cfg0.idle 7 (grid0.coords t) = false := by decide +kernel
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem liveAt_8 : ∀ t : Fin cfg0.N, cfg0.idle 8 (grid0.coords t) = false := by decide +kernel
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem liveAt_9 : ∀ t : Fin cfg0.N, cfg0.idle 9 (grid0.coords t) = false := by decide +kernel
theorem after0_10 (c : Dev nD) (t : Fin cfg0.N) : (dats m 0 c).after 10 t = OUT10 m c t := by dsimp only [dats]
/-- Below point eight nothing is stored into the result's staging buffer and nothing is written back. -/
theorem idleAt10 : ∀ t : Fin cfg0.N, t.val < 8 → cfg0.idle 10 (grid0.coords t) = true := by decide +kernel
theorem noFlush10 : ∀ t : Fin cfg0.N, t.val < 8 → (cfg0.win 10).flush t = false := by decide +kernel
theorem liveAt10 : ∀ t : Fin cfg0.N, 8 ≤ t.val → cfg0.idle 10 (grid0.coords t) = false := by decide +kernel

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from (by dsimp only [dats]; simp only [Fin.coe_castSucc])]
  rw [show (dats m 0 c).leavesExact 0 t = owns (c : Thread nD τ) (ms0 t) fullShare ((dats m 0 c).after 0 t) from by
    unfold Dat.leavesExact; rw [liveAt_0 t], after0_0]
  rw [show (dats m 0 c).leavesExact 1 t = owns (c : Thread nD τ) (ms1 t) fullShare ((dats m 0 c).after 1 t) from by
    unfold Dat.leavesExact; rw [liveAt_1 t], after0_1]
  rw [show (dats m 0 c).leavesExact 2 t = owns (c : Thread nD τ) (ms2 t) fullShare ((dats m 0 c).after 2 t) from by
    unfold Dat.leavesExact; rw [liveAt_2 t], after0_2]
  rw [show (dats m 0 c).leavesExact 3 t = owns (c : Thread nD τ) (ms3 t) fullShare ((dats m 0 c).after 3 t) from by
    unfold Dat.leavesExact; rw [liveAt_3 t], after0_3]
  rw [show (dats m 0 c).leavesExact 4 t = owns (c : Thread nD τ) (ms4 t) fullShare ((dats m 0 c).after 4 t) from by
    unfold Dat.leavesExact; rw [liveAt_4 t], after0_4]
  rw [show (dats m 0 c).leavesExact 5 t = owns (c : Thread nD τ) (ms5 t) fullShare ((dats m 0 c).after 5 t) from by
    unfold Dat.leavesExact; rw [liveAt_5 t], after0_5]
  rw [show (dats m 0 c).leavesExact 6 t = owns (c : Thread nD τ) (ms6 t) fullShare ((dats m 0 c).after 6 t) from by
    unfold Dat.leavesExact; rw [liveAt_6 t], after0_6]
  rw [show (dats m 0 c).leavesExact 7 t = owns (c : Thread nD τ) (ms7 t) fullShare ((dats m 0 c).after 7 t) from by
    unfold Dat.leavesExact; rw [liveAt_7 t], after0_7]
  rw [show (dats m 0 c).leavesExact 8 t = owns (c : Thread nD τ) (ms8 t) fullShare ((dats m 0 c).after 8 t) from by
    unfold Dat.leavesExact; rw [liveAt_8 t], after0_8]
  rw [show (dats m 0 c).leavesExact 9 t = owns (c : Thread nD τ) (ms9 t) fullShare ((dats m 0 c).after 9 t) from by
    unfold Dat.leavesExact; rw [liveAt_9 t], after0_9]
  have hN : t.val < 16 := lt_of_lt_of_eq t.isLt N16
  unfold PhiS
  by_cases hA : t.val < 7
  · -- a row-preparing point
    have hc1 : k0_cond1 (grid0.coords t) = 1#1 := (hcond1 t).mpr (by omega)
    have hc2 : ¬ cond2 (grid0.coords t) := fun h => by have := (hcond2 t).mp h; omega
    have hc3 : ¬ k0_cond3 (grid0.coords t) = 1#1 := fun h => by have := (hcond3 t).mp h; omega
    rw [Dat.leavesExact_idle (dats m 0 c) 10 t (idleAt10 t (by omega)) (noFlush10 t (by omega))]
    iintro ⟨⟨%d0, %d1, %d2, %d3, %d4, %hinv, HS0, HS1, HS2, HS3, HS4, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
    iapply (runA c (grid0.coords t) _ _ _ _ _ _ _ _ _ _ _ _ _ _ _ _ _ _ _ _ _ _ _ _ _ _ _ _ _ _ _ _ hc1 hc2 hc3 (iblk m c 0 t) (iblk m c 1 t) (iblk m c 2 t) d0 d1 d2 Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 HS3 HS4 Hg]
    · iexists _, _, _, d3, d4
      isplitr
      · ipureintro
        exact ⟨rows_step m c t (by omega) hc1 d0 d1 d2 hinv.1, fun h => absurd h (by omega)⟩
      isplitl [HS0]; · iexact HS0
      isplitl [HS1]; · iexact HS1
      isplitl [HS2]; · iexact HS2
      isplitl [HS3]; · iexact HS3
      isplitl [HS4]; · iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases hB : t.val = 7
    · -- point seven: the last slab and the serial tail
      obtain rfl : t = t7 := Fin.ext hB
      have hc1 : k0_cond1 (grid0.coords t7) = 1#1 := hc1_7
      have hc2 : cond2 (grid0.coords t7) := (hcond2 t7).mpr rfl
      have hc3 : ¬ k0_cond3 (grid0.coords t7) = 1#1 := fun h => by have := (hcond3 t7).mp h; have : t7.val = 7 := rfl; omega
      rw [Dat.leavesExact_idle (dats m 0 c) 10 t7 (idleAt10 t7 (by show (7 : ℕ) < 8; omega)) (noFlush10 t7 (by show (7 : ℕ) < 8; omega))]
      iintro ⟨⟨%d0, %d1, %d2, %d3, %d4, %hinv, HS0, HS1, HS2, HS3, HS4, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
      iapply (runB c (grid0.coords t7) _ _ _ _ _ _ _ _ _ _ _ _ _ _ _ _ _ _ _ _ _ _ _ _ _ _ _ _ _ _ _ _ hc1 hc2 hc3
        (iblk m c 0 t7) (iblk m c 1 t7) (iblk m c 2 t7) (iblk m c 3 t7) (iblk m c 4 t7) (iblk m c 5 t7) (iblk m c 6 t7) (iblk m c 7 t7)
        d0 d1 d2 d3 d4 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · iexists _, _, _, _, _
        isplitr
        swap
        · isplitl [HS0]; · iexact HS0
          isplitl [HS1]; · iexact HS1
          isplitl [HS2]; · iexact HS2
          isplitl [HS3]; · iexact HS3
          isplitl [HS4]; · iexact HS4
          iexact Hg
        ipureintro
        exact ⟨rows_step m c t7 (by show (7 : ℕ) < 8; omega) hc1 d0 d1 d2 hinv.1,
          fun _ => ⟨tail_h2 m c d0 d1 d2 hinv.1 d3, tail_st m c d0 d1 d2 hinv.1 d4⟩⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
    · -- a write-out point
      have h8 : 8 ≤ t.val := by omega
      have hc1 : ¬ k0_cond1 (grid0.coords t) = 1#1 := fun h => by have := (hcond1 t).mp h; omega
      have hc2 : ¬ cond2 (grid0.coords t) := fun h => by have := (hcond2 t).mp h; omega
      have hc3 : k0_cond3 (grid0.coords t) = 1#1 := (hcond3 t).mpr h8
      rw [show (dats m 0 c).leavesExact 10 t = owns (c : Thread nD τ) (ms10 t) fullShare ((dats m 0 c).after 10 t) from by
        unfold Dat.leavesExact; rw [liveAt10 t h8], after0_10, show OUT10 m c t = outC (grid0.coords t) hc3 (b8 m c t) (b9 m c t) (H2 m c) (ST m c) from dif_pos h8]
      iintro ⟨⟨%d0, %d1, %d2, %d3, %d4, %hinv, HS0, HS1, HS2, HS3, HS4, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
      obtain ⟨rfl, rfl⟩ := hinv.2 h8
      iapply (runC c (grid0.coords t) _ _ _ _ _ _ _ _ _ _ _ _ _ _ _ _ _ _ _ _ _ _ _ _ _ _ _ _ _ _ _ _ hc1 hc2 hc3 (iblk m c 8 t) (iblk m c 9 t) (H2 m c) (ST m c) Set.univ _)
      isplitl [H8]; · iexact H8
      isplitl [H9]; · iexact H9
      isplitl [H10]; · iexists _; iexact H10
      isplitl [HS3]; · iexact HS3
      isplitl [HS4]; · iexact HS4
      iintro ⟨H8, H9, H10, HS3, HS4⟩
      isplitl [HS0 HS1 HS2 HS3 HS4 Hg]
      · iexists d0, d1, d2, _, _
        isplitr
        · ipureintro
          exact ⟨rows_mono m c t.val h8 d0 d1 d2 hinv.1, fun _ => ⟨rfl, rfl⟩⟩
        isplitl [HS0]; · iexact HS0
        isplitl [HS1]; · iexact HS1
        isplitl [HS2]; · iexact HS2
        isplitl [HS3]; · iexact HS3
        isplitl [HS4]; · iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch buffers hold anything: no row is claimed yet. -/
theorem hin (c : Dev nD) : Pipeline.ΦA spec0 c ⊢ (dats m 0 c).Φ 0 := by
  rw [show (dats m 0 c).Φ 0 = PhiS m c 0 from rfl, PhiA0_eq]; unfold PhiS
  iintro ⟨⟨⟨%d0, H0⟩, ⟨%d1, H1⟩, ⟨%d2, H2⟩, ⟨%d3, H3⟩, ⟨%d4, H4⟩⟩, Hg⟩
  iexists d0, d1, d2, d3, d4
  isplitr; · ipureintro; exact inv_zero m c d0 d1 d2 d3 d4
  isplitl [H0]; · iexact H0
  isplitl [H1]; · iexact H1
  isplitl [H2]; · iexact H2
  isplitl [H3]; · iexact H3
  isplitl [H4]; · iexact H4
  iexact Hg

/-- After the last point what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]; unfold PhiS
  iintro ⟨%d0, %d1, %d2, %d3, %d4, -, H0, H1, H2, H3, H4, Hg⟩
  isplitr [Hg]
  · isplitl [H0]; · iexists _; iexact H0
    isplitl [H1]; · iexists _; iexact H1
    isplitl [H2]; · iexists _; iexact H2
    isplitl [H3]; · iexists _; iexact H3
    iexists _; iexact H4
  iexact Hg

/-! ## The run and the frame -/

set_option backward.isDefEq.respectTransparency.types false in
/-- Every weakly fair execution of the program ends, without a fault, with the result's array at what the write-backs
    leave and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end, nothing faults, and the ten argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Body

end
-- ==== Proof.KI.Cases.lean ====
/-
  The body of the fused kernel at one grid point, in its three control cases. Below point eight it forces the diagonal
  of a 128-row slab of the adjacency to one and stores the slab, its row sums and the slab's rows of the first feature
  product into three carried buffers; at point seven it goes on to the serial tail (both aggregations, the first batch
  normalisation, the rectifier, the second weight product) and stores the second layer and its column statistics; from
  point eight on it normalises one 128-row block of the second layer and stores it into the result's block.
  Each case is stated with what it stores written out as pieces over the buffers' prior contents.
-/
import proofs.«169710_g34591666602572_cont_8to1_b_883_10_alg».proof.Proof.Gen.KernelIdeal.Frame
import proofs.«169710_g34591666602572_cont_8to1_b_883_10_alg».proof.Proof.Gen.KernelIdeal.Skeleton
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions over the sixteen grid points

The body has three guarded regions: rows of the adjacency are prepared while the point is below eight, the
serial tail runs at point seven, and one block of the result is normalised and written at each point from
eight on. -/

/-- The second region's condition, as the body spells it (the point is the seventh). -/
abbrev cond2 (i : grid0.Coords) : Prop :=
  Scalar.cmpi .ne (Scalar.extui (Scalar.cmpi .eq (BitVec.ofNat 32 (i 0).val) 7#32)) 0#32 = 1#1

theorem hcond1 : ∀ t : Fin cfg0.N, k0_cond1 (grid0.coords t) = 1#1 ↔ t.val < 8 :=
  (by decide +kernel : ∀ t : Fin grid0.N, k0_cond1 (grid0.coords t) = 1#1 ↔ t.val < 8)
theorem hcond2 : ∀ t : Fin cfg0.N, cond2 (grid0.coords t) ↔ t.val = 7 :=
  (by decide +kernel : ∀ t : Fin grid0.N, cond2 (grid0.coords t) ↔ t.val = 7)
theorem hcond3 : ∀ t : Fin cfg0.N, k0_cond3 (grid0.coords t) = 1#1 ↔ 8 ≤ t.val :=
  (by decide +kernel : ∀ t : Fin grid0.N, k0_cond3 (grid0.coords t) = 1#1 ↔ 8 ≤ t.val)
/-- The one grid coordinate is the point's number. -/
theorem coord_val : ∀ t : Fin cfg0.N, ((grid0.coords t) 0).val = t.val :=
  (by decide +kernel : ∀ t : Fin grid0.N, ((grid0.coords t) 0).val = t.val)
/-- From point eight on, the block of the carried layer-two rows that is read starts at row 128 (t - 8). -/
theorem off4_eq : ∀ t : Fin cfg0.N, 8 ≤ t.val → k0_off4 (grid0.coords t) = ![128 * (t.val - 8), 0] :=
  (by decide +kernel : ∀ t : Fin grid0.N, 8 ≤ t.val → k0_off4 (grid0.coords t) = ![128 * (t.val - 8), 0])

theorem zero2 : (![0, 0] : Fin 2 → ℕ) = fun _ => 0 := by
  funext a; fin_cases a <;> rfl

/-- A load of a whole buffer reads its contents. -/
theorem readAt_whole {S : Shape} {e : EltTy} (M : Memref sig .tc .vmem S e) (h : M.IsWhole) {off : Fin S.rank → ℕ}
    (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

/-- A load through any rectangle of a whole buffer reads the contents at the rectangle's indices. -/
theorem readAt_rect {S : Shape} {e : EltTy} (M : Memref sig .tc .vmem S e) (h : M.IsWhole) (r : Rect S)
    (X : S.Idx → Elt F e) :
    View.readAt (Elt F) M.view r.toLoadRect (h.unread X) = View.ld X r := by
  rw [View.readAt_eq_ld, h.read_unread]

/-! ## The write-out points (eight to fifteen) -/

/-- What a write-out point stores: the block of carried layer-two rows, centred and scaled by the carried
    column statistics, with the second layer's scale and shift. -/
def outC (i : grid0.Coords) (hc3 : k0_cond3 i = 1#1) (x9 x10 : Vec F S1x256 .f32) (xs3 : Vec F S1024x256 .f32)
    (xs4 : Vec F S2x256 .f32) : Vec F S128x256 .f32 :=
  k0_pay10 (View.ld xs3 (Rect.unit (k0_off4 i) S128x256.size (k0_off4_inb i hc3))) x9
    (View.ld xs4 (Rect.unit ![0, 0] S1x256.size inb_S2x256_S1x256_0_0))
    (View.ld xs4 (Rect.unit ![1, 0] S1x256.size inb_S2x256_S1x256_1_0)) x10

set_option maxHeartbeats 1000000 in
theorem runC (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S2x256 .f32) (harg16 : arg16.IsWhole)
    (hc1 : ¬ k0_cond1 i = 1#1) (hc2 : ¬ cond2 i) (hc3 : k0_cond3 i = 1#1)
    (x9 : Vec F S1x256 .f32) (x10 : Vec F S1x256 .f32) (xs3 : Vec F S1024x256 .f32) (xs4 : Vec F S2x256 .f32)
    (E : Set ℕ) (K : PUnit → sProp 𝕄) :
    iprop(owns (c : Thread nD τ) arg9 fullShare x9 ∗ owns (c : Thread nD τ) arg10 fullShare x10
        ∗ (∃ d, owns (c : Thread nD τ) arg11 fullShare d)
        ∗ owns (c : Thread nD τ) arg15 fullShare xs3 ∗ owns (c : Thread nD τ) arg16 fullShare xs4
        ∗ (iprop(owns (c : Thread nD τ) arg9 fullShare x9 ∗ owns (c : Thread nD τ) arg10 fullShare x10
            ∗ owns (c : Thread nD τ) arg11 fullShare (outC i hc3 x9 x10 xs3 xs4)
            ∗ owns (c : Thread nD τ) arg15 fullShare xs3 ∗ owns (c : Thread nD τ) arg16 fullShare xs4) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gcn_body_eq_skeleton]; unfold cc0__gcn_body_skel
  unfold owns
  iintro ⟨⟨%f9, %hf9, H9⟩, ⟨%f10, %hf10, H10⟩, ⟨%d11, %f11, -, H11⟩, ⟨%f15, %hf15, H15⟩, ⟨%f16, %hf16, H16⟩, Hk⟩
  obtain rfl := harg9.eq_unread hf9; obtain rfl := harg10.eq_unread hf10
  obtain rfl := harg15.eq_unread hf15; obtain rfl := harg16.eq_unread hf16
  sl_exec (disch := first | exact hc1 | exact hc2 | exact hc3)
  sl_step
  iapply Hk
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    funext y
    refine (View.read_writes_cons_unit_of_mem arg11.view f11 inb_S128x256_S128x256_0_0 _ [] y y zero2
      (fun a => (Nat.zero_add _).symm)).trans ?_
    unfold outC
    rw [readAt_whole arg9 harg9 zero2, readAt_whole arg10 harg10 zero2, readAt_rect arg15 harg15, readAt_rect arg16 harg16,
      readAt_rect arg16 harg16]
  isplitl [H15]
  · iexists _; isplitr; · ipureintro; exact harg15.read_unread _
    iexact H15
  · iexists _; isplitr; · ipureintro; exact harg16.read_unread _
    iexact H16

/-! ## The row-preparing points (zero to six), and the stores they share with point seven -/

/-- The slab of 128 adjacency rows stored at a preparing point: the diagonal forced to one. -/
def L12 (i : grid0.Coords) (arg1 : Memref sig .tc .vmem S128x1024 .f32) (harg1 : arg1.IsWhole) (hc1 : k0_cond1 i = 1#1)
    (x1 : Vec F S128x1024 .f32) : List (View.Piece (Elt F) S1024x1024 .bf16) :=
  [⟨Rect.unit (k0_off1 i) S128x1024.size (k0_off1_inb i hc1),
    k0_pay2 i (View.readAt (Elt F) arg1.view (Rect.unit ![0, 0] S128x1024.size inb_S128x1024_S128x1024_0_0).toLoadRect (harg1.unread x1))⟩]
/-- The 128 row sums (degrees) stored at a preparing point. -/
def L13 (i : grid0.Coords) (arg1 : Memref sig .tc .vmem S128x1024 .f32) (harg1 : arg1.IsWhole) (hc1 : k0_cond1 i = 1#1)
    (x1 : Vec F S128x1024 .f32) : List (View.Piece (Elt F) S1024x1 .f32) :=
  [⟨Rect.unit (k0_off2 i) S128x1.size (k0_off2_inb i hc1),
    k0_pay3 i (View.readAt (Elt F) arg1.view (Rect.unit ![0, 0] S128x1024.size inb_S128x1024_S128x1024_0_0).toLoadRect (harg1.unread x1))⟩]
/-- The 128 rows of the first layer's feature product stored at a preparing point. -/
def L14 (i : grid0.Coords) (arg2 : Memref sig .tc .vmem S128x256 .f32) (harg2 : arg2.IsWhole)
    (arg3 : Memref sig .tc .vmem S256x256 .f32) (harg3 : arg3.IsWhole) (hc1 : k0_cond1 i = 1#1)
    (x2 : Vec F S128x256 .f32) (x3 : Vec F S256x256 .f32) : List (View.Piece (Elt F) S1024x256 .f32) :=
  [⟨Rect.unit (k0_off3 i) S128x256.size (k0_off3_inb i hc1),
    k0_pay4 (View.readAt (Elt F) arg2.view (Rect.unit ![0, 0] S128x256.size inb_S128x256_S128x256_0_0).toLoadRect (harg2.unread x2))
      (View.readAt (Elt F) arg3.view (Rect.unit ![0, 0] S256x256.size inb_S256x256_S256x256_0_0).toLoadRect (harg3.unread x3))⟩]

/-- A whole buffer's contents after stores into it, read back. -/
abbrev upd {S : Shape} {e : EltTy} (M : Memref sig .tc .vmem S e) (h : M.IsWhole) (X : S.Idx → Elt F e)
    (L : List (View.Piece (Elt F) S e)) : S.Idx → Elt F e :=
  M.view.read (Elt F) (M.view.writes (Elt F) (h.unread X) L)

set_option maxHeartbeats 1000000 in
theorem runA (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S2x256 .f32) (harg16 : arg16.IsWhole)
    (hc1 : k0_cond1 i = 1#1) (hc2 : ¬ cond2 i) (hc3 : ¬ k0_cond3 i = 1#1)
    (x1 : Vec F S128x1024 .f32) (x2 : Vec F S128x256 .f32) (x3 : Vec F S256x256 .f32)
    (xs0 : Vec F S1024x1024 .bf16) (xs1 : Vec F S1024x1 .f32) (xs2 : Vec F S1024x256 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg12 fullShare xs0 ∗ owns (c : Thread nD τ) arg13 fullShare xs1 ∗ owns (c : Thread nD τ) arg14 fullShare xs2
        ∗ (iprop(owns (c : Thread nD τ) arg1 fullShare x1 ∗ owns (c : Thread nD τ) arg2 fullShare x2 ∗ owns (c : Thread nD τ) arg3 fullShare x3
            ∗ owns (c : Thread nD τ) arg12 fullShare (upd arg12 harg12 xs0 (L12 i arg1 harg1 hc1 x1))
            ∗ owns (c : Thread nD τ) arg13 fullShare (upd arg13 harg13 xs1 (L13 i arg1 harg1 hc1 x1))
            ∗ owns (c : Thread nD τ) arg14 fullShare (upd arg14 harg14 xs2 (L14 i arg2 harg2 arg3 harg3 hc1 x2 x3))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gcn_body_eq_skeleton]; unfold cc0__gcn_body_skel
  unfold owns
  iintro ⟨⟨%f1, %hf1, H1⟩, ⟨%f2, %hf2, H2⟩, ⟨%f3, %hf3, H3⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3
  obtain rfl := harg12.eq_unread hf12; obtain rfl := harg13.eq_unread hf13; obtain rfl := harg14.eq_unread hf14
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H12]
  · iexists _; isplitr; · ipureintro; rfl
    iexact H12
  isplitl [H13]
  · iexists _; isplitr; · ipureintro; rfl
    iexact H13
  · iexists _; isplitr; · ipureintro; rfl
    iexact H14

/-! ## Point seven: the last slab, then the serial tail -/

section Tail
variable (i : grid0.Coords) (arg1 : Memref sig .tc .vmem S128x1024 .f32) (harg1 : arg1.IsWhole) (arg2 : Memref sig .tc .vmem S128x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S2x256 .f32) (harg16 : arg16.IsWhole) (hc1 : k0_cond1 i = 1#1)
  (x1 : Vec F S128x1024 .f32) (x2 : Vec F S128x256 .f32) (x3 : Vec F S256x256 .f32)
  (x4 x5 x6 : Vec F S1x256 .f32) (x7 : Vec F S256x256 .f32) (x8 : Vec F S1x256 .f32)
  (xs0 : Vec F S1024x1024 .bf16) (xs1 : Vec F S1024x1 .f32) (xs2 : Vec F S1024x256 .f32)

/-- The degrees, the adjacency and the feature product as the tail loads them (whole, after this point's slab). -/
def tV9 : Vec F S1024x1 .f32 :=
  View.readAt (Elt F) arg13.view (Rect.unit ![0, 0] S1024x1.size inb_S1024x1_S1024x1_0_0).toLoadRect
    (arg13.view.writes (Elt F) (harg13.unread xs1) (L13 i arg1 harg1 hc1 x1))
def tV11 : Vec F S1024x1024 .bf16 :=
  View.readAt (Elt F) arg12.view (Rect.unit ![0, 0] S1024x1024.size inb_S1024x1024_S1024x1024_0_0).toLoadRect
    (arg12.view.writes (Elt F) (harg12.unread xs0) (L12 i arg1 harg1 hc1 x1))
def tV12 : Vec F S1024x256 .f32 :=
  View.readAt (Elt F) arg14.view (Rect.unit ![0, 0] S1024x256.size inb_S1024x256_S1024x256_0_0).toLoadRect
    (arg14.view.writes (Elt F) (harg14.unread xs2) (L14 i arg2 harg2 arg3 harg3 hc1 x2 x3))
def tV19 : Vec F S1x256 .f32 := View.readAt (Elt F) arg4.view (Rect.unit ![0, 0] S1x256.size inb_S1x256_S1x256_0_0).toLoadRect (harg4.unread x4)
def tV34 : Vec F S1x256 .f32 := View.readAt (Elt F) arg5.view (Rect.unit ![0, 0] S1x256.size inb_S1x256_S1x256_0_0).toLoadRect (harg5.unread x5)
def tV45 : Vec F S1x256 .f32 := View.readAt (Elt F) arg6.view (Rect.unit ![0, 0] S1x256.size inb_S1x256_S1x256_0_0).toLoadRect (harg6.unread x6)
def tV51 : Vec F S256x256 .f32 := View.readAt (Elt F) arg7.view (Rect.unit ![0, 0] S256x256.size inb_S256x256_S256x256_0_0).toLoadRect (harg7.unread x7)
def tV59 : Vec F S1x256 .f32 := View.readAt (Elt F) arg8.view (Rect.unit ![0, 0] S1x256.size inb_S1x256_S1x256_0_0).toLoadRect (harg8.unread x8)
end Tail

set_option maxHeartbeats 4000000 in
theorem runB (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S2x256 .f32) (harg16 : arg16.IsWhole)
    (hc1 : k0_cond1 i = 1#1) (hc2 : cond2 i) (hc3 : ¬ k0_cond3 i = 1#1)
    (x1 : Vec F S128x1024 .f32) (x2 : Vec F S128x256 .f32) (x3 : Vec F S256x256 .f32)
    (x4 x5 x6 : Vec F S1x256 .f32) (x7 : Vec F S256x256 .f32) (x8 : Vec F S1x256 .f32)
    (xs0 : Vec F S1024x1024 .bf16) (xs1 : Vec F S1024x1 .f32) (xs2 : Vec F S1024x256 .f32)
    (xs3 : Vec F S1024x256 .f32) (xs4 : Vec F S2x256 .f32)
    (E : Set ℕ) (K : PUnit → sProp 𝕄) :
    let v9 := tV9 i arg1 harg1 arg13 harg13 hc1 x1 xs1
    let v11 := tV11 i arg1 harg1 arg12 harg12 hc1 x1 xs0
    let v12 := tV12 i arg2 harg2 arg3 harg3 arg14 harg14 hc1 x2 x3 xs2
    let v10 := k0_pay11 v9
    let v48 := k0_pay12 v9 v11 v12 (tV19 arg4 harg4 x4) (tV34 arg5 harg5 x5) (tV45 arg6 harg6 x6)
    let v51 := tV51 arg7 harg7 x7
    let v59 := tV59 arg8 harg8 x8
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg12 fullShare xs0 ∗ owns (c : Thread nD τ) arg13 fullShare xs1 ∗ owns (c : Thread nD τ) arg14 fullShare xs2
        ∗ owns (c : Thread nD τ) arg15 fullShare xs3 ∗ owns (c : Thread nD τ) arg16 fullShare xs4
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg12 fullShare (upd arg12 harg12 xs0 (L12 i arg1 harg1 hc1 x1))
            ∗ owns (c : Thread nD τ) arg13 fullShare (upd arg13 harg13 xs1 (L13 i arg1 harg1 hc1 x1))
            ∗ owns (c : Thread nD τ) arg14 fullShare (upd arg14 harg14 xs2 (L14 i arg2 harg2 arg3 harg3 hc1 x2 x3))
            ∗ owns (c : Thread nD τ) arg15 fullShare (upd arg15 harg15 xs3
                [⟨Rect.unit ![0, 0] S1024x256.size inb_S1024x256_S1024x256_0_0, k0_pay7 v10 v11 v48 k0_pay13 v51 v59⟩])
            ∗ owns (c : Thread nD τ) arg16 fullShare (upd arg16 harg16 xs4
                [⟨Rect.unit ![1, 0] S1x256.size inb_S2x256_S1x256_1_0, k0_pay9 v10 v11 v48 k0_pay13 v51 v59⟩,
                 ⟨Rect.unit ![0, 0] S1x256.size inb_S2x256_S1x256_0_0, k0_pay8 v10 v11 v48 k0_pay13 v51 v59⟩])) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro v9 v11 v12 v10 v48 v51 v59
  simp only [cc0__gcn_body_eq_skeleton]; unfold cc0__gcn_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f12, %hf12, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  obtain rfl := harg12.eq_unread hf12; obtain rfl := harg13.eq_unread hf13; obtain rfl := harg14.eq_unread hf14
  obtain rfl := harg15.eq_unread hf15; obtain rfl := harg16.eq_unread hf16
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; · ipureintro; rfl
    iexact H15
  · iexists _; isplitr; · ipureintro; rfl
    iexact H16

end Cert.KernelIdeal.Body

end
-- ==== Proof.KI.Inv.lean ====
/-
  What the five carried buffers hold between grid points, as functions of the argument arrays, and the invariant:
  before point n the first 128 n rows of the adjacency cache, the degrees and the first feature product are in place;
  from point eight on the second layer and its column statistics are. A slab store extends the rows in place by one
  slab and leaves the rows below; once all eight slabs are in, what the tail loads is the named whole arrays.
-/
import proofs.«169710_g34591666602572_cont_8to1_b_883_10_alg».proof.Proof.KI.Cases
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers, the staging buffers, and the argument blocks at a point -/

abbrev scM0 : Memref sig .tc .vmem S1024x1024 .bf16 := Memref.whole cc0_scratch0
abbrev scM1 : Memref sig .tc .vmem S1024x1 .f32 := Memref.whole cc0_scratch1
abbrev scM2 : Memref sig .tc .vmem S1024x256 .f32 := Memref.whole cc0_scratch2
abbrev scM3 : Memref sig .tc .vmem S1024x256 .f32 := Memref.whole cc0_scratch3
abbrev scM4 : Memref sig .tc .vmem S2x256 .f32 := Memref.whole cc0_scratch4
abbrev hM0 : (scM0).IsWhole := Memref.isWhole_whole _
abbrev hM1 : (scM1).IsWhole := Memref.isWhole_whole _
abbrev hM2 : (scM2).IsWhole := Memref.isWhole_whole _
abbrev hM3 : (scM3).IsWhole := Memref.isWhole_whole _
abbrev hM4 : (scM4).IsWhole := Memref.isWhole_whole _

abbrev ms0 (t : Fin cfg0.N) : Memref sig .tc .vmem S128x1024 .f32 := win0_0.stage (cfg0.slots t 0)
abbrev hs0 (t : Fin cfg0.N) : (ms0 t).IsWhole := hstage0_0 ((cfg0.slots t 0).cast nbuf0_0)
abbrev b0 (c : Dev nD) (t : Fin cfg0.N) : Vec F S128x1024 .f32 := iblk m c 0 t
abbrev ms1 (t : Fin cfg0.N) : Memref sig .tc .vmem S128x256 .f32 := win0_1.stage (cfg0.slots t 1)
abbrev hs1 (t : Fin cfg0.N) : (ms1 t).IsWhole := hstage0_1 ((cfg0.slots t 1).cast nbuf0_1)
abbrev b1 (c : Dev nD) (t : Fin cfg0.N) : Vec F S128x256 .f32 := iblk m c 1 t
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev b2 (c : Dev nD) (t : Fin cfg0.N) : Vec F S256x256 .f32 := iblk m c 2 t
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev b3 (c : Dev nD) (t : Fin cfg0.N) : Vec F S1x256 .f32 := iblk m c 3 t
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev b4 (c : Dev nD) (t : Fin cfg0.N) : Vec F S1x256 .f32 := iblk m c 4 t
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev b5 (c : Dev nD) (t : Fin cfg0.N) : Vec F S1x256 .f32 := iblk m c 5 t
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)
abbrev b6 (c : Dev nD) (t : Fin cfg0.N) : Vec F S256x256 .f32 := iblk m c 6 t
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev b7 (c : Dev nD) (t : Fin cfg0.N) : Vec F S1x256 .f32 := iblk m c 7 t
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev b8 (c : Dev nD) (t : Fin cfg0.N) : Vec F S1x256 .f32 := iblk m c 8 t
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev b9 (c : Dev nD) (t : Fin cfg0.N) : Vec F S1x256 .f32 := iblk m c 9 t
abbrev ms10 (t : Fin cfg0.N) : Memref sig .tc .vmem S128x256 .f32 := win0_10.stage (cfg0.slots t 10)
abbrev hs10 (t : Fin cfg0.N) : (ms10 t).IsWhole := hstage0_10 ((cfg0.slots t 10).cast nbuf0_10)
abbrev b10 (c : Dev nD) (t : Fin cfg0.N) : Vec F S128x256 .f32 := iblk m c 10 t

theorem N16 : cfg0.N = 16 := N_0

/-- The point that holds row `r` of the 1024 rows: rows come in slabs of 128. -/
def tOf (r : ℕ) (h : r < 1024) : Fin cfg0.N := ⟨r / 128, by rw [N16]; omega⟩
theorem tOf_val (r : ℕ) (h : r < 1024) : (tOf r h).val = r / 128 := rfl
/-- Point seven, where the serial tail runs. -/
def t7 : Fin cfg0.N := ⟨7, by rw [N16]; decide⟩

/-! ## What the scratch buffers come to hold, as functions of the argument arrays -/

/-- The adjacency with its diagonal forced to one, all 1024 rows: row `r` is computed at point `r / 128`. -/
def A16 (c : Dev nD) : Vec F S1024x1024 .bf16 := fun y =>
  k0_pay2 (grid0.coords (tOf (y 0).val (y 0).isLt)) (b0 m c (tOf (y 0).val (y 0).isLt))
    (ValueIdx.ix2 ⟨(y 0).val % 128, Nat.mod_lt _ (by decide)⟩ (y 1))
/-- The degrees: the row sums of that matrix. -/
def DEG (c : Dev nD) : Vec F S1024x1 .f32 := fun y =>
  k0_pay3 (grid0.coords (tOf (y 0).val (y 0).isLt)) (b0 m c (tOf (y 0).val (y 0).isLt))
    (ValueIdx.ix2 ⟨(y 0).val % 128, Nat.mod_lt _ (by decide)⟩ (y 1))
/-- The first layer's feature product, row slab by row slab. -/
def XW (c : Dev nD) : Vec F S1024x256 .f32 := fun y =>
  k0_pay4 (b1 m c (tOf (y 0).val (y 0).isLt)) (b2 m c (tOf (y 0).val (y 0).isLt))
    (ValueIdx.ix2 ⟨(y 0).val % 128, Nat.mod_lt _ (by decide)⟩ (y 1))

/-- The inverse square roots of the degrees and the first layer after its batch normalisation, as the tail has them. -/
def TV10 (c : Dev nD) : Vec F S1024x1 .f32 := k0_pay11 (DEG m c)
def TV48 (c : Dev nD) : Vec F S1024x256 .f32 := k0_pay12 (DEG m c) (A16 m c) (XW m c) (b3 m c t7) (b4 m c t7) (b5 m c t7)
/-- The second layer before its normalisation, and its column means and inverse deviations. -/
def H2 (c : Dev nD) : Vec F S1024x256 .f32 := k0_pay7 (TV10 m c) (A16 m c) (TV48 m c) k0_pay13 (b6 m c t7) (b7 m c t7)
def MU2 (c : Dev nD) : Vec F S1x256 .f32 := k0_pay8 (TV10 m c) (A16 m c) (TV48 m c) k0_pay13 (b6 m c t7) (b7 m c t7)
def RS2 (c : Dev nD) : Vec F S1x256 .f32 := k0_pay9 (TV10 m c) (A16 m c) (TV48 m c) k0_pay13 (b6 m c t7) (b7 m c t7)
/-- The two statistic rows side by side: row 0 the means, row 1 the inverse deviations. -/
def ST (c : Dev nD) : Vec F S2x256 .f32 := fun y =>
  if (y 0).val = 0 then MU2 m c (ValueIdx.ix2 (0 : Fin 1) (y 1)) else RS2 m c (ValueIdx.ix2 (0 : Fin 1) (y 1))

/-! ## The invariant between points -/

/-- Before point `n` the first `128 n` rows of the three row-wise scratch buffers are in place. -/
def RowsInv (c : Dev nD) (n : ℕ) (d0 : Vec F S1024x1024 .bf16) (d1 : Vec F S1024x1 .f32) (d2 : Vec F S1024x256 .f32) : Prop :=
  (∀ y : S1024x1024.Idx, (y 0).val < 128 * n → d0 y = A16 m c y)
  ∧ (∀ y : S1024x1.Idx, (y 0).val < 128 * n → d1 y = DEG m c y)
  ∧ (∀ y : S1024x256.Idx, (y 0).val < 128 * n → d2 y = XW m c y)

/-- From point eight on the tail's two results are in place as well. -/
def Inv (c : Dev nD) (n : ℕ) (d0 : Vec F S1024x1024 .bf16) (d1 : Vec F S1024x1 .f32) (d2 : Vec F S1024x256 .f32)
    (d3 : Vec F S1024x256 .f32) (d4 : Vec F S2x256 .f32) : Prop :=
  RowsInv m c n d0 d1 d2 ∧ (8 ≤ n → d3 = H2 m c ∧ d4 = ST m c)

theorem inv_zero (c : Dev nD) (d0 d1 d2 d3 d4) : Inv m c 0 d0 d1 d2 d3 d4 :=
  ⟨⟨fun y h => absurd h (by omega), fun y h => absurd h (by omega), fun y h => absurd h (by omega)⟩, fun h => absurd h (by omega)⟩

/-- All eight slabs in place: the three buffers are the named arrays. -/
theorem rows_full (c : Dev nD) (n : ℕ) (hn : 8 ≤ n) (d0 d1 d2) (h : RowsInv m c n d0 d1 d2) :
    d0 = A16 m c ∧ d1 = DEG m c ∧ d2 = XW m c :=
  ⟨funext fun y => h.1 y (by have : (y 0).val < 1024 := (y 0).isLt; omega),
   funext fun y => h.2.1 y (by have : (y 0).val < 1024 := (y 0).isLt; omega),
   funext fun y => h.2.2 y (by have : (y 0).val < 1024 := (y 0).isLt; omega)⟩

/-! ## One slab more -/

theorem off1_at (t : Fin cfg0.N) : k0_off1 (grid0.coords t) = ![128 * t.val, 0] := by rw [k0_off1_eq, coord_val]
theorem off2_at (t : Fin cfg0.N) : k0_off2 (grid0.coords t) = ![128 * t.val, 0] := by rw [k0_off2_eq, coord_val]
theorem off3_at (t : Fin cfg0.N) : k0_off3 (grid0.coords t) = ![128 * t.val, 0] := by rw [k0_off3_eq, coord_val]

/-- A row below the first `128 (t + 1)` is either below `128 t` or in the slab of point `t`. -/
theorem tOf_eq (t : Fin cfg0.N) (r : ℕ) (hr : r < 1024) (h1 : 128 * t.val ≤ r) (h2 : r < 128 * t.val + 128) : tOf r hr = t :=
  Fin.ext (by rw [tOf_val]; omega)

/-- The slab stores of point `t` put rows `[128 t, 128 t + 128)` of the three row-wise buffers in place and leave the
    rows below as they were. -/
theorem rows_step (c : Dev nD) (t : Fin cfg0.N) (ht : t.val < 8) (hc1 : k0_cond1 (grid0.coords t) = 1#1)
    (d0 : Vec F S1024x1024 .bf16) (d1 : Vec F S1024x1 .f32) (d2 : Vec F S1024x256 .f32) (h : RowsInv m c t.val d0 d1 d2) :
    RowsInv m c (t.val + 1)
      (upd scM0 hM0 d0 (L12 (grid0.coords t) (ms0 t) (hs0 t) hc1 (b0 m c t)))
      (upd scM1 hM1 d1 (L13 (grid0.coords t) (ms0 t) (hs0 t) hc1 (b0 m c t)))
      (upd scM2 hM2 d2 (L14 (grid0.coords t) (ms1 t) (hs1 t) (ms2 t) (hs2 t) hc1 (b1 m c t) (b2 m c t))) := by
  refine ⟨fun y hy => ?_, fun y hy => ?_, fun y hy => ?_⟩
  · have hr : (y 0).val < 1024 := (y 0).isLt
    by_cases hlt : (y 0).val < 128 * t.val
    · unfold L12
      refine (View.read_writes_cons_rows_of_not_mem (W := 128) scM0.view (hM0.unread d0) _ _ [] y (off1_at t) rfl (Or.inl hlt)).trans ?_
      rw [View.writes_nil, hM0.read_unread]; exact h.1 y hlt
    · unfold L12
      refine (View.read_writes_cons_rows_of_mem scM0.view (hM0.unread d0) _ _ [] y
        (ValueIdx.ix2 ⟨(y 0).val % 128, Nat.mod_lt _ (by decide)⟩ (y 1)) (off1_at t)
        (by show (y 0).val = 128 * t.val + (y 0).val % 128; omega) rfl).trans ?_
      rw [readAt_whole (ms0 t) (hs0 t) zero2]
      unfold A16; rw [tOf_eq t (y 0).val hr (by omega) (by omega)]
      rfl
  · have hr : (y 0).val < 1024 := (y 0).isLt
    by_cases hlt : (y 0).val < 128 * t.val
    · unfold L13
      refine (View.read_writes_cons_rows_of_not_mem (W := 128) scM1.view (hM1.unread d1) _ _ [] y (off2_at t) rfl (Or.inl hlt)).trans ?_
      rw [View.writes_nil, hM1.read_unread]; exact h.2.1 y hlt
    · unfold L13
      refine (View.read_writes_cons_rows_of_mem scM1.view (hM1.unread d1) _ _ [] y
        (ValueIdx.ix2 ⟨(y 0).val % 128, Nat.mod_lt _ (by decide)⟩ (y 1)) (off2_at t)
        (by show (y 0).val = 128 * t.val + (y 0).val % 128; omega) rfl).trans ?_
      rw [readAt_whole (ms0 t) (hs0 t) zero2]
      unfold DEG; rw [tOf_eq t (y 0).val hr (by omega) (by omega)]
      rfl
  · have hr : (y 0).val < 1024 := (y 0).isLt
    by_cases hlt : (y 0).val < 128 * t.val
    · unfold L14
      refine (View.read_writes_cons_rows_of_not_mem (W := 128) scM2.view (hM2.unread d2) _ _ [] y (off3_at t) rfl (Or.inl hlt)).trans ?_
      rw [View.writes_nil, hM2.read_unread]; exact h.2.2 y hlt
    · unfold L14
      refine (View.read_writes_cons_rows_of_mem scM2.view (hM2.unread d2) _ _ [] y
        (ValueIdx.ix2 ⟨(y 0).val % 128, Nat.mod_lt _ (by decide)⟩ (y 1)) (off3_at t)
        (by show (y 0).val = 128 * t.val + (y 0).val % 128; omega) rfl).trans ?_
      rw [readAt_whole (ms1 t) (hs1 t) zero2, readAt_whole (ms2 t) (hs2 t) zero2]
      unfold XW; rw [tOf_eq t (y 0).val hr (by omega) (by omega)]
      rfl

/-- Rows already in place stay in place at a point that stores into none of the three buffers. -/
theorem rows_mono (c : Dev nD) (n : ℕ) (hn : 8 ≤ n) (d0 d1 d2) (h : RowsInv m c n d0 d1 d2) : RowsInv m c (n + 1) d0 d1 d2 :=
  ⟨fun y _ => h.1 y (by have : (y 0).val < 1024 := (y 0).isLt; omega),
   fun y _ => h.2.1 y (by have : (y 0).val < 1024 := (y 0).isLt; omega),
   fun y _ => h.2.2 y (by have : (y 0).val < 1024 := (y 0).isLt; omega)⟩

/-! ## The serial tail at point seven -/

theorem hc1_7 : k0_cond1 (grid0.coords t7) = 1#1 := (hcond1 t7).mpr (by show (7 : ℕ) < 8; omega)

/-- A load of a whole buffer, whatever it holds, reads what it holds. -/
theorem readAt_whole' {S : Shape} {e : EltTy} (M : Memref sig .tc .vmem S e) (f : M.view.ty.Contents (Elt F))
    {off : Fin S.rank → ℕ} (hz : off = fun _ => 0) (inb : ∀ a, off a + S.size a ≤ S.size a) :
    View.readAt (Elt F) M.view (Rect.unit off S.size inb).toLoadRect f = M.view.read (Elt F) f := by
  rw [View.readAt_eq_ld, View.ld_unit_zero hz]

/-- What the tail loads at point seven, over the scratch contents the point found. -/
def q9 (c : Dev nD) (d1 : Vec F S1024x1 .f32) : Vec F S1024x1 .f32 :=
  tV9 (grid0.coords t7) (ms0 t7) (hs0 t7) scM1 hM1 hc1_7 (b0 m c t7) d1
def q11 (c : Dev nD) (d0 : Vec F S1024x1024 .bf16) : Vec F S1024x1024 .bf16 :=
  tV11 (grid0.coords t7) (ms0 t7) (hs0 t7) scM0 hM0 hc1_7 (b0 m c t7) d0
def q12 (c : Dev nD) (d2 : Vec F S1024x256 .f32) : Vec F S1024x256 .f32 :=
  tV12 (grid0.coords t7) (ms1 t7) (hs1 t7) (ms2 t7) (hs2 t7) scM2 hM2 hc1_7 (b1 m c t7) (b2 m c t7) d2
def q48 (c : Dev nD) (d0 : Vec F S1024x1024 .bf16) (d1 : Vec F S1024x1 .f32) (d2 : Vec F S1024x256 .f32) : Vec F S1024x256 .f32 :=
  k0_pay12 (q9 m c d1) (q11 m c d0) (q12 m c d2) (tV19 (ms3 t7) (hs3 t7) (b3 m c t7)) (tV34 (ms4 t7) (hs4 t7) (b4 m c t7))
    (tV45 (ms5 t7) (hs5 t7) (b5 m c t7))
def q51 (c : Dev nD) : Vec F S256x256 .f32 := tV51 (ms6 t7) (hs6 t7) (b6 m c t7)
def q59 (c : Dev nD) : Vec F S1x256 .f32 := tV59 (ms7 t7) (hs7 t7) (b7 m c t7)

section
variable (c : Dev nD) (d0 : Vec F S1024x1024 .bf16) (d1 : Vec F S1024x1 .f32) (d2 : Vec F S1024x256 .f32)
  (h : RowsInv m c t7.val d0 d1 d2)
include h

theorem q9_eq : q9 m c d1 = DEG m c := by
  unfold q9 tV9; rw [readAt_whole' scM1 _ zero2]
  exact (rows_full m c 8 (le_refl _) _ _ _ (rows_step m c t7 (by show (7 : ℕ) < 8; omega) hc1_7 d0 d1 d2 h)).2.1
theorem q11_eq : q11 m c d0 = A16 m c := by
  unfold q11 tV11; rw [readAt_whole' scM0 _ zero2]
  exact (rows_full m c 8 (le_refl _) _ _ _ (rows_step m c t7 (by show (7 : ℕ) < 8; omega) hc1_7 d0 d1 d2 h)).1
theorem q12_eq : q12 m c d2 = XW m c := by
  unfold q12 tV12; rw [readAt_whole' scM2 _ zero2]
  exact (rows_full m c 8 (le_refl _) _ _ _ (rows_step m c t7 (by show (7 : ℕ) < 8; omega) hc1_7 d0 d1 d2 h)).2.2
theorem q48_eq : q48 m c d0 d1 d2 = TV48 m c := by
  unfold q48 TV48 tV19 tV34 tV45
  rw [q9_eq m c d0 d1 d2 h, q11_eq m c d0 d1 d2 h, q12_eq m c d0 d1 d2 h, readAt_whole (ms3 t7) (hs3 t7) zero2,
    readAt_whole (ms4 t7) (hs4 t7) zero2, readAt_whole (ms5 t7) (hs5 t7) zero2]
omit h in
theorem q51_eq : q51 m c = b6 m c t7 := by unfold q51 tV51; rw [readAt_whole (ms6 t7) (hs6 t7) zero2]
omit h in
theorem q59_eq : q59 m c = b7 m c t7 := by unfold q59 tV59; rw [readAt_whole (ms7 t7) (hs7 t7) zero2]

/-- The one store that covers the carried layer-two buffer leaves the second layer before its normalisation. -/
theorem tail_h2 (d3 : Vec F S1024x256 .f32) :
    upd scM3 hM3 d3 [⟨Rect.unit ![0, 0] S1024x256.size inb_S1024x256_S1024x256_0_0,
      k0_pay7 (k0_pay11 (q9 m c d1)) (q11 m c d0) (q48 m c d0 d1 d2) k0_pay13 (q51 m c) (q59 m c)⟩] = H2 m c := by
  funext y
  refine (View.read_writes_cons_unit_of_mem scM3.view (hM3.unread d3) inb_S1024x256_S1024x256_0_0 _ [] y y zero2
    (fun a => (Nat.zero_add _).symm)).trans ?_
  rw [q9_eq m c d0 d1 d2 h, q11_eq m c d0 d1 d2 h, q48_eq m c d0 d1 d2 h, q51_eq, q59_eq]
  rfl

/-- The two single-row stores leave the column means in row 0 and the inverse deviations in row 1. -/
theorem tail_st (d4 : Vec F S2x256 .f32) :
    upd scM4 hM4 d4 [⟨Rect.unit ![1, 0] S1x256.size inb_S2x256_S1x256_1_0,
        k0_pay9 (k0_pay11 (q9 m c d1)) (q11 m c d0) (q48 m c d0 d1 d2) k0_pay13 (q51 m c) (q59 m c)⟩,
      ⟨Rect.unit ![0, 0] S1x256.size inb_S2x256_S1x256_0_0,
        k0_pay8 (k0_pay11 (q9 m c d1)) (q11 m c d0) (q48 m c d0 d1 d2) k0_pay13 (q51 m c) (q59 m c)⟩] = ST m c := by
  funext y
  have hy : (y 0).val < 2 := (y 0).isLt
  rw [q9_eq m c d0 d1 d2 h, q11_eq m c d0 d1 d2 h, q48_eq m c d0 d1 d2 h, q51_eq, q59_eq]
  by_cases h0 : (y 0).val = 0
  · refine (View.read_writes_cons_rows_of_not_mem (o := 1) (W := 1) scM4.view (hM4.unread d4) _ _ _ y rfl rfl (Or.inl (by omega))).trans ?_
    refine (View.read_writes_cons_rows_of_mem (o := 0) scM4.view (hM4.unread d4) _ _ [] y
      (ValueIdx.ix2 (0 : Fin 1) (y 1)) rfl (by show (y 0).val = 0 + 0; omega) rfl).trans ?_
    unfold ST MU2; rw [if_pos h0]; rfl
  · refine (View.read_writes_cons_rows_of_mem (o := 1) scM4.view (hM4.unread d4) _ _ _ y
      (ValueIdx.ix2 (0 : Fin 1) (y 1)) rfl (by show (y 0).val = 1 + 0; omega) rfl).trans ?_
    unfold ST RS2; rw [if_neg h0]; rfl
end

/-! ## What a write-out point leaves in the result's staging buffer -/

/-- Block `t - 8` of the result, at a point from eight on (no block is stored before). -/
def OUT10 (c : Dev nD) (t : Fin cfg0.N) : Vec F S128x256 .f32 :=
  if h : 8 ≤ t.val then outC (grid0.coords t) ((hcond3 t).mpr h) (b8 m c t) (b9 m c t) (H2 m c) (ST m c)
  else fun _ => Classical.choice (Elt.nonempty F .f32)

end Cert.KernelIdeal.Body

end
-- ==== Proof.KI.Obl.lean ====
/-
  The region's invariant as a proposition over the five carried buffers, the data of the launch (each input window
  leaves its block in place; the result's window is untouched below point eight and holds block t - 8 from then on),
  the body's obligation at every point by the three control cases, and the run: the program ends, nothing faults,
  and the argument arrays end as they began.
-/
import proofs.«169710_g34591666602572_cont_8to1_b_883_10_alg».proof.Proof.KI.Inv
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's invariant -/

/-- What the launch hands the body and takes back: the five scratch buffers at some contents, and the generator's register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)
          ∗ (∃ d, owns (c : Thread nD τ) scM4 fullShare d)) ∗ (∃ r, prngReg c r)) := by
  unfold Pipeline.ΦA; rw [scopedRest0_eq]; simp only [scM0, scM1, scM2, scM3, scM4, owns_whole]; try rfl

/-- Before point `n`: the scratch buffers at contents that satisfy the row-wise invariant. -/
def PhiS (c : Dev nD) (n : ℕ) : sProp 𝕄 :=
  iprop(∃ d0 : Vec F S1024x1024 .bf16, ∃ d1 : Vec F S1024x1 .f32, ∃ d2 : Vec F S1024x256 .f32, ∃ d3 : Vec F S1024x256 .f32,
    ∃ d4 : Vec F S2x256 .f32, ⌜Inv m c n d0 d1 d2 d3 d4⌝
      ∗ owns (c : Thread nD τ) scM0 fullShare d0 ∗ owns (c : Thread nD τ) scM1 fullShare d1 ∗ owns (c : Thread nD τ) scM2 fullShare d2
      ∗ owns (c : Thread nD τ) scM3 fullShare d3 ∗ owns (c : Thread nD τ) scM4 fullShare d4 ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => OUT10 m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem liveAt_0 : ∀ t : Fin cfg0.N, cfg0.idle 0 (grid0.coords t) = false := by decide +kernel
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem liveAt_1 : ∀ t : Fin cfg0.N, cfg0.idle 1 (grid0.coords t) = false := by decide +kernel
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem liveAt_2 : ∀ t : Fin cfg0.N, cfg0.idle 2 (grid0.coords t) = false := by decide +kernel
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem liveAt_3 : ∀ t : Fin cfg0.N, cfg0.idle 3 (grid0.coords t) = false := by decide +kernel
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem liveAt_4 : ∀ t : Fin cfg0.N, cfg0.idle 4 (grid0.coords t) = false := by decide +kernel
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem liveAt_5 : ∀ t : Fin cfg0.N, cfg0.idle 5 (grid0.coords t) = false := by decide +kernel
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem liveAt_6 : ∀ t : Fin cfg0.N, cfg0.idle 6 (grid0.coords t) = false := by decide +kernel
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem liveAt_7 : ∀ t : Fin cfg0.N, cfg0.idle 7 (grid0.coords t) = false := by decide +kernel
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem liveAt_8 : ∀ t : Fin cfg0.N, cfg0.idle 8 (grid0.coords t) = false := by decide +kernel
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem liveAt_9 : ∀ t : Fin cfg0.N, cfg0.idle 9 (grid0.coords t) = false := by decide +kernel
theorem after0_10 (c : Dev nD) (t : Fin cfg0.N) : (dats m 0 c).after 10 t = OUT10 m c t := by dsimp only [dats]
/-- Below point eight nothing is stored into the result's staging buffer and nothing is written back. -/
theorem idleAt10 : ∀ t : Fin cfg0.N, t.val < 8 → cfg0.idle 10 (grid0.coords t) = true := by decide +kernel
theorem noFlush10 : ∀ t : Fin cfg0.N, t.val < 8 → (cfg0.win 10).flush t = false := by decide +kernel
theorem liveAt10 : ∀ t : Fin cfg0.N, 8 ≤ t.val → cfg0.idle 10 (grid0.coords t) = false := by decide +kernel

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from (by dsimp only [dats]; simp only [Fin.coe_castSucc])]
  rw [show (dats m 0 c).leavesExact 0 t = owns (c : Thread nD τ) (ms0 t) fullShare ((dats m 0 c).after 0 t) from by
    unfold Dat.leavesExact; rw [liveAt_0 t], after0_0]
  rw [show (dats m 0 c).leavesExact 1 t = owns (c : Thread nD τ) (ms1 t) fullShare ((dats m 0 c).after 1 t) from by
    unfold Dat.leavesExact; rw [liveAt_1 t], after0_1]
  rw [show (dats m 0 c).leavesExact 2 t = owns (c : Thread nD τ) (ms2 t) fullShare ((dats m 0 c).after 2 t) from by
    unfold Dat.leavesExact; rw [liveAt_2 t], after0_2]
  rw [show (dats m 0 c).leavesExact 3 t = owns (c : Thread nD τ) (ms3 t) fullShare ((dats m 0 c).after 3 t) from by
    unfold Dat.leavesExact; rw [liveAt_3 t], after0_3]
  rw [show (dats m 0 c).leavesExact 4 t = owns (c : Thread nD τ) (ms4 t) fullShare ((dats m 0 c).after 4 t) from by
    unfold Dat.leavesExact; rw [liveAt_4 t], after0_4]
  rw [show (dats m 0 c).leavesExact 5 t = owns (c : Thread nD τ) (ms5 t) fullShare ((dats m 0 c).after 5 t) from by
    unfold Dat.leavesExact; rw [liveAt_5 t], after0_5]
  rw [show (dats m 0 c).leavesExact 6 t = owns (c : Thread nD τ) (ms6 t) fullShare ((dats m 0 c).after 6 t) from by
    unfold Dat.leavesExact; rw [liveAt_6 t], after0_6]
  rw [show (dats m 0 c).leavesExact 7 t = owns (c : Thread nD τ) (ms7 t) fullShare ((dats m 0 c).after 7 t) from by
    unfold Dat.leavesExact; rw [liveAt_7 t], after0_7]
  rw [show (dats m 0 c).leavesExact 8 t = owns (c : Thread nD τ) (ms8 t) fullShare ((dats m 0 c).after 8 t) from by
    unfold Dat.leavesExact; rw [liveAt_8 t], after0_8]
  rw [show (dats m 0 c).leavesExact 9 t = owns (c : Thread nD τ) (ms9 t) fullShare ((dats m 0 c).after 9 t) from by
    unfold Dat.leavesExact; rw [liveAt_9 t], after0_9]
  have hN : t.val < 16 := lt_of_lt_of_eq t.isLt N16
  unfold PhiS
  by_cases hA : t.val < 7
  · -- a row-preparing point
    have hc1 : k0_cond1 (grid0.coords t) = 1#1 := (hcond1 t).mpr (by omega)
    have hc2 : ¬ cond2 (grid0.coords t) := fun h => by have := (hcond2 t).mp h; omega
    have hc3 : ¬ k0_cond3 (grid0.coords t) = 1#1 := fun h => by have := (hcond3 t).mp h; omega
    rw [Dat.leavesExact_idle (dats m 0 c) 10 t (idleAt10 t (by omega)) (noFlush10 t (by omega))]
    iintro ⟨⟨%d0, %d1, %d2, %d3, %d4, %hinv, HS0, HS1, HS2, HS3, HS4, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
    iapply (runA c (grid0.coords t) _ _ _ _ _ _ _ _ _ _ _ _ _ _ _ _ _ _ _ _ _ _ _ _ _ _ _ _ _ _ _ _ hc1 hc2 hc3 (iblk m c 0 t) (iblk m c 1 t) (iblk m c 2 t) d0 d1 d2 Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 HS3 HS4 Hg]
    · iexists _, _, _, d3, d4
      isplitr
      · ipureintro
        exact ⟨rows_step m c t (by omega) hc1 d0 d1 d2 hinv.1, fun h => absurd h (by omega)⟩
      isplitl [HS0]; · iexact HS0
      isplitl [HS1]; · iexact HS1
      isplitl [HS2]; · iexact HS2
      isplitl [HS3]; · iexact HS3
      isplitl [HS4]; · iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases hB : t.val = 7
    · -- point seven: the last slab and the serial tail
      obtain rfl : t = t7 := Fin.ext hB
      have hc1 : k0_cond1 (grid0.coords t7) = 1#1 := hc1_7
      have hc2 : cond2 (grid0.coords t7) := (hcond2 t7).mpr rfl
      have hc3 : ¬ k0_cond3 (grid0.coords t7) = 1#1 := fun h => by have := (hcond3 t7).mp h; have : t7.val = 7 := rfl; omega
      rw [Dat.leavesExact_idle (dats m 0 c) 10 t7 (idleAt10 t7 (by show (7 : ℕ) < 8; omega)) (noFlush10 t7 (by show (7 : ℕ) < 8; omega))]
      iintro ⟨⟨%d0, %d1, %d2, %d3, %d4, %hinv, HS0, HS1, HS2, HS3, HS4, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
      iapply (runB c (grid0.coords t7) _ _ _ _ _ _ _ _ _ _ _ _ _ _ _ _ _ _ _ _ _ _ _ _ _ _ _ _ _ _ _ _ hc1 hc2 hc3
        (iblk m c 0 t7) (iblk m c 1 t7) (iblk m c 2 t7) (iblk m c 3 t7) (iblk m c 4 t7) (iblk m c 5 t7) (iblk m c 6 t7) (iblk m c 7 t7)
        d0 d1 d2 d3 d4 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · iexists _, _, _, _, _
        isplitr
        swap
        · isplitl [HS0]; · iexact HS0
          isplitl [HS1]; · iexact HS1
          isplitl [HS2]; · iexact HS2
          isplitl [HS3]; · iexact HS3
          isplitl [HS4]; · iexact HS4
          iexact Hg
        ipureintro
        exact ⟨rows_step m c t7 (by show (7 : ℕ) < 8; omega) hc1 d0 d1 d2 hinv.1,
          fun _ => ⟨tail_h2 m c d0 d1 d2 hinv.1 d3, tail_st m c d0 d1 d2 hinv.1 d4⟩⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
    · -- a write-out point
      have h8 : 8 ≤ t.val := by omega
      have hc1 : ¬ k0_cond1 (grid0.coords t) = 1#1 := fun h => by have := (hcond1 t).mp h; omega
      have hc2 : ¬ cond2 (grid0.coords t) := fun h => by have := (hcond2 t).mp h; omega
      have hc3 : k0_cond3 (grid0.coords t) = 1#1 := (hcond3 t).mpr h8
      rw [show (dats m 0 c).leavesExact 10 t = owns (c : Thread nD τ) (ms10 t) fullShare ((dats m 0 c).after 10 t) from by
        unfold Dat.leavesExact; rw [liveAt10 t h8], after0_10, show OUT10 m c t = outC (grid0.coords t) hc3 (b8 m c t) (b9 m c t) (H2 m c) (ST m c) from dif_pos h8]
      iintro ⟨⟨%d0, %d1, %d2, %d3, %d4, %hinv, HS0, HS1, HS2, HS3, HS4, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
      obtain ⟨rfl, rfl⟩ := hinv.2 h8
      iapply (runC c (grid0.coords t) _ _ _ _ _ _ _ _ _ _ _ _ _ _ _ _ _ _ _ _ _ _ _ _ _ _ _ _ _ _ _ _ hc1 hc2 hc3 (iblk m c 8 t) (iblk m c 9 t) (H2 m c) (ST m c) Set.univ _)
      isplitl [H8]; · iexact H8
      isplitl [H9]; · iexact H9
      isplitl [H10]; · iexists _; iexact H10
      isplitl [HS3]; · iexact HS3
      isplitl [HS4]; · iexact HS4
      iintro ⟨H8, H9, H10, HS3, HS4⟩
      isplitl [HS0 HS1 HS2 HS3 HS4 Hg]
      · iexists d0, d1, d2, _, _
        isplitr
        · ipureintro
          exact ⟨rows_mono m c t.val h8 d0 d1 d2 hinv.1, fun _ => ⟨rfl, rfl⟩⟩
        isplitl [HS0]; · iexact HS0
        isplitl [HS1]; · iexact HS1
        isplitl [HS2]; · iexact HS2
        isplitl [HS3]; · iexact HS3
        isplitl [HS4]; · iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch buffers hold anything: no row is claimed yet. -/
theorem hin (c : Dev nD) : Pipeline.ΦA spec0 c ⊢ (dats m 0 c).Φ 0 := by
  rw [show (dats m 0 c).Φ 0 = PhiS m c 0 from rfl, PhiA0_eq]; unfold PhiS
  iintro ⟨⟨⟨%d0, H0⟩, ⟨%d1, H1⟩, ⟨%d2, H2⟩, ⟨%d3, H3⟩, ⟨%d4, H4⟩⟩, Hg⟩
  iexists d0, d1, d2, d3, d4
  isplitr; · ipureintro; exact inv_zero m c d0 d1 d2 d3 d4
  isplitl [H0]; · iexact H0
  isplitl [H1]; · iexact H1
  isplitl [H2]; · iexact H2
  isplitl [H3]; · iexact H3
  isplitl [H4]; · iexact H4
  iexact Hg

/-- After the last point what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]; unfold PhiS
  iintro ⟨%d0, %d1, %d2, %d3, %d4, -, H0, H1, H2, H3, H4, Hg⟩
  isplitr [Hg]
  · isplitl [H0]; · iexists _; iexact H0
    isplitl [H1]; · iexists _; iexact H1
    isplitl [H2]; · iexists _; iexact H2
    isplitl [H3]; · iexists _; iexact H3
    iexists _; iexact H4
  iexact Hg

/-! ## The run and the frame -/

set_option backward.isDefEq.respectTransparency.types false in
/-- Every weakly fair execution of the program ends, without a fault, with the result's array at what the write-backs
    leave and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end, nothing faults, and the ten argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Body

end
-- ==== Proof.RefRead.lean ====
/-
  The reference's computation read one operation at a time: this module only brings the generated run of the
  reference and its read-at-an-index lemmas into scope for the modules that compare it with the kernel.
-/
import proofs.«169710_g34591666602572_cont_8to1_b_883_10_alg».proof.Proof.Gen.ReferenceIdeal.Read
-- ==== Proof.KI.Final.lean ====
/-
  The result array after the run: the eight write-backs are the eight 128-row blocks of one array, and they cover it.
-/
import proofs.«169710_g34591666602572_cont_8to1_b_883_10_alg».proof.Proof.KI.Obl
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result array after the run

Row `r` of the result is written back at point `8 + r / 128`, as row `r % 128` of that point's block. -/

/-- The point that writes row `r` of the result back. -/
def tOut (r : ℕ) (h : r < 1024) : Fin cfg0.N := ⟨8 + r / 128, by rw [N16]; omega⟩

/-- The result as one array: each row taken from the block its point stores. -/
def GK (c : Dev nD) : Vec F S1024x256 .f32 := fun y =>
  OUT10 m c (tOut (y 0).val (y 0).isLt) (ValueIdx.ix2 ⟨(y 0).val % 128, Nat.mod_lt _ (by decide)⟩ (y 1))

/-- The result's window over the grid: written back from point eight on, block `t - 8`. -/
theorem idx10 : ∀ t : Fin cfg0.N, (cfg0.win 10).flush t = true →
    8 ≤ t.val ∧ win0_10.index t (0 : Fin 2) = t.val - 8 ∧ win0_10.index t (1 : Fin 2) = 0 :=
  (by decide +kernel : ∀ t : Fin grid0.N, win0_10.flush t = true →
    8 ≤ t.val ∧ win0_10.index t (0 : Fin 2) = t.val - 8 ∧ win0_10.index t (1 : Fin 2) = 0)
theorem flush10 : ∀ t : Fin cfg0.N, 8 ≤ t.val → (cfg0.win 10).flush t = true :=
  (by decide +kernel : ∀ t : Fin grid0.N, 8 ≤ t.val → win0_10.flush t = true)

/-- What point `t` writes back is block `t - 8` of the one array. -/
theorem flushed10_eq (c : Dev nD) (t : Fin cfg0.N) (hf : (cfg0.win 10).flush t = true) :
    (dats m 0 c).flushed 10 t = ((cfg0.win 10).blk t).view.read (Elt F) (GK m c) := by
  obtain ⟨h8, e0, e1⟩ := idx10 t hf
  show (cfg0.win 10).cut (grid0.coords t) ((dats m 0 c).after 10 t) = _
  rw [after0_10]
  funext j
  show OUT10 m c t j = GK m c (((cfg0.win 10).blk t).view.emb j)
  have hj0 : (j 0).val < 128 := (j 0).isLt
  have hemb0 : ((((cfg0.win 10).blk t).view.emb j) 0).val = (t.val - 8) * 128 + (j 0).val := by
    show win0_10.index t (0 : Fin 2) * 128 + 1 * (j 0).val = _; rw [e0]; omega
  have hemb1 : ((((cfg0.win 10).blk t).view.emb j) 1).val = (j 1).val := by
    show win0_10.index t (1 : Fin 2) * 256 + 1 * (j 1).val = _; rw [e1]; omega
  have ht : tOut ((((cfg0.win 10).blk t).view.emb j) 0).val ((((cfg0.win 10).blk t).view.emb j) 0).isLt = t :=
    Fin.ext (by show 8 + ((((cfg0.win 10).blk t).view.emb j) 0).val / 128 = t.val; rw [hemb0]; omega)
  unfold GK
  rw [ht]
  refine congrArg (OUT10 m c t) ?_
  funext a
  match a with
  | ⟨0, _⟩ => exact Fin.ext (by show (j 0).val = ((((cfg0.win 10).blk t).view.emb j) 0).val % 128; rw [hemb0]; omega)
  | ⟨1, _⟩ => exact Fin.ext (by show (j 1).val = ((((cfg0.win 10).blk t).view.emb j) 1).val; rw [hemb1])

/-- An index of the result is in point `t`'s block iff its coordinates are in the block's ranges. -/
theorem mem_blk10 (t : Fin cfg0.N) (i : S1024x256.Idx) :
    i ∈ ((cfg0.win 10).blk t).view.set ↔ ∀ a : Fin 2, win0_10.index t a * S128x256.size a ≤ (i a).val
      ∧ (i a).val < win0_10.index t a * S128x256.size a + S128x256.size a := by
  show i ∈ ((View.whole main_v6).slice (win0_10.rect t)).set ↔ _
  rw [View.set_slice_whole, Rect.mem_set_unit]
  exact Iff.rfl

/-- Every row of the result is written back by some point. -/
theorem cover10 (i : S1024x256.Idx) : ∃ t : Fin cfg0.N, (cfg0.win 10).flush t = true ∧ i ∈ ((cfg0.win 10).blk t).view.set := by
  have hi0 : (i 0).val < 1024 := (i 0).isLt
  have hi1 : (i 1).val < 256 := (i 1).isLt
  have hf := flush10 (tOut (i 0).val hi0) (by show 8 ≤ 8 + (i 0).val / 128; omega)
  obtain ⟨h8, e0, e1⟩ := idx10 _ hf
  have hv : (tOut (i 0).val hi0).val = 8 + (i 0).val / 128 := rfl
  refine ⟨tOut (i 0).val hi0, hf, ?_⟩
  rw [mem_blk10]
  intro a
  match a with
  | ⟨0, _⟩ =>
    show win0_10.index (tOut (i 0).val hi0) (0 : Fin 2) * 128 ≤ (i 0).val ∧ (i 0).val < win0_10.index (tOut (i 0).val hi0) (0 : Fin 2) * 128 + 128
    rw [e0, hv]; omega
  | ⟨1, _⟩ =>
    show win0_10.index (tOut (i 0).val hi0) (1 : Fin 2) * 256 ≤ (i 1).val ∧ (i 1).val < win0_10.index (tOut (i 0).val hi0) (1 : Fin 2) * 256 + 256
    rw [e1]; omega

/-- The result array after the run. -/
theorem final10 (c : Dev nD) : (dats m 0 c).arrAt 10 cfg0.N = GK m c :=
  (dats m 0 c).arrAt_eq_of_cover 10 (GK m c) (fun t hf => flushed10_eq m c t hf) (cover10)

/-- The run, with the result named: it ends at `GK` of the arguments, and the arguments end as they began. -/
theorem run_value : θ_run defs (onTc (τ := τ) (main (F := F))) ⟨m, fun _ => 0, ρ⟩ (fun r => ∀ c : Dev nD,
      r.2.mem ((c.tc : Thread nD τ).loc main_v6) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 10).trans (final10 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.Body

end
-- ==== Proof.LibGcnBn.lean ====
/-
  The algebra of a graph-convolution layer followed by a batch normalisation, on the extended reals, for data that
  are real numbers. Each statement says that the vector unit's spelling and the host's spelling are the coercion of ONE
  real number: that is their equality, and it is also the finiteness the next stage needs.

  * `agg_real`: the aggregation  (sum_k a_k (z_k s_k)) s_r + b  against  (sum_k ((s_r a_k) s_k) z_k) + b.
  * `bn_real`: the normalisation with the variance as  mean of squares - square of mean  and a reciprocal root
    against the variance as  mean of squared deviations  and a division by the root.
  * `pow_neg_half`: on a positive real the power -1/2 is the reciprocal root; `diag_fix`: a (1 - e) + e for e in {0, 1}.
-/
import Idealize.ShloMosaic.PureOps.Ideal

noncomputable section

namespace Cert.LibGcnBn

open Idealize.ShloMosaic

/-! ## The literals -/

theorem ofBits_one : Ideal.ofBits .f32 0x3F800000#32 = 1 := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num

/-- The small constant under the roots is a positive real. -/
theorem ofBits_eps : ∃ ε : ℝ, 0 < ε ∧ Ideal.ofBits .f32 0x3727C5AC#32 = (ε : EReal) := by
  refine ⟨(2 ^ 23 + 2606508 : ℕ) * (2 : ℝ) ^ ((110 : ℤ) - 127 - 23), by positivity, ?_⟩
  simp [Ideal.ofBits, Ideal.ieee, -EReal.coe_mul]

/-! ## Sums of real numbers in the extended reals -/

theorem coe_sum {ι : Type} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- A plain product of real tables, entry by entry. -/
theorem dot_real {n : ℕ} (x w : Fin n → ℝ) :
    (∑ k, (x k : EReal) * (w k : EReal)) = ((∑ k, x k * w k : ℝ) : EReal) := by
  rw [coe_sum]; exact Finset.sum_congr rfl fun k _ => (EReal.coe_mul _ _).symm

/-! ## The diagonal forced to one -/

theorem diag_fix (a : EReal) (p : Prop) [Decidable p] :
    a * ((1 : EReal) - (if p then 1 else 0)) + (if p then 1 else 0) = if p then 1 else a := by
  have h11 : (1 : EReal) - 1 = 0 := by rw [← EReal.coe_one, ← EReal.coe_sub, sub_self, EReal.coe_zero]
  by_cases h : p
  · rw [if_pos h, if_pos h, h11, mul_zero, zero_add]
  · rw [if_neg h, if_neg h, sub_zero, mul_one, add_zero]

/-! ## The degree normaliser -/

theorem pow_neg_half (d : ℝ) (hd : 0 < d) :
    Ideal.pow (d : EReal) ((-(1 / 2) : ℝ) : EReal) = Ideal.rsqrt (d : EReal) := by
  rw [Ideal.pow_coe_coe, Ideal.rsqrt_coe, if_neg (not_lt.mpr hd.le), if_neg hd.ne']
  congr 1
  show d ^ (-(1 / 2) : ℝ) = (Real.sqrt d)⁻¹
  rw [Real.rpow_neg hd.le, Real.sqrt_eq_rpow]

theorem rsqrt_real (d : ℝ) (hd : 0 < d) : Ideal.rsqrt (d : EReal) = (((Real.sqrt d)⁻¹ : ℝ) : EReal) := by
  rw [Ideal.rsqrt_coe, if_neg (not_lt.mpr hd.le), if_neg hd.ne']

/-! ## One aggregation -/

theorem agg_real {n : ℕ} (a z s : Fin n → ℝ) (sr b : ℝ) :
    ∃ y : ℝ, (∑ k, (a k : EReal) * ((z k : EReal) * (s k : EReal))) * (sr : EReal) + (b : EReal) = (y : EReal)
      ∧ (∑ k, (((sr : EReal) * (a k : EReal)) * (s k : EReal)) * (z k : EReal)) + (b : EReal) = (y : EReal) := by
  refine ⟨(∑ k, a k * (z k * s k)) * sr + b, ?_, ?_⟩
  · rw [EReal.coe_add, EReal.coe_mul, coe_sum]
    simp only [EReal.coe_mul]
  · rw [EReal.coe_add, show (∑ k, a k * (z k * s k)) * sr = ∑ k, ((sr * a k) * s k) * z k from by
      rw [Finset.sum_mul]; exact Finset.sum_congr rfl fun k _ => by ring, coe_sum]
    simp only [EReal.coe_mul]

/-! ## One batch normalisation -/

theorem var_forms {n : ℕ} (h : Fin n → ℝ) (N : ℝ) (hN : N = (n : ℝ)) (hn : 0 < n) :
    (∑ r, h r * h r) * (1 / N) - ((∑ r, h r) * (1 / N)) * ((∑ r, h r) * (1 / N))
      = (∑ r, (h r - (∑ r, h r) * (1 / N)) * (h r - (∑ r, h r) * (1 / N))) * (1 / N) := by
  have hN0 : N ≠ 0 := by rw [hN]; exact_mod_cast hn.ne'
  set S := ∑ r, h r with hS
  have e : (∑ r, (h r - S * (1 / N)) * (h r - S * (1 / N)))
      = (∑ r, h r * h r) - 2 * (S * (1 / N)) * S + (n : ℝ) * ((S * (1 / N)) * (S * (1 / N))) := by
    have : ∀ r, (h r - S * (1 / N)) * (h r - S * (1 / N)) = h r * h r - 2 * (S * (1 / N)) * h r + (S * (1 / N)) * (S * (1 / N)) :=
      fun r => by ring
    simp only [this, Finset.sum_add_distrib, Finset.sum_sub_distrib, ← Finset.mul_sum, Finset.sum_const, Finset.card_univ,
      Fintype.card_fin, nsmul_eq_mul, ← hS]
    ring
  rw [e, ← hN]
  field_simp
  ring

theorem bn_real {n : ℕ} (h : Fin n → ℝ) (N ε g be : ℝ) (hN : N = (n : ℝ)) (hn : 0 < n) (hε : 0 < ε) (r : Fin n) :
    ∃ y : ℝ,
      ((g : EReal) * ((h r : EReal) - Ideal.div (∑ r, (h r : EReal)) (N : EReal)))
          * Ideal.rsqrt ((Ideal.div (∑ r, (h r : EReal) * (h r : EReal)) (N : EReal)
              - Ideal.div (∑ r, (h r : EReal)) (N : EReal) * Ideal.div (∑ r, (h r : EReal)) (N : EReal)) + (ε : EReal))
          + (be : EReal) = (y : EReal)
      ∧ Ideal.div ((g : EReal) * ((h r : EReal) - Ideal.div (0 + ∑ r, (h r : EReal)) (N : EReal)))
            (Ideal.sqrt (Ideal.div (0 + ∑ r, ((h r : EReal) - Ideal.div (0 + ∑ r, (h r : EReal)) (N : EReal))
                * ((h r : EReal) - Ideal.div (0 + ∑ r, (h r : EReal)) (N : EReal))) (N : EReal) + (ε : EReal)))
          + (be : EReal) = (y : EReal) := by
  have hN0 : N ≠ 0 := by rw [hN]; exact_mod_cast hn.ne'
  have hNpos : 0 < N := by rw [hN]; exact_mod_cast hn
  obtain ⟨μ, hμ⟩ : ∃ μ : ℝ, μ = (∑ r, h r) * (1 / N) := ⟨_, rfl⟩
  obtain ⟨v, hv⟩ : ∃ v : ℝ, v = (∑ r, (h r - μ) * (h r - μ)) * (1 / N) := ⟨_, rfl⟩
  have hv' : v = (∑ r, h r * h r) * (1 / N) - μ * μ := by
    rw [hv, hμ]; exact (var_forms h N hN hn).symm
  have hv0 : 0 ≤ v := by
    rw [hv]; exact mul_nonneg (Finset.sum_nonneg fun r _ => mul_self_nonneg _) (by positivity)
  have hvε : 0 < v + ε := by linarith
  have emu : Ideal.div (∑ r, (h r : EReal)) (N : EReal) = (μ : EReal) := by
    rw [Ideal.div_coe hN0, hμ]; simp only [EReal.coe_mul, coe_sum]
  have emu0 : Ideal.div (0 + ∑ r, (h r : EReal)) (N : EReal) = (μ : EReal) := by rw [zero_add, emu]
  have evK : Ideal.div (∑ r, (h r : EReal) * (h r : EReal)) (N : EReal) - (μ : EReal) * (μ : EReal) = (v : EReal) := by
    rw [Ideal.div_coe hN0, hv']; simp only [EReal.coe_sub, EReal.coe_mul, coe_sum]
  have evR : Ideal.div (0 + ∑ r, ((h r : EReal) - (μ : EReal)) * ((h r : EReal) - (μ : EReal))) (N : EReal) = (v : EReal) := by
    rw [zero_add, Ideal.div_coe hN0, hv]; simp only [EReal.coe_sub, EReal.coe_mul, coe_sum]
  have hs0 : Real.sqrt (v + ε) ≠ 0 := (Real.sqrt_pos.mpr hvε).ne'
  refine ⟨g * (h r - μ) * (Real.sqrt (v + ε))⁻¹ + be, ?_, ?_⟩
  · rw [emu, evK, ← EReal.coe_add, rsqrt_real _ hvε]; simp only [EReal.coe_sub, EReal.coe_mul, EReal.coe_add]
  · rw [emu0, evR, ← EReal.coe_add, Ideal.sqrt_coe, if_neg (not_lt.mpr hvε.le), Ideal.div_coe hs0, one_div]
    simp only [EReal.coe_sub, EReal.coe_mul, EReal.coe_add]

end Cert.LibGcnBn

end
-- ==== Proof.Spec.lean ====
/-
  The two programs as mathematics, entry by entry, over 1024 nodes and 256 channels, and their equality.

  Both compute, twice over, an aggregation with the symmetrically normalised adjacency (its diagonal forced to one)
  followed by a batch normalisation over the nodes; between the two a rectified linear unit and a product with a weight
  table. They differ in how the normalisation by the degrees is associated around the sum, in the variance formula, in a
  reciprocal root against a division by a root, and in the degree normaliser being guarded or not. For real inputs and
  a non-negative adjacency every intermediate value is a real number, each degree is at least one, and the two agree.
-/
import proofs.«169710_g34591666602572_cont_8to1_b_883_10_alg».proof.Proof.LibGcnBn
import Idealize.ShloMosaic.PureOps.Ideal.Laws
import Idealize.ShloMosaic.Lib.ValueIdx

noncomputable section

namespace Cert.Spec

open Idealize.ShloMosaic Cert.LibGcnBn

abbrev NN : EReal := Ideal.ofBits .f32 0x44800000#32
abbrev EPS : EReal := Ideal.ofBits .f32 0x3727C5AC#32
abbrev Z0 : EReal := Ideal.ofBits .f32 0x00000000#32
abbrev NH : EReal := Ideal.ofBits .f32 0xBF000000#32

/-- Both are the coercion of one real number. -/
def Same (u v : EReal) : Prop := ∃ y : ℝ, u = (y : EReal) ∧ v = (y : EReal)
def IsR (u : EReal) : Prop := ∃ y : ℝ, u = (y : EReal)

theorem Same.eq {u v : EReal} (h : Same u v) : u = v := by obtain ⟨y, h1, h2⟩ := h; rw [h1, h2]
theorem same_refl {u : EReal} (h : IsR u) : Same u u := by obtain ⟨y, h1⟩ := h; exact ⟨y, h1, h1⟩

section
variable (adj : Fin 1024 → Fin 1024 → EReal)

/-- The adjacency with its diagonal forced to one. -/
def ahat (r k : Fin 1024) : EReal := if k = r then 1 else adj r k
/-- A node's degree. -/
def deg (r : Fin 1024) : EReal := ∑ k, ahat adj r k
/-- The degree normaliser, unguarded (the vector unit's) and guarded (the host's). -/
def sK (r : Fin 1024) : EReal := Ideal.rsqrt (deg adj r)
def sR (r : Fin 1024) : EReal := Scalar.select (Ideal.cmp .ogt (deg adj r) Z0) (Ideal.pow (deg adj r) NH) Z0

/-- One aggregation, the normaliser applied to the summands' right factor and to the sum … -/
def aggK (s : Fin 1024 → EReal) (z : Fin 1024 → Fin 256 → EReal) (b : Fin 256 → EReal) (r : Fin 1024) (j : Fin 256) : EReal :=
  (∑ k, ahat adj r k * (z k j * s k)) * s r + b j
/-- … and applied to the adjacency's entries. -/
def aggR (s : Fin 1024 → EReal) (z : Fin 1024 → Fin 256 → EReal) (b : Fin 256 → EReal) (r : Fin 1024) (j : Fin 256) : EReal :=
  (∑ k, ((s r * ahat adj r k) * s k) * z k j) + b j
end

/-- A product of the features with a weight table. -/
def xw (x : Fin 1024 → Fin 256 → EReal) (w : Fin 256 → Fin 256 → EReal) (r : Fin 1024) (j : Fin 256) : EReal := ∑ k, x r k * w k j

/-- The batch normalisation over the nodes, in the vector unit's spelling … -/
def bnK (h : Fin 1024 → Fin 256 → EReal) (g be : Fin 256 → EReal) (r : Fin 1024) (j : Fin 256) : EReal :=
  (g j * (h r j - Ideal.div (∑ r, h r j) NN))
    * Ideal.rsqrt ((Ideal.div (∑ r, h r j * h r j) NN - Ideal.div (∑ r, h r j) NN * Ideal.div (∑ r, h r j) NN) + EPS) + be j
/-- … and in the host's. -/
def bnR (h : Fin 1024 → Fin 256 → EReal) (g be : Fin 256 → EReal) (r : Fin 1024) (j : Fin 256) : EReal :=
  Ideal.div (g j * (h r j - Ideal.div (0 + ∑ r, h r j) NN))
    (Ideal.sqrt (Ideal.div (0 + ∑ r, (h r j - Ideal.div (0 + ∑ r, h r j) NN) * (h r j - Ideal.div (0 + ∑ r, h r j) NN)) NN + EPS)) + be j

def relu (y : EReal) : EReal := max y Z0
/-- The rectified first layer times the second weight table. -/
def mm (u : Fin 1024 → Fin 256 → EReal) (w : Fin 256 → Fin 256 → EReal) (r : Fin 1024) (j : Fin 256) : EReal :=
  ∑ q, relu (u r q) * w q j

section
variable (x : Fin 1024 → Fin 256 → EReal) (adj : Fin 1024 → Fin 1024 → EReal) (w1 w2 : Fin 256 → Fin 256 → EReal)
  (b1 g1 be1 b2 g2 be2 : Fin 256 → EReal)

def outK : Fin 1024 → Fin 256 → EReal :=
  bnK (aggK adj (sK adj) (mm (bnK (aggK adj (sK adj) (xw x w1) b1) g1 be1) w2) b2) g2 be2
def outR : Fin 1024 → Fin 256 → EReal :=
  bnR (aggR adj (sR adj) (mm (bnR (aggR adj (sR adj) (xw x w1) b1) g1 be1) w2) b2) g2 be2
end

/-! ## Stage by stage -/

theorem z0_eq : Z0 = 0 := Ideal.ofBits_zero_f32

section
variable (adj : Fin 1024 → Fin 1024 → EReal) (a : Fin 1024 → Fin 1024 → ℝ) (ha : ∀ r k, adj r k = (a r k : EReal)) (ha0 : ∀ r k, 0 ≤ a r k)
include ha ha0

theorem ahat_real (r k : Fin 1024) : ahat adj r k = ((if k = r then 1 else a r k : ℝ) : EReal) := by
  unfold ahat; split_ifs <;> simp [ha]

theorem deg_real (r : Fin 1024) : ∃ d : ℝ, 0 < d ∧ deg adj r = (d : EReal) := by
  refine ⟨∑ k, (if k = r then 1 else a r k), ?_, ?_⟩
  · have h1 : (1 : ℝ) ≤ ∑ k, (if k = r then 1 else a r k) := by
      have := Finset.single_le_sum (f := fun k => (if k = r then (1 : ℝ) else a r k))
        (fun k _ => by show (0 : ℝ) ≤ if k = r then 1 else a r k; split_ifs <;> [norm_num; exact ha0 r k]) (Finset.mem_univ r)
      simpa using this
    linarith
  · unfold deg; rw [coe_sum]; exact Finset.sum_congr rfl fun k _ => ahat_real adj a ha ha0 r k

theorem s_same (r : Fin 1024) : Same (sK adj r) (sR adj r) := by
  obtain ⟨d, hd, e⟩ := deg_real adj a ha ha0 r
  refine ⟨(Real.sqrt d)⁻¹, ?_, ?_⟩
  · unfold sK; rw [e, rsqrt_real d hd]
  · unfold sR
    have hc : Ideal.cmp .ogt (deg adj r) Z0 = 1#1 := by
      rw [e, z0_eq]; unfold Ideal.cmp; simp [hd]
    rw [hc, ValueIdx.select_one, e, show NH = ((-(1 / 2) : ℝ) : EReal) from ofBits_neg_half, pow_neg_half d hd, rsqrt_real d hd]

theorem agg_same (zK zR : Fin 1024 → Fin 256 → EReal) (b : Fin 256 → EReal) (hz : ∀ k j, Same (zK k j) (zR k j))
    (hb : ∀ j, IsR (b j)) (r : Fin 1024) (j : Fin 256) :
    Same (aggK adj (sK adj) zK b r j) (aggR adj (sR adj) zR b r j) := by
  choose σ hσK hσR using s_same adj a ha ha0
  choose z hzK hzR using hz
  obtain ⟨b', hb'⟩ := hb j
  obtain ⟨y, h1, h2⟩ := agg_real (fun k => if k = r then 1 else a r k) (fun k => z k j) σ (σ r) b'
  refine ⟨y, ?_, ?_⟩
  · unfold aggK; rw [← h1, hb', hσK r]
    congr 2
    exact Finset.sum_congr rfl fun k _ => by rw [ahat_real adj a ha ha0 r k, hzK k j, hσK k]
  · unfold aggR; rw [← h2, hb', hσR r]
    congr 1
    exact Finset.sum_congr rfl fun k _ => by rw [ahat_real adj a ha ha0 r k, hzR k j, hσR k]
end

theorem bn_same (hK hR : Fin 1024 → Fin 256 → EReal) (g be : Fin 256 → EReal) (hh : ∀ r j, Same (hK r j) (hR r j))
    (hg : ∀ j, IsR (g j)) (hbe : ∀ j, IsR (be j)) (r : Fin 1024) (j : Fin 256) :
    Same (bnK hK g be r j) (bnR hR g be r j) := by
  choose h hhK hhR using hh
  obtain ⟨g', hg'⟩ := hg j
  obtain ⟨be', hbe'⟩ := hbe j
  obtain ⟨ε, hε, eε⟩ := ofBits_eps
  obtain ⟨y, h1, h2⟩ := bn_real (fun r => h r j) 1024 ε g' be' (by norm_num) (by norm_num) hε r
  have eK : hK = fun r j => (h r j : EReal) := funext fun r => funext fun j => hhK r j
  have eR : hR = fun r j => (h r j : EReal) := funext fun r => funext fun j => hhR r j
  refine ⟨y, ?_, ?_⟩
  · unfold bnK; rw [eK, hg', hbe', show NN = ((1024 : ℝ) : EReal) from ofBits_1024, show EPS = (ε : EReal) from eε]; exact h1
  · unfold bnR; rw [eR, hg', hbe', show NN = ((1024 : ℝ) : EReal) from ofBits_1024, show EPS = (ε : EReal) from eε]; exact h2

theorem relu_real (y : ℝ) : relu (y : EReal) = ((max y 0 : ℝ) : EReal) := by
  unfold relu; rw [z0_eq, ← EReal.coe_zero]; exact (EReal.coe_strictMono.monotone.map_max).symm

theorem mm_same (uK uR : Fin 1024 → Fin 256 → EReal) (w : Fin 256 → Fin 256 → EReal) (hu : ∀ r q, Same (uK r q) (uR r q))
    (hw : ∀ q j, IsR (w q j)) (r : Fin 1024) (j : Fin 256) : Same (mm uK w r j) (mm uR w r j) := by
  choose u huK huR using hu
  choose w' hw' using hw
  refine ⟨∑ q, max (u r q) 0 * w' q j, ?_, ?_⟩
  · unfold mm; rw [coe_sum]; exact Finset.sum_congr rfl fun q _ => by rw [huK, hw', relu_real, EReal.coe_mul]
  · unfold mm; rw [coe_sum]; exact Finset.sum_congr rfl fun q _ => by rw [huR, hw', relu_real, EReal.coe_mul]

theorem xw_same (x : Fin 1024 → Fin 256 → EReal) (w : Fin 256 → Fin 256 → EReal) (hx : ∀ r k, IsR (x r k)) (hw : ∀ k j, IsR (w k j))
    (r : Fin 1024) (j : Fin 256) : Same (xw x w r j) (xw x w r j) := by
  choose x' hx' using hx
  choose w' hw' using hw
  refine same_refl ⟨∑ k, x' r k * w' k j, ?_⟩
  unfold xw; rw [coe_sum]; exact Finset.sum_congr rfl fun k _ => by rw [hx', hw', EReal.coe_mul]

/-- The two programs compute the same table. -/
theorem outK_eq_outR (x : Fin 1024 → Fin 256 → EReal) (adj : Fin 1024 → Fin 1024 → EReal) (w1 w2 : Fin 256 → Fin 256 → EReal)
    (b1 g1 be1 b2 g2 be2 : Fin 256 → EReal)
    (hx : ∀ r k, IsR (x r k)) (hadj : ∀ r k, ∃ a : ℝ, adj r k = (a : EReal) ∧ 0 ≤ a)
    (hw1 : ∀ k j, IsR (w1 k j)) (hw2 : ∀ k j, IsR (w2 k j))
    (hb1 : ∀ j, IsR (b1 j)) (hg1 : ∀ j, IsR (g1 j)) (hbe1 : ∀ j, IsR (be1 j))
    (hb2 : ∀ j, IsR (b2 j)) (hg2 : ∀ j, IsR (g2 j)) (hbe2 : ∀ j, IsR (be2 j)) (r : Fin 1024) (j : Fin 256) :
    outK x adj w1 w2 b1 g1 be1 b2 g2 be2 r j = outR x adj w1 w2 b1 g1 be1 b2 g2 be2 r j := by
  choose a ha ha0 using hadj
  unfold outK outR
  refine (bn_same _ _ g2 be2 (fun r j => agg_same adj a ha ha0 _ _ b2 (fun k j => mm_same _ _ w2
    (fun r q => bn_same _ _ g1 be1 (fun r j => agg_same adj a ha ha0 _ _ b1 (xw_same x w1 hx hw1) hb1 r j) hg1 hbe1 r q)
    hw2 k j) hb2 r j) hg2 hbe2 r j).eq

end Cert.Spec

end
-- ==== Proof.KI.Blocks.lean ====
/-
  The ten argument arrays as tables, and each window's block at a point as entries of those tables: the two row
  windows advance by 128 rows per point up to point seven, the others never move, and six of them read a vector laid
  as one row before the region.
-/
import proofs.«169710_g34591666602572_cont_8to1_b_883_10_alg».proof.Proof.KI.Final
import proofs.«169710_g34591666602572_cont_8to1_b_883_10_alg».proof.Proof.Spec
import Idealize.ShloMosaic.Lib.ValueLayout
import Idealize.ShloMosaic.Lib.StableHlo.Run
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (c : Dev nD)

/-! ## The ten argument arrays as tables -/

def xA (r : Fin 1024) (k : Fin 256) : EReal := (m ((c.tc : Thread nD τ).loc main_arg0) : S1024x256.Idx → EReal) (ix2 r k)
def adjA (r k : Fin 1024) : EReal := (m ((c.tc : Thread nD τ).loc main_arg1) : S1024x1024.Idx → EReal) (ix2 r k)
def w1A (k j : Fin 256) : EReal := (m ((c.tc : Thread nD τ).loc main_arg2) : S256x256.Idx → EReal) (ix2 k j)
def b1A (j : Fin 256) : EReal := (m ((c.tc : Thread nD τ).loc main_arg3) : S256.Idx → EReal) (ix1 j)
def g1A (j : Fin 256) : EReal := (m ((c.tc : Thread nD τ).loc main_arg4) : S256.Idx → EReal) (ix1 j)
def be1A (j : Fin 256) : EReal := (m ((c.tc : Thread nD τ).loc main_arg5) : S256.Idx → EReal) (ix1 j)
def w2A (k j : Fin 256) : EReal := (m ((c.tc : Thread nD τ).loc main_arg6) : S256x256.Idx → EReal) (ix2 k j)
def b2A (j : Fin 256) : EReal := (m ((c.tc : Thread nD τ).loc main_arg7) : S256.Idx → EReal) (ix1 j)
def g2A (j : Fin 256) : EReal := (m ((c.tc : Thread nD τ).loc main_arg8) : S256.Idx → EReal) (ix1 j)
def be2A (j : Fin 256) : EReal := (m ((c.tc : Thread nD τ).loc main_arg9) : S256.Idx → EReal) (ix1 j)

/-! ## The windows' index maps over the grid -/

theorem idxRows : ∀ t : Fin cfg0.N, t.val < 8 → win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, t.val < 8 → win0_0.index t (0 : Fin 2) = t.val ∧ win0_0.index t (1 : Fin 2) = 0
    ∧ win0_1.index t (0 : Fin 2) = t.val ∧ win0_1.index t (1 : Fin 2) = 0)
theorem idxFixed : ∀ t : Fin cfg0.N, ∀ a : Fin 2, win0_2.index t a = 0 ∧ win0_3.index t a = 0 ∧ win0_4.index t a = 0 ∧ win0_5.index t a = 0
    ∧ win0_6.index t a = 0 ∧ win0_7.index t a = 0 ∧ win0_8.index t a = 0 ∧ win0_9.index t a = 0 :=
  (by decide +kernel : ∀ t : Fin grid0.N, ∀ a : Fin 2, win0_2.index t a = 0 ∧ win0_3.index t a = 0 ∧ win0_4.index t a = 0 ∧ win0_5.index t a = 0
    ∧ win0_6.index t a = 0 ∧ win0_7.index t a = 0 ∧ win0_8.index t a = 0 ∧ win0_9.index t a = 0)

/-! ## The blocks -/

/-- The adjacency's block at a preparing point: rows `128 t` to `128 t + 127`. -/
theorem blk0 (t : Fin cfg0.N) (ht : t.val < 8) (p : Fin 128) (q : Fin 1024) :
    b0 m c t (ix2 p q) = adjA m c ⟨128 * t.val + p.val, by omega⟩ q := by
  obtain ⟨e0, e1, -, -⟩ := idxRows t ht
  show V m c main_arg1 (((cfg0.win 0).blk t).view.emb (ix2 p q)) = _
  rw [V_main_arg1]
  unfold adjA
  refine congrArg _ (funext fun a => Fin.ext ?_)
  match a with
  | ⟨0, _⟩ => show win0_0.index t (0 : Fin 2) * 128 + 1 * p.val = 128 * t.val + p.val; rw [e0]; omega
  | ⟨1, _⟩ => show win0_0.index t (1 : Fin 2) * 1024 + 1 * q.val = q.val; rw [e1]; omega

/-- The features' block at a preparing point. -/
theorem blk1 (t : Fin cfg0.N) (ht : t.val < 8) (p : Fin 128) (q : Fin 256) :
    b1 m c t (ix2 p q) = xA m c ⟨128 * t.val + p.val, by omega⟩ q := by
  obtain ⟨-, -, e0, e1⟩ := idxRows t ht
  show V m c main_arg0 (((cfg0.win 1).blk t).view.emb (ix2 p q)) = _
  rw [V_main_arg0]
  unfold xA
  refine congrArg _ (funext fun a => Fin.ext ?_)
  match a with
  | ⟨0, _⟩ => show win0_1.index t (0 : Fin 2) * 128 + 1 * p.val = 128 * t.val + p.val; rw [e0]; omega
  | ⟨1, _⟩ => show win0_1.index t (1 : Fin 2) * 256 + 1 * q.val = q.val; rw [e1]; omega

/-- The two weight tables, whole at every point. -/
theorem blk2 (t : Fin cfg0.N) (p q : Fin 256) : b2 m c t (ix2 p q) = w1A m c p q := by
  show V m c main_arg2 (((cfg0.win 2).blk t).view.emb (ix2 p q)) = _
  rw [V_main_arg2]
  unfold w1A
  refine congrArg _ (funext fun a => Fin.ext ?_)
  match a with
  | ⟨0, _⟩ => show win0_2.index t (0 : Fin 2) * 256 + 1 * p.val = p.val; rw [(idxFixed t 0).1]; omega
  | ⟨1, _⟩ => show win0_2.index t (1 : Fin 2) * 256 + 1 * q.val = q.val; rw [(idxFixed t 1).1]; omega
theorem blk6 (t : Fin cfg0.N) (p q : Fin 256) : b6 m c t (ix2 p q) = w2A m c p q := by
  show V m c main_arg6 (((cfg0.win 6).blk t).view.emb (ix2 p q)) = _
  rw [V_main_arg6]
  unfold w2A
  refine congrArg _ (funext fun a => Fin.ext ?_)
  match a with
  | ⟨0, _⟩ => show win0_6.index t (0 : Fin 2) * 256 + 1 * p.val = p.val; rw [(idxFixed t 0).2.2.2.2.1]; omega
  | ⟨1, _⟩ => show win0_6.index t (1 : Fin 2) * 256 + 1 * q.val = q.val; rw [(idxFixed t 1).2.2.2.2.1]; omega

/-- A bias, scale or shift vector laid as one row before the region. -/
theorem V_row0 : (V m c main_v0 : S1x256.Idx → EReal)
    = shapeCast S1x256 (m ((c.tc : Thread nD τ).loc main_arg3) : S256.Idx → EReal) shapeCasts_S256_S1x256 := by
  dsimp only [Gen.V, Gen.hostOps0]; after_results; rfl

end Cert.KernelIdeal.Body

end
-- ==== Proof.KI.VecRead.lean ====
/-
  Vector operations read at an entry, at the ideal values: a column and a row repeated over a table, the sum down a
  column and along a row, and the three matrix products as sums of products.
-/
import proofs.«169710_g34591666602572_cont_8to1_b_883_10_alg».proof.Proof.KI.Blocks
import proofs.«169710_g34591666602572_cont_8to1_b_883_10_alg».proof.Proof.Spec
import Idealize.ShloMosaic.Lib.ValueLayout
import Idealize.ShloMosaic.Lib.StableHlo.Run
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (c : Dev nD)

/-! ## Vector operations read at an entry, at the ideal values -/

/-- One column repeated over 256 columns. -/
theorem colbc_apply (S : FVec Ideal S1024x1 .f32) (r : Fin 1024) (j : Fin 256) :
    broadcastTo S1024x256 S broadcasts_S1024x1_S1024x256 (ix2 r j) = S (ix2 r (0 : Fin 1)) := by
  refine broadcastTo_apply S broadcasts_S1024x1_S1024x256 (ix2 r j) (ix2 r (0 : Fin 1)) fun ax => ?_
  match ax with
  | ⟨0, _⟩ => show r.val = if (1024 : ℕ) = 1 then 0 else r.val; rw [if_neg (by decide)]
  | ⟨1, _⟩ => show 0 = if (1 : ℕ) = 1 then 0 else j.val; rw [if_pos rfl]

/-- One row repeated over the rows. -/
theorem rowbc1024_apply (R : FVec Ideal S1x256 .f32) (r : Fin 1024) (j : Fin 256) :
    broadcastTo S1024x256 R broadcasts_S1x256_S1024x256 (ix2 r j) = R (ix2 (0 : Fin 1) j) :=
  broadcastTo_1b_ab_apply R broadcasts_S1x256_S1024x256 r j
theorem rowbc128_apply (R : FVec Ideal S1x256 .f32) (p : Fin 128) (j : Fin 256) :
    broadcastTo S128x256 R broadcasts_S1x256_S128x256 (ix2 p j) = R (ix2 (0 : Fin 1) j) :=
  broadcastTo_1b_ab_apply R broadcasts_S1x256_S128x256 p j

/-- The sum down the 1024 rows of a column, laid as one row. -/
theorem colsum_apply (H : FVec Ideal S1024x256 .f32) (j : Fin 256) :
    shapeCast S1x256 (multiReduction (F := Ideal) .add [0] S256 H 0x00000000#32 reduces_S1024x256_S256 (.inl rfl) rfl) shapeCasts_S256_S1x256 (ix2 (0 : Fin 1) j)
      = ∑ r : Fin 1024, H (ix2 r j) := by
  rw [shapeCast_a_1a_apply]
  refine (Ideal.multiReduction_add_single H 0x00000000#32 reduces_S1024x256_S256 (.inl rfl) rfl (ix1 j)).trans ?_
  refine Finset.sum_congr rfl fun k _ => ?_
  exact congrArg H (funext fun a => Fin.ext (by match a with | ⟨0, _⟩ => rfl | ⟨1, _⟩ => rfl))

/-- The sum along the 1024 columns of a row of a 128-row slab, laid as one column. -/
theorem rowsum_apply (Y : FVec Ideal S128x1024 .f32) (p : Fin 128) :
    shapeCast S128x1 (shapeCast S128x1 (multiReduction (F := Ideal) .add [1] S128 Y 0x00000000#32 reduces_S128x1024_S128 (.inl rfl) rfl) shapeCasts_S128_S128x1)
        shapeCasts_S128x1_S128x1 (ix2 p (0 : Fin 1))
      = ∑ k : Fin 1024, Y (ix2 p k) := by
  rw [shapeCast_self]
  refine (shapeCast_apply _ shapeCasts_S128_S128x1 (ix2 p (0 : Fin 1)) (ix1 p) (by
    rw [Shape.rowMajor_val_two, Shape.rowMajor_val_one]; show p.val = p.val * 1 + 0; omega)).trans ?_
  refine (Ideal.multiReduction_add_single Y 0x00000000#32 reduces_S128x1024_S128 (.inl rfl) rfl (ix1 p)).trans ?_
  refine Finset.sum_congr rfl fun k _ => ?_
  exact congrArg Y (funext fun a => Fin.ext (by match a with | ⟨0, _⟩ => rfl | ⟨1, _⟩ => rfl))

theorem mat1024_apply (A : FVec Ideal S1024x1024 .bf16) (B : FVec Ideal S1024x256 .bf16) (r : Fin 1024) (j : Fin 256) :
    matmul (F := Ideal) dot_S1024x1024_S1024x256_S1024x256_1_0_0_1_n_n none A B (constant (F := Ideal) S1024x256 .f32 0x00000000#32) (ix2 r j) = ∑ k : Fin 1024, A (ix2 r k) * B (ix2 k j) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 r j) ((ValueIdx.contrEquiv1 dot_S1024x1024_S1024x256_S1024x256_1_0_0_1_n_n 1024 rfl rfl).symm k) = ix2 r k := funext fun a => Fin.ext (by
    match a with
    | ⟨0, _⟩ =>
      show (dot_S1024x1024_S1024x256_S1024x256_1_0_0_1_n_n.lhsIdx (ix2 r j) _ 0).val = r.val
      unfold DotDims.lhsIdx
      rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
      rfl
    | ⟨1, _⟩ => exact (dot_S1024x1024_S1024x256_S1024x256_1_0_0_1_n_n.lhsIdx_val_of_single rfl (ix2 r j) _).trans hk)
  have er : dot_S1024x1024_S1024x256_S1024x256_1_0_0_1_n_n.rhsIdx (ix2 r j) ((ValueIdx.contrEquiv1 dot_S1024x1024_S1024x256_S1024x256_1_0_0_1_n_n 1024 rfl rfl).symm k) = ix2 k j := funext fun a => Fin.ext (by
    match a with
    | ⟨0, _⟩ => exact (dot_S1024x1024_S1024x256_S1024x256_1_0_0_1_n_n.rhsIdx_val_of_single rfl (ix2 r j) _).trans hk
    | ⟨1, _⟩ =>
      show (dot_S1024x1024_S1024x256_S1024x256_1_0_0_1_n_n.rhsIdx (ix2 r j) _ 1).val = j.val
      unfold DotDims.rhsIdx
      rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
      rfl)
  rw [el, er]

theorem mat256_apply (A : FVec Ideal S1024x256 .f32) (B : FVec Ideal S256x256 .f32) (r : Fin 1024) (j : Fin 256) :
    matmul (F := Ideal) dot_S1024x256_S256x256_S1024x256_1_0_0_1_n_n none A B (constant (F := Ideal) S1024x256 .f32 0x00000000#32) (ix2 r j) = ∑ k : Fin 256, A (ix2 r k) * B (ix2 k j) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r j) ((ValueIdx.contrEquiv1 dot_S1024x256_S256x256_S1024x256_1_0_0_1_n_n 256 rfl rfl).symm k) = ix2 r k := funext fun a => Fin.ext (by
    match a with
    | ⟨0, _⟩ =>
      show (dot_S1024x256_S256x256_S1024x256_1_0_0_1_n_n.lhsIdx (ix2 r j) _ 0).val = r.val
      unfold DotDims.lhsIdx
      rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
      rfl
    | ⟨1, _⟩ => exact (dot_S1024x256_S256x256_S1024x256_1_0_0_1_n_n.lhsIdx_val_of_single rfl (ix2 r j) _).trans hk)
  have er : dot_S1024x256_S256x256_S1024x256_1_0_0_1_n_n.rhsIdx (ix2 r j) ((ValueIdx.contrEquiv1 dot_S1024x256_S256x256_S1024x256_1_0_0_1_n_n 256 rfl rfl).symm k) = ix2 k j := funext fun a => Fin.ext (by
    match a with
    | ⟨0, _⟩ => exact (dot_S1024x256_S256x256_S1024x256_1_0_0_1_n_n.rhsIdx_val_of_single rfl (ix2 r j) _).trans hk
    | ⟨1, _⟩ =>
      show (dot_S1024x256_S256x256_S1024x256_1_0_0_1_n_n.rhsIdx (ix2 r j) _ 1).val = j.val
      unfold DotDims.rhsIdx
      rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
      rfl)
  rw [el, er]

theorem mat128_apply (A : FVec Ideal S128x256 .f32) (B : FVec Ideal S256x256 .f32) (r : Fin 128) (j : Fin 256) :
    matmul (F := Ideal) dot_S128x256_S256x256_S128x256_1_0_0_1_n_n none A B (constant (F := Ideal) S128x256 .f32 0x00000000#32) (ix2 r j) = ∑ k : Fin 256, A (ix2 r k) * B (ix2 k j) := by
  simp only [matmul]
  rw [Ideal.matmul_constant_zero_apply, ← Equiv.sum_comp (ValueIdx.contrEquiv1 dot_S128x256_S256x256_S128x256_1_0_0_1_n_n 256 rfl rfl).symm]
  refine Finset.sum_congr rfl fun k _ => ?_
  have hk := ValueIdx.contrEquiv1_symm_val dot_S128x256_S256x256_S128x256_1_0_0_1_n_n 256 rfl rfl k
  have el : dot_S128x256_S256x256_S128x256_1_0_0_1_n_n.lhsIdx (ix2 r j) ((ValueIdx.contrEquiv1 dot_S128x256_S256x256_S128x256_1_0_0_1_n_n 256 rfl rfl).symm k) = ix2 r k := funext fun a => Fin.ext (by
    match a with
    | ⟨0, _⟩ =>
      show (dot_S128x256_S256x256_S128x256_1_0_0_1_n_n.lhsIdx (ix2 r j) _ 0).val = r.val
      unfold DotDims.lhsIdx
      rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
      rfl
    | ⟨1, _⟩ => exact (dot_S128x256_S256x256_S128x256_1_0_0_1_n_n.lhsIdx_val_of_single rfl (ix2 r j) _).trans hk)
  have er : dot_S128x256_S256x256_S128x256_1_0_0_1_n_n.rhsIdx (ix2 r j) ((ValueIdx.contrEquiv1 dot_S128x256_S256x256_S128x256_1_0_0_1_n_n 256 rfl rfl).symm k) = ix2 k j := funext fun a => Fin.ext (by
    match a with
    | ⟨0, _⟩ => exact (dot_S128x256_S256x256_S128x256_1_0_0_1_n_n.rhsIdx_val_of_single rfl (ix2 r j) _).trans hk
    | ⟨1, _⟩ =>
      show (dot_S128x256_S256x256_S128x256_1_0_0_1_n_n.rhsIdx (ix2 r j) _ 1).val = j.val
      unfold DotDims.rhsIdx
      rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
      rfl)
  rw [el, er]

end Cert.KernelIdeal.Body

end
-- ==== Proof.LibWords.lean ====
/-
  The diagonal test on 32-bit words of numbers below 2^31: two such words are equal exactly when the numbers are,
  and the sum of a word with a small multiple of 128 is the word of the sum. At the ideal values the one-bit answer,
  read as a number, is 1 on the diagonal and 0 off it.
-/
import Idealize.ShloMosaic.PureOps.Ideal
import Idealize.ShloMosaic.Lib.Affine
import Idealize.ShloMosaic.Lib.ValueIdx

noncomputable section

namespace Cert.Words

open Idealize.ShloMosaic

theorem ofNat_inj {a b : ℕ} (ha : a < 2 ^ 32) (hb : b < 2 ^ 32) : BitVec.ofNat 32 a = BitVec.ofNat 32 b ↔ a = b := by
  constructor
  · intro h
    have := congrArg BitVec.toNat h
    simp only [BitVec.toNat_ofNat] at this
    rw [Nat.mod_eq_of_lt ha, Nat.mod_eq_of_lt hb] at this
    exact this
  · rintro rfl; rfl

theorem addi_zero (x : BitVec 32) : IntOp.addi x 0#32 = x := by simp [IntOp.addi]

theorem addi_muli (p t : ℕ) : IntOp.addi (BitVec.ofNat 32 p) (Scalar.muli (BitVec.ofNat 32 t) 128#32) = BitVec.ofNat 32 (p + t * 128) := by
  simp [IntOp.addi, Scalar.muli, IntOp.muli, BitVec.ofNat_add, BitVec.ofNat_mul]

/-- The one-bit answer of an equality test of two small numbers' words. -/
theorem cmpi_eq_words {a b : ℕ} (ha : a < 2 ^ 32) (hb : b < 2 ^ 32) :
    IntOp.cmpi .eq (BitVec.ofNat 32 a) (BitVec.ofNat 32 b) = if a = b then 1#1 else 0#1 := by
  by_cases h : a = b
  · rw [if_pos h]; exact IntOp.cmpi_eq.mpr ((ofNat_inj ha hb).mpr h)
  · rw [if_neg h]
    exact ValueIdx.eq_zero_of_ne_one fun hc => h ((ofNat_inj ha hb).mp (IntOp.cmpi_eq.mp hc))

/-- Read as a number at the ideal values. -/
theorem uitofp_bit (p : Prop) [Decidable p] :
    FloatOps.uitofp (F := Ideal) .f32 (if p then 1#1 else 0#1) = if p then (1 : EReal) else 0 := by
  by_cases h : p
  · rw [if_pos h, if_pos h]; show (((1#1 : BitVec 1).toNat : ℝ) : EReal) = 1; norm_num
  · rw [if_neg h, if_neg h]; show (((0#1 : BitVec 1).toNat : ℝ) : EReal) = 0; norm_num

end Cert.Words

end
-- ==== Proof.KI.PayRead.lean ====
/-
  The body's arithmetic read at an entry, at the ideal values: the diagonal-forced slab, its row sums, the slab of the
  feature product; one aggregation as the tail spells it; the column mean and the reciprocal root of the variance;
  the normalisation; and the block a write-out point stores.
-/
import proofs.«169710_g34591666602572_cont_8to1_b_883_10_alg».proof.Proof.KI.VecRead
import proofs.«169710_g34591666602572_cont_8to1_b_883_10_alg».proof.Proof.Spec
import Idealize.ShloMosaic.Lib.ValueLayout
import Idealize.ShloMosaic.Lib.StableHlo.Run
import Idealize.ShloMosaic.PureOps.Ideal.Laws
import proofs.«169710_g34591666602572_cont_8to1_b_883_10_alg».proof.Proof.LibWords

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (c : Dev nD)

open Cert.Spec

/-! ## The diagonal-forced slab and the three slab payloads -/

theorem pay1_apply (t : Fin cfg0.N) (ht : t.val < 8) (v9 : Vec Ideal S128x1024 .f32) (p : Fin 128) (q : Fin 1024) :
    k0_pay1 (F := Ideal) (grid0.coords t) v9 (ix2 p q) = if q.val = 128 * t.val + p.val then 1 else v9 (ix2 p q) := by
  unfold k0_pay1
  show Scalar.select (IntOp.cmpi .eq (iota .tc S128x1024 32 [1] iota_S128x1024_d1_w32 (ix2 p q))
      (IntOp.addi (iota .tc S128x1024 32 [0] iota_S128x1024_d0_w32 (ix2 p q)) (Scalar.muli (BitVec.ofNat 32 ((grid0.coords t) 0).val) 128#32)))
      (Ideal.ofBits .f32 0x3F800000#32) (v9 (ix2 p q)) = _
  rw [iota_single_apply, iota_single_apply, coord_val, Words.addi_muli]
  show Scalar.select (IntOp.cmpi .eq (BitVec.ofNat 32 q.val) (BitVec.ofNat 32 (p.val + t.val * 128))) _ _ = _
  rw [Words.cmpi_eq_words (by omega) (by omega)]
  by_cases h : q.val = p.val + t.val * 128
  · rw [if_pos h, ValueIdx.select_one, if_pos (by omega)]; exact LibGcnBn.ofBits_one
  · rw [if_neg h, ValueIdx.select_zero, if_neg (by omega)]

theorem pay2_apply (i : grid0.Coords) (v9 : Vec Ideal S128x1024 .f32) (y : S128x1024.Idx) :
    k0_pay2 (F := Ideal) i v9 y = k0_pay1 (F := Ideal) i v9 y := by
  unfold k0_pay2; rw [shapeCast_self]; rfl

theorem pay3_apply (i : grid0.Coords) (v9 : Vec Ideal S128x1024 .f32) (p : Fin 128) :
    k0_pay3 (F := Ideal) i v9 (ix2 p (0 : Fin 1)) = ∑ k : Fin 1024, k0_pay1 (F := Ideal) i v9 (ix2 p k) := by
  unfold k0_pay3; exact rowsum_apply (k0_pay1 (F := Ideal) i v9) p

theorem pay4_apply (v31 : Vec Ideal S128x256 .f32) (v32 : Vec Ideal S256x256 .f32) (p : Fin 128) (j : Fin 256) :
    k0_pay4 (F := Ideal) v31 v32 (ix2 p j) = ∑ k : Fin 256, v31 (ix2 p k) * v32 (ix2 k j) := by
  unfold k0_pay4; rw [shapeCast_self]; exact mat128_apply v31 v32 p j

/-! ## One aggregation, as the tail spells it -/

def aggVec (s : FVec Ideal S1024x1 .f32) (A : Vec Ideal S1024x1024 .bf16) (Z : FVec Ideal S1024x256 .f32) (B : Vec Ideal S1x256 .f32) :
    FVec Ideal S1024x256 .f32 :=
  addf (mulf (matmul (F := Ideal) (φ₁ := .bf16) (φ₂ := .bf16) dot_S1024x1024_S1024x256_S1024x256_1_0_0_1_n_n none A
      (truncf .bf16 (mulf Z (broadcastTo S1024x256 s broadcasts_S1024x1_S1024x256)) bitsLt_bf16_f32) (constant (F := Ideal) S1024x256 .f32 0x00000000#32))
    (broadcastTo S1024x256 s broadcasts_S1024x1_S1024x256))
    (broadcastTo S1024x256 (shapeCast S1x256 B shapeCasts_S1x256_S1x256) broadcasts_S1x256_S1024x256)

theorem aggVec_apply (s : FVec Ideal S1024x1 .f32) (A : Vec Ideal S1024x1024 .bf16) (Z : FVec Ideal S1024x256 .f32) (B : Vec Ideal S1x256 .f32)
    (r : Fin 1024) (j : Fin 256) :
    aggVec s A Z B (ix2 r j) = (∑ k : Fin 1024, A (ix2 r k) * (Z (ix2 k j) * s (ix2 k (0 : Fin 1)))) * s (ix2 r (0 : Fin 1)) + B (ix2 (0 : Fin 1) j) := by
  unfold aggVec
  show matmul (F := Ideal) (φ₁ := .bf16) (φ₂ := .bf16) _ none A _ _ (ix2 r j) * broadcastTo S1024x256 s broadcasts_S1024x1_S1024x256 (ix2 r j)
    + broadcastTo S1024x256 (shapeCast S1x256 B shapeCasts_S1x256_S1x256) broadcasts_S1x256_S1024x256 (ix2 r j) = _
  rw [mat1024_apply, colbc_apply, rowbc1024_apply, shapeCast_self]
  refine congrArg (fun x => x * _ + _) (Finset.sum_congr rfl fun k _ => ?_)
  show A (ix2 r k) * (Z (ix2 k j) * broadcastTo S1024x256 s broadcasts_S1024x1_S1024x256 (ix2 k j)) = _
  rw [colbc_apply]

/-! ## The pieces of one batch normalisation -/

def muVec (H : FVec Ideal S1024x256 .f32) : FVec Ideal S1x256 .f32 :=
  divf (shapeCast S1x256 (multiReduction (F := Ideal) .add [0] S256 H 0x00000000#32 reduces_S1024x256_S256 (.inl rfl) rfl) shapeCasts_S256_S1x256)
    (broadcast S1x256 (Scalar.ofBits (F := Ideal) .f32 0x44800000#32))

def rsVec (H : FVec Ideal S1024x256 .f32) : FVec Ideal S1x256 .f32 :=
  rsqrt (addf (subf (divf (shapeCast S1x256 (multiReduction (F := Ideal) .add [0] S256 (mulf H H) 0x00000000#32 reduces_S1024x256_S256 (.inl rfl) rfl)
      shapeCasts_S256_S1x256) (broadcast S1x256 (Scalar.ofBits (F := Ideal) .f32 0x44800000#32))) (mulf (muVec H) (muVec H)))
    (broadcast S1x256 (Scalar.ofBits (F := Ideal) .f32 0x3727C5AC#32)))

theorem muVec_apply (H : FVec Ideal S1024x256 .f32) (j : Fin 256) :
    muVec H (ix2 (0 : Fin 1) j) = Ideal.div (∑ r : Fin 1024, H (ix2 r j)) NN := by
  unfold muVec
  show Ideal.div (shapeCast S1x256 _ shapeCasts_S256_S1x256 (ix2 (0 : Fin 1) j)) NN = _
  rw [colsum_apply]

theorem rsVec_apply (H : FVec Ideal S1024x256 .f32) (j : Fin 256) :
    rsVec H (ix2 (0 : Fin 1) j) = Ideal.rsqrt ((Ideal.div (∑ r : Fin 1024, H (ix2 r j) * H (ix2 r j)) NN
      - Ideal.div (∑ r : Fin 1024, H (ix2 r j)) NN * Ideal.div (∑ r : Fin 1024, H (ix2 r j)) NN) + EPS) := by
  unfold rsVec
  show Ideal.rsqrt ((Ideal.div (shapeCast S1x256 _ shapeCasts_S256_S1x256 (ix2 (0 : Fin 1) j)) NN
    - muVec H (ix2 (0 : Fin 1) j) * muVec H (ix2 (0 : Fin 1) j)) + EPS) = _
  rw [colsum_apply, muVec_apply]
  rfl

/-- The normalisation applied to a table, as the tail's first layer spells it. -/
def bnVec (H : FVec Ideal S1024x256 .f32) (G BE : Vec Ideal S1x256 .f32) : FVec Ideal S1024x256 .f32 :=
  addf (mulf (mulf (broadcastTo S1024x256 (shapeCast S1x256 G shapeCasts_S1x256_S1x256) broadcasts_S1x256_S1024x256)
      (subf H (broadcastTo S1024x256 (muVec H) broadcasts_S1x256_S1024x256)))
    (broadcastTo S1024x256 (rsVec H) broadcasts_S1x256_S1024x256))
    (broadcastTo S1024x256 (shapeCast S1x256 BE shapeCasts_S1x256_S1x256) broadcasts_S1x256_S1024x256)

theorem bnVec_apply (H : FVec Ideal S1024x256 .f32) (G BE : Vec Ideal S1x256 .f32) (r : Fin 1024) (j : Fin 256) :
    bnVec H G BE (ix2 r j) = bnK (fun r j => H (ix2 r j)) (fun j => G (ix2 (0 : Fin 1) j)) (fun j => BE (ix2 (0 : Fin 1) j)) r j := by
  unfold bnVec
  show (broadcastTo S1024x256 (shapeCast S1x256 G shapeCasts_S1x256_S1x256) broadcasts_S1x256_S1024x256 (ix2 r j)
      * (H (ix2 r j) - broadcastTo S1024x256 (muVec H) broadcasts_S1x256_S1024x256 (ix2 r j)))
      * broadcastTo S1024x256 (rsVec H) broadcasts_S1x256_S1024x256 (ix2 r j)
      + broadcastTo S1024x256 (shapeCast S1x256 BE shapeCasts_S1x256_S1x256) broadcasts_S1x256_S1024x256 (ix2 r j) = _
  rw [rowbc1024_apply, rowbc1024_apply, rowbc1024_apply, rowbc1024_apply, shapeCast_self, shapeCast_self, muVec_apply, rsVec_apply]
  rfl

/-! ## The tail's payloads are those shapes -/

set_option maxHeartbeats 2000000 in
theorem pay12_eq (v9 : Vec Ideal S1024x1 .f32) (v11 : Vec Ideal S1024x1024 .bf16) (v12 : Vec Ideal S1024x256 .f32) (v19 v34 v45 : Vec Ideal S1x256 .f32) :
    k0_pay12 (F := Ideal) v9 v11 v12 v19 v34 v45 = bnVec (aggVec (k0_pay11 (F := Ideal) v9) v11 v12 v19) v34 v45 := rfl

/-- The rectified first layer times the second weight table. -/
def mmVec (v48 v49 : FVec Ideal S1024x256 .f32) (v51 : Vec Ideal S256x256 .f32) : FVec Ideal S1024x256 .f32 :=
  matmul (F := Ideal) (φ₁ := .f32) (φ₂ := .f32) dot_S1024x256_S256x256_S1024x256_1_0_0_1_n_n none (maximumf v48 v49) v51 (constant (F := Ideal) S1024x256 .f32 0x00000000#32)

set_option maxHeartbeats 2000000 in
theorem pay5_eq (v10 : FVec Ideal S1024x1 .f32) (v11 : Vec Ideal S1024x1024 .bf16) (v48 v49 : FVec Ideal S1024x256 .f32) (v51 : Vec Ideal S256x256 .f32)
    (v59 : Vec Ideal S1x256 .f32) : k0_pay5 (F := Ideal) v10 v11 v48 v49 v51 v59 = aggVec v10 v11 (mmVec v48 v49 v51) v59 := rfl

theorem mmVec_apply (v48 : FVec Ideal S1024x256 .f32) (v51 : Vec Ideal S256x256 .f32) (r : Fin 1024) (j : Fin 256) :
    mmVec v48 (k0_pay13 (F := Ideal)) v51 (ix2 r j) = ∑ q : Fin 256, relu (v48 (ix2 r q)) * v51 (ix2 q j) := by
  unfold mmVec
  rw [mat256_apply]
  rfl

theorem pay7_eq (v10 : FVec Ideal S1024x1 .f32) (v11 : Vec Ideal S1024x1024 .bf16) (v48 v49 : FVec Ideal S1024x256 .f32) (v51 : Vec Ideal S256x256 .f32)
    (v59 : Vec Ideal S1x256 .f32) : k0_pay7 (F := Ideal) v10 v11 v48 v49 v51 v59 = k0_pay5 (F := Ideal) v10 v11 v48 v49 v51 v59 :=
  shapeCast_self (k0_pay5 (F := Ideal) v10 v11 v48 v49 v51 v59) shapeCasts_S1024x256_S1024x256
theorem pay8_eq (v10 : FVec Ideal S1024x1 .f32) (v11 : Vec Ideal S1024x1024 .bf16) (v48 v49 : FVec Ideal S1024x256 .f32) (v51 : Vec Ideal S256x256 .f32)
    (v59 : Vec Ideal S1x256 .f32) : k0_pay8 (F := Ideal) v10 v11 v48 v49 v51 v59 = muVec (k0_pay5 (F := Ideal) v10 v11 v48 v49 v51 v59) :=
  shapeCast_self (muVec (k0_pay5 (F := Ideal) v10 v11 v48 v49 v51 v59)) shapeCasts_S1x256_S1x256
theorem pay9_eq (v10 : FVec Ideal S1024x1 .f32) (v11 : Vec Ideal S1024x1024 .bf16) (v48 v49 : FVec Ideal S1024x256 .f32) (v51 : Vec Ideal S256x256 .f32)
    (v59 : Vec Ideal S1x256 .f32) : k0_pay9 (F := Ideal) v10 v11 v48 v49 v51 v59 = rsVec (k0_pay5 (F := Ideal) v10 v11 v48 v49 v51 v59) :=
  shapeCast_self (rsVec (k0_pay5 (F := Ideal) v10 v11 v48 v49 v51 v59)) shapeCasts_S1x256_S1x256

/-- A write-out point's block, entry by entry. -/
theorem pay10_apply (v12 : Vec Ideal S128x256 .f32) (v13 v15 v20 v23 : Vec Ideal S1x256 .f32) (p : Fin 128) (j : Fin 256) :
    k0_pay10 (F := Ideal) v12 v13 v15 v20 v23 (ix2 p j)
      = (v13 (ix2 (0 : Fin 1) j) * (v12 (ix2 p j) - v15 (ix2 (0 : Fin 1) j))) * v20 (ix2 (0 : Fin 1) j) + v23 (ix2 (0 : Fin 1) j) := by
  unfold k0_pay10
  show (broadcastTo S128x256 (shapeCast S1x256 v13 shapeCasts_S1x256_S1x256) broadcasts_S1x256_S128x256 (ix2 p j)
      * (v12 (ix2 p j) - broadcastTo S128x256 v15 broadcasts_S1x256_S128x256 (ix2 p j)))
      * broadcastTo S128x256 v20 broadcasts_S1x256_S128x256 (ix2 p j)
      + broadcastTo S128x256 (shapeCast S1x256 v23 shapeCasts_S1x256_S1x256) broadcasts_S1x256_S128x256 (ix2 p j) = _
  rw [rowbc128_apply, rowbc128_apply, rowbc128_apply, rowbc128_apply, shapeCast_self, shapeCast_self]

end Cert.KernelIdeal.Body

end
-- ==== Proof.KI.KSpec.lean ====
/-
  The carried buffers and the result read into the spec: the adjacency cache is the diagonal-forced adjacency, the
  degrees its row sums, and so on up to the result, which is the vector-unit-side table of the spec.
-/
import proofs.«169710_g34591666602572_cont_8to1_b_883_10_alg».proof.Proof.KI.PayRead
import proofs.«169710_g34591666602572_cont_8to1_b_883_10_alg».proof.Proof.Spec
import Idealize.ShloMosaic.Lib.ValueLayout
import Idealize.ShloMosaic.Lib.StableHlo.Run
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (c : Dev nD)

open Cert.Spec

/-! ## The one-row windows -/

theorem blk3 (t : Fin cfg0.N) (j : Fin 256) : b3 m c t (ix2 (0 : Fin 1) j) = b1A m c j := by
  show V m c main_v0 (((cfg0.win 3).blk t).view.emb (ix2 (0 : Fin 1) j)) = _
  have e : ((cfg0.win 3).blk t).view.emb (ix2 (0 : Fin 1) j) = ix2 (0 : Fin 1) j := funext fun a => Fin.ext (by
    match a with
    | ⟨0, _⟩ => show win0_3.index t (0 : Fin 2) * 1 + 1 * 0 = 0; rw [(idxFixed t 0).2.1]
    | ⟨1, _⟩ => show win0_3.index t (1 : Fin 2) * 256 + 1 * j.val = j.val; rw [(idxFixed t 1).2.1]; omega)
  rw [e, V_row0]
  exact shapeCast_a_1a_apply _ _ 0 j

theorem V_row1 : (V m c main_v1 : S1x256.Idx → EReal)
    = shapeCast S1x256 (m ((c.tc : Thread nD τ).loc main_arg4) : S256.Idx → EReal) shapeCasts_S256_S1x256 := by
  dsimp only [Gen.V, Gen.hostOps0]; after_results; rfl
theorem blk4 (t : Fin cfg0.N) (j : Fin 256) : b4 m c t (ix2 (0 : Fin 1) j) = g1A m c j := by
  show V m c main_v1 (((cfg0.win 4).blk t).view.emb (ix2 (0 : Fin 1) j)) = _
  have e : ((cfg0.win 4).blk t).view.emb (ix2 (0 : Fin 1) j) = ix2 (0 : Fin 1) j := funext fun a => Fin.ext (by
    match a with
    | ⟨0, _⟩ => show win0_4.index t (0 : Fin 2) * 1 + 1 * 0 = 0; rw [(idxFixed t 0).2.2.1]
    | ⟨1, _⟩ => show win0_4.index t (1 : Fin 2) * 256 + 1 * j.val = j.val; rw [(idxFixed t 1).2.2.1]; omega)
  rw [e, V_row1]
  exact shapeCast_a_1a_apply _ _ 0 j

theorem V_row2 : (V m c main_v2 : S1x256.Idx → EReal)
    = shapeCast S1x256 (m ((c.tc : Thread nD τ).loc main_arg5) : S256.Idx → EReal) shapeCasts_S256_S1x256 := by
  dsimp only [Gen.V, Gen.hostOps0]; after_results; rfl
theorem blk5 (t : Fin cfg0.N) (j : Fin 256) : b5 m c t (ix2 (0 : Fin 1) j) = be1A m c j := by
  show V m c main_v2 (((cfg0.win 5).blk t).view.emb (ix2 (0 : Fin 1) j)) = _
  have e : ((cfg0.win 5).blk t).view.emb (ix2 (0 : Fin 1) j) = ix2 (0 : Fin 1) j := funext fun a => Fin.ext (by
    match a with
    | ⟨0, _⟩ => show win0_5.index t (0 : Fin 2) * 1 + 1 * 0 = 0; rw [(idxFixed t 0).2.2.2.1]
    | ⟨1, _⟩ => show win0_5.index t (1 : Fin 2) * 256 + 1 * j.val = j.val; rw [(idxFixed t 1).2.2.2.1]; omega)
  rw [e, V_row2]
  exact shapeCast_a_1a_apply _ _ 0 j

theorem V_row3 : (V m c main_v3 : S1x256.Idx → EReal)
    = shapeCast S1x256 (m ((c.tc : Thread nD τ).loc main_arg7) : S256.Idx → EReal) shapeCasts_S256_S1x256 := by
  dsimp only [Gen.V, Gen.hostOps0]; after_results; rfl
theorem blk7 (t : Fin cfg0.N) (j : Fin 256) : b7 m c t (ix2 (0 : Fin 1) j) = b2A m c j := by
  show V m c main_v3 (((cfg0.win 7).blk t).view.emb (ix2 (0 : Fin 1) j)) = _
  have e : ((cfg0.win 7).blk t).view.emb (ix2 (0 : Fin 1) j) = ix2 (0 : Fin 1) j := funext fun a => Fin.ext (by
    match a with
    | ⟨0, _⟩ => show win0_7.index t (0 : Fin 2) * 1 + 1 * 0 = 0; rw [(idxFixed t 0).2.2.2.2.2.1]
    | ⟨1, _⟩ => show win0_7.index t (1 : Fin 2) * 256 + 1 * j.val = j.val; rw [(idxFixed t 1).2.2.2.2.2.1]; omega)
  rw [e, V_row3]
  exact shapeCast_a_1a_apply _ _ 0 j

theorem V_row4 : (V m c main_v4 : S1x256.Idx → EReal)
    = shapeCast S1x256 (m ((c.tc : Thread nD τ).loc main_arg8) : S256.Idx → EReal) shapeCasts_S256_S1x256 := by
  dsimp only [Gen.V, Gen.hostOps0]; after_results; rfl
theorem blk8 (t : Fin cfg0.N) (j : Fin 256) : b8 m c t (ix2 (0 : Fin 1) j) = g2A m c j := by
  show V m c main_v4 (((cfg0.win 8).blk t).view.emb (ix2 (0 : Fin 1) j)) = _
  have e : ((cfg0.win 8).blk t).view.emb (ix2 (0 : Fin 1) j) = ix2 (0 : Fin 1) j := funext fun a => Fin.ext (by
    match a with
    | ⟨0, _⟩ => show win0_8.index t (0 : Fin 2) * 1 + 1 * 0 = 0; rw [(idxFixed t 0).2.2.2.2.2.2.1]
    | ⟨1, _⟩ => show win0_8.index t (1 : Fin 2) * 256 + 1 * j.val = j.val; rw [(idxFixed t 1).2.2.2.2.2.2.1]; omega)
  rw [e, V_row4]
  exact shapeCast_a_1a_apply _ _ 0 j

theorem V_row5 : (V m c main_v5 : S1x256.Idx → EReal)
    = shapeCast S1x256 (m ((c.tc : Thread nD τ).loc main_arg9) : S256.Idx → EReal) shapeCasts_S256_S1x256 := by
  dsimp only [Gen.V, Gen.hostOps0]; after_results; rfl
theorem blk9 (t : Fin cfg0.N) (j : Fin 256) : b9 m c t (ix2 (0 : Fin 1) j) = be2A m c j := by
  show V m c main_v5 (((cfg0.win 9).blk t).view.emb (ix2 (0 : Fin 1) j)) = _
  have e : ((cfg0.win 9).blk t).view.emb (ix2 (0 : Fin 1) j) = ix2 (0 : Fin 1) j := funext fun a => Fin.ext (by
    match a with
    | ⟨0, _⟩ => show win0_9.index t (0 : Fin 2) * 1 + 1 * 0 = 0; rw [(idxFixed t 0).2.2.2.2.2.2.2]
    | ⟨1, _⟩ => show win0_9.index t (1 : Fin 2) * 256 + 1 * j.val = j.val; rw [(idxFixed t 1).2.2.2.2.2.2.2]; omega)
  rw [e, V_row5]
  exact shapeCast_a_1a_apply _ _ 0 j

/-! ## The scratch contents read into the spec -/

theorem tOf_lt (r : Fin 1024) : (tOf r.val r.isLt).val < 8 := by rw [tOf_val]; have := r.isLt; omega

/-- Row `r` of the diagonal-forced adjacency, from the slab its point stores. -/
theorem slab_ahat (r k : Fin 1024) :
    k0_pay1 (F := Ideal) (grid0.coords (tOf r.val r.isLt)) (b0 m c (tOf r.val r.isLt)) (ix2 ⟨r.val % 128, Nat.mod_lt _ (by decide)⟩ k)
      = ahat (adjA m c) r k := by
  rw [pay1_apply _ (tOf_lt r), blk0 m c _ (tOf_lt r)]
  have er : (⟨128 * (tOf r.val r.isLt).val + (⟨r.val % 128, Nat.mod_lt _ (by decide)⟩ : Fin 128).val, by
      have := r.isLt; show 128 * (r.val / 128) + r.val % 128 < 1024; omega⟩ : Fin 1024) = r :=
    Fin.ext (by show 128 * (r.val / 128) + r.val % 128 = r.val; omega)
  rw [er]
  unfold ahat
  by_cases h : k = r
  · rw [if_pos h, if_pos (by rw [h]; show r.val = 128 * (r.val / 128) + r.val % 128; omega)]
  · rw [if_neg h, if_neg (fun e => h (Fin.ext (by have : k.val = 128 * (r.val / 128) + r.val % 128 := e; omega)))]

theorem A16_apply (r k : Fin 1024) : A16 m c (ix2 r k) = ahat (adjA m c) r k := by
  show k0_pay2 (F := Ideal) (grid0.coords (tOf r.val r.isLt)) (b0 m c (tOf r.val r.isLt)) (ix2 ⟨r.val % 128, Nat.mod_lt _ (by decide)⟩ k) = _
  rw [pay2_apply]; exact slab_ahat m c r k

theorem DEG_apply (r : Fin 1024) : DEG m c (ix2 r (0 : Fin 1)) = deg (adjA m c) r := by
  show k0_pay3 (F := Ideal) (grid0.coords (tOf r.val r.isLt)) (b0 m c (tOf r.val r.isLt)) (ix2 ⟨r.val % 128, Nat.mod_lt _ (by decide)⟩ (0 : Fin 1)) = _
  rw [pay3_apply]; unfold deg
  exact Finset.sum_congr rfl fun k _ => slab_ahat m c r k

theorem XW_apply (r : Fin 1024) (j : Fin 256) : XW m c (ix2 r j) = xw (xA m c) (w1A m c) r j := by
  show k0_pay4 (F := Ideal) (b1 m c (tOf r.val r.isLt)) (b2 m c (tOf r.val r.isLt)) (ix2 ⟨r.val % 128, Nat.mod_lt _ (by decide)⟩ j) = _
  rw [pay4_apply]; unfold xw
  refine Finset.sum_congr rfl fun k _ => ?_
  rw [blk1 m c _ (tOf_lt r), blk2]
  refine congrArg (fun x => xA m c x k * _) (Fin.ext ?_)
  show 128 * (r.val / 128) + r.val % 128 = r.val; omega

theorem TV10_apply (r : Fin 1024) : TV10 m c (ix2 r (0 : Fin 1)) = sK (adjA m c) r := by
  show Ideal.rsqrt (DEG m c (ix2 r (0 : Fin 1))) = _
  rw [DEG_apply]; rfl

/-- The first layer after its normalisation. -/
theorem TV48_apply (r : Fin 1024) (q : Fin 256) :
    TV48 m c (ix2 r q) = bnK (aggK (adjA m c) (sK (adjA m c)) (xw (xA m c) (w1A m c)) (b1A m c)) (g1A m c) (be1A m c) r q := by
  unfold TV48
  rw [pay12_eq, bnVec_apply]
  have h1 : (fun r j => aggVec (k0_pay11 (F := Ideal) (DEG m c)) (A16 m c) (XW m c) (b3 m c t7) (ix2 r j))
      = aggK (adjA m c) (sK (adjA m c)) (xw (xA m c) (w1A m c)) (b1A m c) := funext fun r => funext fun j => by
    rw [aggVec_apply]; unfold aggK
    rw [show k0_pay11 (F := Ideal) (DEG m c) = TV10 m c from rfl, TV10_apply, blk3]
    refine congrArg (fun x => x * _ + _) (Finset.sum_congr rfl fun k _ => ?_)
    rw [A16_apply, XW_apply, TV10_apply]
  have h2 : (fun j => b4 m c t7 (ix2 (0 : Fin 1) j)) = g1A m c := funext fun j => blk4 m c t7 j
  have h3 : (fun j => b5 m c t7 (ix2 (0 : Fin 1) j)) = be1A m c := funext fun j => blk5 m c t7 j
  rw [h1, h2, h3]

/-- The second layer before its normalisation. -/
theorem H2_apply (r : Fin 1024) (j : Fin 256) :
    H2 m c (ix2 r j) = aggK (adjA m c) (sK (adjA m c))
      (mm (bnK (aggK (adjA m c) (sK (adjA m c)) (xw (xA m c) (w1A m c)) (b1A m c)) (g1A m c) (be1A m c)) (w2A m c)) (b2A m c) r j := by
  unfold H2
  rw [pay7_eq, pay5_eq, aggVec_apply, TV10_apply, blk7]
  show _ = (∑ k, ahat (adjA m c) r k * (mm (bnK (aggK (adjA m c) (sK (adjA m c)) (xw (xA m c) (w1A m c)) (b1A m c)) (g1A m c) (be1A m c)) (w2A m c) k j
    * sK (adjA m c) k)) * sK (adjA m c) r + b2A m c j
  refine congrArg (fun x => x * _ + _) (Finset.sum_congr rfl fun k _ => ?_)
  rw [A16_apply, TV10_apply, mmVec_apply]
  show _ * ((∑ q, relu (TV48 m c (ix2 k q)) * b6 m c t7 (ix2 q j)) * _)
    = _ * ((∑ q, relu (bnK (aggK (adjA m c) (sK (adjA m c)) (xw (xA m c) (w1A m c)) (b1A m c)) (g1A m c) (be1A m c) k q) * w2A m c q j) * _)
  refine congrArg (fun x => _ * (x * _)) (Finset.sum_congr rfl fun q _ => ?_)
  rw [TV48_apply, blk6]

theorem pay5_H2 : k0_pay5 (F := Ideal) (TV10 m c) (A16 m c) (TV48 m c) k0_pay13 (b6 m c t7) (b7 m c t7) = H2 m c :=
  (pay7_eq _ _ _ _ _ _).symm

theorem MU2_apply (j : Fin 256) : MU2 m c (ix2 (0 : Fin 1) j) = Ideal.div (∑ r : Fin 1024, H2 m c (ix2 r j)) NN := by
  unfold MU2; rw [pay8_eq, pay5_H2, muVec_apply]
theorem RS2_apply (j : Fin 256) : RS2 m c (ix2 (0 : Fin 1) j) = Ideal.rsqrt ((Ideal.div (∑ r : Fin 1024, H2 m c (ix2 r j) * H2 m c (ix2 r j)) NN
      - Ideal.div (∑ r : Fin 1024, H2 m c (ix2 r j)) NN * Ideal.div (∑ r : Fin 1024, H2 m c (ix2 r j)) NN) + EPS) := by
  unfold RS2; rw [pay9_eq, pay5_H2, rsVec_apply]

/-! ## The result -/

theorem GK_apply (r : Fin 1024) (j : Fin 256) :
    GK m c (ix2 r j) = outK (xA m c) (adjA m c) (w1A m c) (w2A m c) (b1A m c) (g1A m c) (be1A m c) (b2A m c) (g2A m c) (be2A m c) r j := by
  have h8 : 8 ≤ (tOut r.val r.isLt).val := by show 8 ≤ 8 + r.val / 128; omega
  show OUT10 m c (tOut r.val r.isLt) (ix2 ⟨r.val % 128, Nat.mod_lt _ (by decide)⟩ j) = _
  rw [show OUT10 m c (tOut r.val r.isLt) = outC (grid0.coords (tOut r.val r.isLt)) ((hcond3 _).mpr h8) (b8 m c _) (b9 m c _) (H2 m c) (ST m c) from dif_pos h8]
  unfold outC
  rw [pay10_apply, blk8, blk9]
  have eH : View.ld (H2 m c) (Rect.unit (k0_off4 (grid0.coords (tOut r.val r.isLt))) S128x256.size (k0_off4_inb _ ((hcond3 _).mpr h8)))
      (ix2 ⟨r.val % 128, Nat.mod_lt _ (by decide)⟩ j) = H2 m c (ix2 r j) :=
    congrArg (H2 m c) (funext fun a => Fin.ext (by
      match a with
      | ⟨0, _⟩ =>
        show (k0_off4 (grid0.coords (tOut r.val r.isLt))) 0 + 1 * (r.val % 128) = r.val
        rw [off4_eq _ h8]; show 128 * ((8 + r.val / 128) - 8) + 1 * (r.val % 128) = r.val; omega
      | ⟨1, _⟩ =>
        show (k0_off4 (grid0.coords (tOut r.val r.isLt))) 1 + 1 * j.val = j.val
        rw [off4_eq _ h8]; show 0 + 1 * j.val = j.val; omega))
  have e0 : View.ld (ST m c) (Rect.unit ![0, 0] S1x256.size inb_S2x256_S1x256_0_0) (ix2 (0 : Fin 1) j) = MU2 m c (ix2 (0 : Fin 1) j) := by
    show ST m c _ = _
    unfold ST; rw [if_pos (by show 0 + 1 * 0 = 0; rfl)]
    exact congrArg (MU2 m c) (funext fun a => Fin.ext (by match a with | ⟨0, _⟩ => rfl | ⟨1, _⟩ => show 0 + 1 * j.val = j.val; omega))
  have e1 : View.ld (ST m c) (Rect.unit ![1, 0] S1x256.size inb_S2x256_S1x256_1_0) (ix2 (0 : Fin 1) j) = RS2 m c (ix2 (0 : Fin 1) j) := by
    show ST m c _ = _
    unfold ST; rw [if_neg (by show ¬ (1 + 1 * 0 = 0); omega)]
    exact congrArg (RS2 m c) (funext fun a => Fin.ext (by match a with | ⟨0, _⟩ => rfl | ⟨1, _⟩ => show 0 + 1 * j.val = j.val; omega))
  rw [eH, e0, e1, MU2_apply, RS2_apply]
  have hH : (fun r j => H2 m c (ix2 r j)) = aggK (adjA m c) (sK (adjA m c))
      (mm (bnK (aggK (adjA m c) (sK (adjA m c)) (xw (xA m c) (w1A m c)) (b1A m c)) (g1A m c) (be1A m c)) (w2A m c)) (b2A m c) :=
    funext fun r => funext fun j => H2_apply m c r j
  unfold outK
  rw [← hH]
  rfl

end Cert.KernelIdeal.Body

end
-- ==== Proof.RefSpec.lean ====
/-
  The reference read into the spec: each of its two layers is the diagonal-forced adjacency, its row sums, the guarded
  degree normaliser, the normalised adjacency times the projected features plus the bias, then the batch normalisation
  in the deviations form; a rectified linear unit sits between the layers.
-/
import proofs.«169710_g34591666602572_cont_8to1_b_883_10_alg».proof.Proof.RefRead
import proofs.«169710_g34591666602572_cont_8to1_b_883_10_alg».proof.Proof.Spec
import proofs.«169710_g34591666602572_cont_8to1_b_883_10_alg».proof.Proof.LibWords
import proofs.«169710_g34591666602572_cont_8to1_b_883_10_alg».proof.Proof.Gen.ReferenceIdeal

set_option maxRecDepth 16384

noncomputable section

namespace Cert.RefSpec

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.Spec

variable (x0 : (⟨S1024x256, .f32⟩ : BufTy).Contents (Elt Ideal)) (x1 : (⟨S1024x1024, .f32⟩ : BufTy).Contents (Elt Ideal))
  (x2 : (⟨S256x256, .f32⟩ : BufTy).Contents (Elt Ideal)) (x3 x4 x5 : (⟨S256, .f32⟩ : BufTy).Contents (Elt Ideal))
  (x6 : (⟨S256x256, .f32⟩ : BufTy).Contents (Elt Ideal)) (x7 x8 x9 : (⟨S256, .f32⟩ : BufTy).Contents (Elt Ideal))

/-- The arguments as tables. -/
abbrev tX : Fin 1024 → Fin 256 → EReal := fun r k => x0 (ix2 r k)
abbrev tA : Fin 1024 → Fin 1024 → EReal := fun r k => x1 (ix2 r k)
abbrev tW (w : (⟨S256x256, .f32⟩ : BufTy).Contents (Elt Ideal)) : Fin 256 → Fin 256 → EReal := fun k j => w (ix2 k j)
abbrev tV (v : (⟨S256, .f32⟩ : BufTy).Contents (Elt Ideal)) : Fin 256 → EReal := fun j => v (ix1 j)

theorem lt32 {n : ℕ} (h : n < 1024) : n < 2 ^ 32 := by omega

/-- The adjacency with its diagonal forced to one. -/
theorem r_ahat (r k : Fin 1024) : val_main_v9 (F := Ideal) x1 (ix2 r k) = ahat (tA x1) r k := by
  rw [val_main_v9_apply, val_main_v8_apply, val_main_v7_apply, val_main_v6_apply, val_main_cst_apply, val_main_v5_apply,
    val_main_v4_apply, val_main_v3_apply, val_main_v0_apply, val_main_v2_apply, val_main_c_apply, val_main_v1_apply]
  show (x1 (ix2 r k) * (Ideal.ofBits .f32 0x3F800000#32 - FloatOps.uitofp (F := Ideal) .f32 (IntOp.cmpi .eq (IntOp.addi (BitVec.ofNat 32 r.val) 0#32) (BitVec.ofNat 32 k.val))))
      + FloatOps.uitofp (F := Ideal) .f32 (IntOp.cmpi .eq (IntOp.addi (BitVec.ofNat 32 r.val) 0#32) (BitVec.ofNat 32 k.val)) = _
  rw [Words.addi_zero, Words.cmpi_eq_words (lt32 r.isLt) (lt32 k.isLt), Words.uitofp_bit, LibGcnBn.ofBits_one, LibGcnBn.diag_fix]
  unfold ahat
  by_cases h : k = r
  · rw [if_pos h, if_pos (by rw [h])]
  · rw [if_neg h, if_neg (fun e => h (Fin.ext e.symm))]

/-- The degrees. -/
theorem r_deg (r : Fin 1024) : val_main_v10 (F := Ideal) x1 (ix1 r) = deg (tA x1) r := by
  rw [val_main_v10_apply, val_main_cst_0_apply]
  show Ideal.ofBits .f32 0x00000000#32 + _ = _
  rw [Ideal.ofBits_zero_f32, zero_add]
  unfold deg
  refine Finset.sum_congr rfl fun k _ => ?_
  rw [← r_ahat x1 r k]
  exact congrArg _ (funext fun a => Fin.ext (by match a with | ⟨0, _⟩ => rfl | ⟨1, _⟩ => rfl))

/-- The guarded degree normaliser. -/
theorem r_s (r : Fin 1024) : val_main_v15 (F := Ideal) x1 (ix1 r) = sR (tA x1) r := by
  rw [val_main_v15_apply, val_main_v12_apply, val_main_v14_apply, r_deg x1 r, val_main_v11_apply, val_main_cst_1_apply, val_main_v13_apply,
    val_main_cst_2_apply, val_main_call0_v1_apply, val_main_call0_v0_apply, val_main_cst_3_apply]
  rfl

/-- The normalised adjacency. -/
theorem r_an (r k : Fin 1024) : val_main_v21 (F := Ideal) x1 (ix2 r k) = (sR (tA x1) r * ahat (tA x1) r k) * sR (tA x1) k := by
  rw [val_main_v21_apply, val_main_v18_apply, val_main_v17_apply, val_main_v16_apply, val_main_v20_apply, val_main_v19_apply, r_ahat x1 r k]
  have e1 : idx_main_v16 (idx_main_v17 (ix2 r k)) = ix1 r := funext fun a => Fin.ext (by match a with | ⟨0, _⟩ => rfl)
  have e2 : idx_main_v19 (idx_main_v20 (ix2 r k)) = ix1 k := funext fun a => Fin.ext (by match a with | ⟨0, _⟩ => rfl)
  rw [e1, e2, r_s x1 r, r_s x1 k]
  rfl

/-- The projected features. -/
theorem r_xw (r : Fin 1024) (j : Fin 256) : val_main_v22 (F := Ideal) x0 x2 (ix2 r j) = xw (tX x0) (tW x2) r j := by
  rw [val_main_v22_apply]
  unfold xw
  refine Finset.sum_congr rfl fun k _ => ?_
  have e1 : lidx_main_v22 (ix2 r j) k = ix2 r k := funext fun a => Fin.ext (by match a with | ⟨0, _⟩ => rfl | ⟨1, _⟩ => rfl)
  have e2 : ridx_main_v22 (ix2 r j) k = ix2 k j := funext fun a => Fin.ext (by match a with | ⟨0, _⟩ => rfl | ⟨1, _⟩ => rfl)
  rw [e1, e2]

/-- The first aggregation. -/
theorem r_agg1 (r : Fin 1024) (j : Fin 256) :
    val_main_v26 (F := Ideal) x0 x1 x2 x3 (ix2 r j) = aggR (tA x1) (sR (tA x1)) (xw (tX x0) (tW x2)) (tV x3) r j := by
  rw [val_main_v26_apply, val_main_v23_apply, val_main_v25_apply, val_main_v24_apply]
  unfold aggR
  have eb : idx_main_v24 (idx_main_v25 (ix2 r j)) = ix1 j := funext fun a => Fin.ext (by match a with | ⟨0, _⟩ => rfl)
  rw [eb]
  refine congrArg (· + _) (Finset.sum_congr rfl fun k _ => ?_)
  have e1 : lidx_main_v23 (ix2 r j) k = ix2 r k := funext fun a => Fin.ext (by match a with | ⟨0, _⟩ => rfl | ⟨1, _⟩ => rfl)
  have e2 : ridx_main_v23 (ix2 r j) k = ix2 k j := funext fun a => Fin.ext (by match a with | ⟨0, _⟩ => rfl | ⟨1, _⟩ => rfl)
  rw [e1, e2, r_an x1 r k, r_xw x0 x2 k j]

/-- The column means of layer 1. -/
theorem r_mu1 (j : Fin 256) :
    val_main_v29 (F := Ideal) x0 x1 x2 x3 (ix1 j) = Ideal.div (0 + ∑ r : Fin 1024, val_main_v26 (F := Ideal) x0 x1 x2 x3 (ix2 r j)) NN := by
  rw [val_main_v29_apply, val_main_v27_apply, val_main_cst_4_apply, val_main_v28_apply, val_main_cst_5_apply]
  show Ideal.div (Ideal.ofBits .f32 0x00000000#32 + _) _ = _
  rw [Ideal.ofBits_zero_f32]
  refine congrArg (fun s => Ideal.div (0 + s) NN) (Finset.sum_congr rfl fun k _ => ?_)
  exact congrArg _ (funext fun a => Fin.ext (by match a with | ⟨0, _⟩ => rfl | ⟨1, _⟩ => rfl))

/-- The column variances of layer 1, as means of squared deviations. -/
theorem r_var1 (j : Fin 256) :
    val_main_v36 (F := Ideal) x0 x1 x2 x3 (ix1 j)
      = Ideal.div (0 + ∑ r : Fin 1024, (val_main_v26 (F := Ideal) x0 x1 x2 x3 (ix2 r j) - Ideal.div (0 + ∑ r : Fin 1024, val_main_v26 (F := Ideal) x0 x1 x2 x3 (ix2 r j)) NN)
          * (val_main_v26 (F := Ideal) x0 x1 x2 x3 (ix2 r j) - Ideal.div (0 + ∑ r : Fin 1024, val_main_v26 (F := Ideal) x0 x1 x2 x3 (ix2 r j)) NN)) NN := by
  rw [val_main_v36_apply, val_main_v34_apply, val_main_cst_6_apply, val_main_v35_apply, val_main_cst_7_apply]
  show Ideal.div (Ideal.ofBits .f32 0x00000000#32 + _) _ = _
  rw [Ideal.ofBits_zero_f32]
  refine congrArg (fun s => Ideal.div (0 + s) NN) (Finset.sum_congr rfl fun k _ => ?_)
  have ei : idx_main_v34 (ix1 j) k = ix2 k j := funext fun a => Fin.ext (by match a with | ⟨0, _⟩ => rfl | ⟨1, _⟩ => rfl)
  rw [ei, val_main_v33_apply, val_main_v32_apply, val_main_v31_apply, val_main_v30_apply]
  have em : idx_main_v30 (idx_main_v31 (ix2 k j)) = ix1 j := funext fun a => Fin.ext (by match a with | ⟨0, _⟩ => rfl)
  rw [em, r_mu1]
  rfl

/-- The batch normalisation of layer 1. -/
theorem r_bn1 (r : Fin 1024) (j : Fin 256) :
    val_main_v51 (F := Ideal) x0 x1 x2 x3 x4 x5 (ix2 r j) = bnR (fun r j => val_main_v26 (F := Ideal) x0 x1 x2 x3 (ix2 r j)) (tV x4) (tV x5) r j := by
  rw [val_main_v51_apply, val_main_v48_apply, val_main_v42_apply, val_main_v41_apply, val_main_v40_apply, val_main_v39_apply, val_main_v38_apply, val_main_v37_apply,
    val_main_v47_apply, val_main_v46_apply, val_main_v45_apply, val_main_v44_apply, val_main_v43_apply, val_main_cst_8_apply, val_main_v50_apply, val_main_v49_apply]
  have e1 : idx_main_v40 (idx_main_v41 (ix2 r j)) = ix1 j := funext fun a => Fin.ext (by match a with | ⟨0, _⟩ => rfl)
  have e2 : idx_main_v37 (idx_main_v38 (ix2 r j)) = ix1 j := funext fun a => Fin.ext (by match a with | ⟨0, _⟩ => rfl)
  have e3 : idx_main_v46 (idx_main_v47 (ix2 r j)) = ix1 j := funext fun a => Fin.ext (by match a with | ⟨0, _⟩ => rfl)
  have e4 : idx_main_v49 (idx_main_v50 (ix2 r j)) = ix1 j := funext fun a => Fin.ext (by match a with | ⟨0, _⟩ => rfl)
  rw [e1, e2, e3, e4, r_mu1, r_var1]
  rfl

/-- The adjacency with its diagonal forced to one. -/
theorem r_ahat2 (r k : Fin 1024) : val_main_v62 (F := Ideal) x1 (ix2 r k) = ahat (tA x1) r k := by
  rw [val_main_v62_apply, val_main_v61_apply, val_main_v60_apply, val_main_v59_apply, val_main_cst_10_apply, val_main_v58_apply,
    val_main_v57_apply, val_main_v56_apply, val_main_v53_apply, val_main_v55_apply, val_main_c_9_apply, val_main_v54_apply]
  show (x1 (ix2 r k) * (Ideal.ofBits .f32 0x3F800000#32 - FloatOps.uitofp (F := Ideal) .f32 (IntOp.cmpi .eq (IntOp.addi (BitVec.ofNat 32 r.val) 0#32) (BitVec.ofNat 32 k.val))))
      + FloatOps.uitofp (F := Ideal) .f32 (IntOp.cmpi .eq (IntOp.addi (BitVec.ofNat 32 r.val) 0#32) (BitVec.ofNat 32 k.val)) = _
  rw [Words.addi_zero, Words.cmpi_eq_words (lt32 r.isLt) (lt32 k.isLt), Words.uitofp_bit, LibGcnBn.ofBits_one, LibGcnBn.diag_fix]
  unfold ahat
  by_cases h : k = r
  · rw [if_pos h, if_pos (by rw [h])]
  · rw [if_neg h, if_neg (fun e => h (Fin.ext e.symm))]

/-- The degrees. -/
theorem r_deg2 (r : Fin 1024) : val_main_v63 (F := Ideal) x1 (ix1 r) = deg (tA x1) r := by
  rw [val_main_v63_apply, val_main_cst_11_apply]
  show Ideal.ofBits .f32 0x00000000#32 + _ = _
  rw [Ideal.ofBits_zero_f32, zero_add]
  unfold deg
  refine Finset.sum_congr rfl fun k _ => ?_
  rw [← r_ahat2 x1 r k]
  exact congrArg _ (funext fun a => Fin.ext (by match a with | ⟨0, _⟩ => rfl | ⟨1, _⟩ => rfl))

/-- The guarded degree normaliser. -/
theorem r_s2 (r : Fin 1024) : val_main_v68 (F := Ideal) x1 (ix1 r) = sR (tA x1) r := by
  rw [val_main_v68_apply, val_main_v65_apply, val_main_v67_apply, r_deg2 x1 r, val_main_v64_apply, val_main_cst_12_apply, val_main_v66_apply,
    val_main_cst_13_apply, val_main_call2_v1_apply, val_main_call2_v0_apply, val_main_cst_14_apply]
  rfl

/-- The normalised adjacency. -/
theorem r_an2 (r k : Fin 1024) : val_main_v74 (F := Ideal) x1 (ix2 r k) = (sR (tA x1) r * ahat (tA x1) r k) * sR (tA x1) k := by
  rw [val_main_v74_apply, val_main_v71_apply, val_main_v70_apply, val_main_v69_apply, val_main_v73_apply, val_main_v72_apply, r_ahat2 x1 r k]
  have e1 : idx_main_v69 (idx_main_v70 (ix2 r k)) = ix1 r := funext fun a => Fin.ext (by match a with | ⟨0, _⟩ => rfl)
  have e2 : idx_main_v72 (idx_main_v73 (ix2 r k)) = ix1 k := funext fun a => Fin.ext (by match a with | ⟨0, _⟩ => rfl)
  rw [e1, e2, r_s2 x1 r, r_s2 x1 k]
  rfl

/-- The rectified first layer. -/
theorem r_relu (r : Fin 1024) (q : Fin 256) :
    val_main_v52 (F := Ideal) x0 x1 x2 x3 x4 x5 (ix2 r q) = relu (val_main_v51 (F := Ideal) x0 x1 x2 x3 x4 x5 (ix2 r q)) := by
  rw [val_main_v52_apply, val_main_call1_v0_apply, val_main_call1_cst_apply]
  rfl

/-- The rectified first layer times the second weight table. -/
theorem r_mm (r : Fin 1024) (j : Fin 256) :
    val_main_v75 (F := Ideal) x0 x1 x2 x3 x4 x5 x6 (ix2 r j) = mm (fun r q => val_main_v51 (F := Ideal) x0 x1 x2 x3 x4 x5 (ix2 r q)) (tW x6) r j := by
  rw [val_main_v75_apply]
  unfold mm
  refine Finset.sum_congr rfl fun k _ => ?_
  have e1 : lidx_main_v75 (ix2 r j) k = ix2 r k := funext fun a => Fin.ext (by match a with | ⟨0, _⟩ => rfl | ⟨1, _⟩ => rfl)
  have e2 : ridx_main_v75 (ix2 r j) k = ix2 k j := funext fun a => Fin.ext (by match a with | ⟨0, _⟩ => rfl | ⟨1, _⟩ => rfl)
  rw [e1, e2, r_relu]

/-- The second aggregation. -/
theorem r_agg2 (r : Fin 1024) (j : Fin 256) :
    val_main_v79 (F := Ideal) x0 x1 x2 x3 x4 x5 x6 x7 (ix2 r j)
      = aggR (tA x1) (sR (tA x1)) (fun k j => val_main_v75 (F := Ideal) x0 x1 x2 x3 x4 x5 x6 (ix2 k j)) (tV x7) r j := by
  rw [val_main_v79_apply, val_main_v76_apply, val_main_v78_apply, val_main_v77_apply]
  unfold aggR
  have eb : idx_main_v77 (idx_main_v78 (ix2 r j)) = ix1 j := funext fun a => Fin.ext (by match a with | ⟨0, _⟩ => rfl)
  rw [eb]
  refine congrArg (· + _) (Finset.sum_congr rfl fun k _ => ?_)
  have e1 : lidx_main_v76 (ix2 r j) k = ix2 r k := funext fun a => Fin.ext (by match a with | ⟨0, _⟩ => rfl | ⟨1, _⟩ => rfl)
  have e2 : ridx_main_v76 (ix2 r j) k = ix2 k j := funext fun a => Fin.ext (by match a with | ⟨0, _⟩ => rfl | ⟨1, _⟩ => rfl)
  rw [e1, e2, r_an2 x1 r k]

/-- The column means of layer 2. -/
theorem r_mu2 (j : Fin 256) :
    val_main_v82 (F := Ideal) x0 x1 x2 x3 x4 x5 x6 x7 (ix1 j) = Ideal.div (0 + ∑ r : Fin 1024, val_main_v79 (F := Ideal) x0 x1 x2 x3 x4 x5 x6 x7 (ix2 r j)) NN := by
  rw [val_main_v82_apply, val_main_v80_apply, val_main_cst_15_apply, val_main_v81_apply, val_main_cst_16_apply]
  show Ideal.div (Ideal.ofBits .f32 0x00000000#32 + _) _ = _
  rw [Ideal.ofBits_zero_f32]
  refine congrArg (fun s => Ideal.div (0 + s) NN) (Finset.sum_congr rfl fun k _ => ?_)
  exact congrArg _ (funext fun a => Fin.ext (by match a with | ⟨0, _⟩ => rfl | ⟨1, _⟩ => rfl))

/-- The column variances of layer 2, as means of squared deviations. -/
theorem r_var2 (j : Fin 256) :
    val_main_v89 (F := Ideal) x0 x1 x2 x3 x4 x5 x6 x7 (ix1 j)
      = Ideal.div (0 + ∑ r : Fin 1024, (val_main_v79 (F := Ideal) x0 x1 x2 x3 x4 x5 x6 x7 (ix2 r j) - Ideal.div (0 + ∑ r : Fin 1024, val_main_v79 (F := Ideal) x0 x1 x2 x3 x4 x5 x6 x7 (ix2 r j)) NN)
          * (val_main_v79 (F := Ideal) x0 x1 x2 x3 x4 x5 x6 x7 (ix2 r j) - Ideal.div (0 + ∑ r : Fin 1024, val_main_v79 (F := Ideal) x0 x1 x2 x3 x4 x5 x6 x7 (ix2 r j)) NN)) NN := by
  rw [val_main_v89_apply, val_main_v87_apply, val_main_cst_17_apply, val_main_v88_apply, val_main_cst_18_apply]
  show Ideal.div (Ideal.ofBits .f32 0x00000000#32 + _) _ = _
  rw [Ideal.ofBits_zero_f32]
  refine congrArg (fun s => Ideal.div (0 + s) NN) (Finset.sum_congr rfl fun k _ => ?_)
  have ei : idx_main_v87 (ix1 j) k = ix2 k j := funext fun a => Fin.ext (by match a with | ⟨0, _⟩ => rfl | ⟨1, _⟩ => rfl)
  rw [ei, val_main_v86_apply, val_main_v85_apply, val_main_v84_apply, val_main_v83_apply]
  have em : idx_main_v83 (idx_main_v84 (ix2 k j)) = ix1 j := funext fun a => Fin.ext (by match a with | ⟨0, _⟩ => rfl)
  rw [em, r_mu2]
  rfl

/-- The batch normalisation of layer 2. -/
theorem r_bn2 (r : Fin 1024) (j : Fin 256) :
    val_main_v104 (F := Ideal) x0 x1 x2 x3 x4 x5 x6 x7 x8 x9 (ix2 r j) = bnR (fun r j => val_main_v79 (F := Ideal) x0 x1 x2 x3 x4 x5 x6 x7 (ix2 r j)) (tV x8) (tV x9) r j := by
  rw [val_main_v104_apply, val_main_v101_apply, val_main_v95_apply, val_main_v94_apply, val_main_v93_apply, val_main_v92_apply, val_main_v91_apply, val_main_v90_apply,
    val_main_v100_apply, val_main_v99_apply, val_main_v98_apply, val_main_v97_apply, val_main_v96_apply, val_main_cst_19_apply, val_main_v103_apply, val_main_v102_apply]
  have e1 : idx_main_v93 (idx_main_v94 (ix2 r j)) = ix1 j := funext fun a => Fin.ext (by match a with | ⟨0, _⟩ => rfl)
  have e2 : idx_main_v90 (idx_main_v91 (ix2 r j)) = ix1 j := funext fun a => Fin.ext (by match a with | ⟨0, _⟩ => rfl)
  have e3 : idx_main_v99 (idx_main_v100 (ix2 r j)) = ix1 j := funext fun a => Fin.ext (by match a with | ⟨0, _⟩ => rfl)
  have e4 : idx_main_v102 (idx_main_v103 (ix2 r j)) = ix1 j := funext fun a => Fin.ext (by match a with | ⟨0, _⟩ => rfl)
  rw [e1, e2, e3, e4, r_mu2, r_var2]
  rfl

/-- The reference's result, entry by entry, is the spec's host-side table. -/
theorem ref_out (r : Fin 1024) (j : Fin 256) :
    val_main_v104 (F := Ideal) x0 x1 x2 x3 x4 x5 x6 x7 x8 x9 (ix2 r j)
      = outR (tX x0) (tA x1) (tW x2) (tW x6) (tV x3) (tV x4) (tV x5) (tV x7) (tV x8) (tV x9) r j := by
  have h26 : (fun r j => val_main_v26 (F := Ideal) x0 x1 x2 x3 (ix2 r j))
      = aggR (tA x1) (sR (tA x1)) (xw (tX x0) (tW x2)) (tV x3) := funext fun r => funext fun j => r_agg1 x0 x1 x2 x3 r j
  have h51 : (fun r q => val_main_v51 (F := Ideal) x0 x1 x2 x3 x4 x5 (ix2 r q))
      = bnR (aggR (tA x1) (sR (tA x1)) (xw (tX x0) (tW x2)) (tV x3)) (tV x4) (tV x5) :=
    funext fun r => funext fun q => by rw [r_bn1, h26]
  have h75 : (fun k j => val_main_v75 (F := Ideal) x0 x1 x2 x3 x4 x5 x6 (ix2 k j))
      = mm (bnR (aggR (tA x1) (sR (tA x1)) (xw (tX x0) (tW x2)) (tV x3)) (tV x4) (tV x5)) (tW x6) :=
    funext fun k => funext fun j => by rw [r_mm, h51]
  have h79 : (fun r j => val_main_v79 (F := Ideal) x0 x1 x2 x3 x4 x5 x6 x7 (ix2 r j))
      = aggR (tA x1) (sR (tA x1)) (mm (bnR (aggR (tA x1) (sR (tA x1)) (xw (tX x0) (tW x2)) (tV x3)) (tV x4) (tV x5)) (tW x6)) (tV x7) :=
    funext fun r => funext fun j => by rw [r_agg2, h75]
  rw [r_bn2, h79]
  rfl

end Cert.RefSpec

end
-- ==== Proof.PreDecode.lean ====
/-
  The precondition decoded: every entry of the ten argument arrays is a real number, and every entry of the
  adjacency is at least zero.
-/
import proofs.«169710_g34591666602572_cont_8to1_b_883_10_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.PreDecode

open Cert.Pre_finite_inputs Idealize.ShloMosaic Idealize.ShloMosaic.ValueIdx

instance : Subsingleton S_.Idx := ⟨fun a b => funext fun d => d.elim0⟩

theorem ofBits_inf : Ideal.ofBits .f32 0x7F800000#32 = ⊤ := by simp [Ideal.ofBits, Ideal.ieee]

/-- An extended real whose absolute value is below plus infinity is a real number. -/
theorem real_of_abs_lt (x : EReal) (h : Ideal.cmp .olt (max x (-x)) (Ideal.ofBits .f32 0x7F800000#32) = 1#1) : ∃ y : ℝ, x = (y : EReal) := by
  rw [ofBits_inf] at h
  have hlt : max x (-x) < ⊤ := by
    by_contra hn
    simp [Ideal.cmp, hn] at h
  induction x using EReal.rec with
  | bot => exact absurd hlt (by simp)
  | top => exact absurd hlt (by simp)
  | coe r => exact ⟨r, rfl⟩

theorem nonneg_of_ge (x : EReal) (h : Ideal.cmp .oge x (Ideal.ofBits .f32 0x00000000#32) = 1#1) : 0 ≤ x := by
  rw [Ideal.ofBits_zero_f32] at h
  by_contra hn
  simp [Ideal.cmp, hn] at h

/-- What the printed precondition says of the ten arrays. -/
theorem decode (a0 : FVec Ideal S1024x256 .f32) (a1 : FVec Ideal S1024x1024 .f32) (a2 : FVec Ideal S256x256 .f32) (a3 a4 a5 : FVec Ideal S256 .f32)
    (a6 : FVec Ideal S256x256 .f32) (a7 a8 a9 : FVec Ideal S256 .f32)
    (h : fn (F := Ideal) a0 a1 a2 a3 a4 a5 a6 a7 a8 a9 = fun _ => 1#1) :
    (∀ i, ∃ y : ℝ, a0 i = (y : EReal)) ∧ (∀ i, ∃ y : ℝ, a1 i = (y : EReal)) ∧ (∀ i, ∃ y : ℝ, a2 i = (y : EReal))
    ∧ (∀ i, ∃ y : ℝ, a3 i = (y : EReal)) ∧ (∀ i, ∃ y : ℝ, a4 i = (y : EReal)) ∧ (∀ i, ∃ y : ℝ, a5 i = (y : EReal))
    ∧ (∀ i, ∃ y : ℝ, a6 i = (y : EReal)) ∧ (∀ i, ∃ y : ℝ, a7 i = (y : EReal)) ∧ (∀ i, ∃ y : ℝ, a8 i = (y : EReal))
    ∧ (∀ i, ∃ y : ℝ, a9 i = (y : EReal)) ∧ (∀ i, 0 ≤ a1 i) := by
  have h0 := congrFun h ValueIdx.ix0
  dsimp only [fn, fn_part1, fn_part2, fn_part3] at h0
  obtain ⟨h0, h10⟩ := IntOp.andi_eq_one.mp h0
  obtain ⟨h0, h9⟩ := IntOp.andi_eq_one.mp h0
  obtain ⟨h0, h8⟩ := IntOp.andi_eq_one.mp h0
  obtain ⟨h0, h7⟩ := IntOp.andi_eq_one.mp h0
  obtain ⟨h0, h6⟩ := IntOp.andi_eq_one.mp h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  refine ⟨fun i => real_of_abs_lt _ (Host.reduce_andi_all _ _ _ _ ix0 h0 i), fun i => real_of_abs_lt _ (Host.reduce_andi_all _ _ _ _ ix0 h1 i),
    fun i => real_of_abs_lt _ (Host.reduce_andi_all _ _ _ _ ix0 h2 i), fun i => real_of_abs_lt _ (Host.reduce_andi_all _ _ _ _ ix0 h3 i),
    fun i => real_of_abs_lt _ (Host.reduce_andi_all _ _ _ _ ix0 h4 i), fun i => real_of_abs_lt _ (Host.reduce_andi_all _ _ _ _ ix0 h5 i),
    fun i => real_of_abs_lt _ (Host.reduce_andi_all _ _ _ _ ix0 h6 i), fun i => real_of_abs_lt _ (Host.reduce_andi_all _ _ _ _ ix0 h7 i),
    fun i => real_of_abs_lt _ (Host.reduce_andi_all _ _ _ _ ix0 h8 i), fun i => real_of_abs_lt _ (Host.reduce_andi_all _ _ _ _ ix0 h9 i),
    fun i => nonneg_of_ge _ (Host.reduce_andi_all _ _ _ _ ix0 h10 i)⟩

end Cert.PreDecode

end
-- ==== Proof.Bridge.lean ====
/-
  The one equation between the two programs: under the precondition, the reference's result as a term of the ten
  argument arrays is the array the kernel's eight write-backs leave. Entry by entry the reference reads into the
  host-side table of the spec, the kernel into the vector-unit-side table, and for real inputs with a non-negative
  adjacency the two tables are equal.
-/
import proofs.«169710_g34591666602572_cont_8to1_b_883_10_alg».proof.Defs
import proofs.«169710_g34591666602572_cont_8to1_b_883_10_alg».proof.Proof.KI.KSpec
import proofs.«169710_g34591666602572_cont_8to1_b_883_10_alg».proof.Proof.RefSpec
import proofs.«169710_g34591666602572_cont_8to1_b_883_10_alg».proof.Proof.PreDecode
import proofs.«169710_g34591666602572_cont_8to1_b_883_10_alg».proof.Proof.Gen.Pre_finite_inputs
import proofs.«169710_g34591666602572_cont_8to1_b_883_10_alg».proof.Proof.Gen.ReferenceIdeal

noncomputable section

namespace Cert.Bridge

open Idealize.ShloMosaic Idealize.ShloMosaic.TcCoe Idealize.ShloMosaic.ValueIdx Idealize.SL.Sem
open Cert.KernelIdeal.Body

theorem bridge (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.KernelIdeal.Body.GK (F := Ideal) m c := by
  funext y
  obtain ⟨r, j, rfl⟩ : ∃ (r : Fin 1024) (j : Fin 256), y = ix2 r j := ⟨y 0, y 1, eq_ix2 y⟩
  obtain ⟨h0, h1, h2, h3, h4, h5, h6, h7, h8, h9, hnn⟩ := Cert.PreDecode.decode _ _ _ _ _ _ _ _ _ _ (hpre c)
  rw [Cert.RefSpec.ref_out, GK_apply]
  refine (Cert.Spec.outK_eq_outR (xA m c) (adjA m c) (w1A m c) (w2A m c) (b1A m c) (g1A m c) (be1A m c) (b2A m c) (g2A m c) (be2A m c)
    (fun r k => h0 (ix2 r k)) (fun r k => ?_) (fun k j => h2 (ix2 k j)) (fun k j => h6 (ix2 k j))
    (fun j => h3 (ix1 j)) (fun j => h4 (ix1 j)) (fun j => h5 (ix1 j)) (fun j => h7 (ix1 j)) (fun j => h8 (ix1 j)) (fun j => h9 (ix1 j)) r j).symm
  obtain ⟨a, ha⟩ := h1 (ix2 r k)
  refine ⟨a, ha, ?_⟩
  have h := hnn (ix2 r k)
  rw [ha] at h
  exact_mod_cast h

end Cert.Bridge

end
-- ==== Proof.Algebraic.lean ====
/-
  The algebraic conjunct: the idealized kernel's run ends with its result at one named array of the arguments, the
  idealized reference's run with its result at its own term of the same arguments, and the two are equal (Bridge).
-/
import proofs.«169710_g34591666602572_cont_8to1_b_883_10_alg».proof.Defs
import proofs.«169710_g34591666602572_cont_8to1_b_883_10_alg».proof.Proof.KI.Final
import proofs.«169710_g34591666602572_cont_8to1_b_883_10_alg».proof.Proof.RefRead
import proofs.«169710_g34591666602572_cont_8to1_b_883_10_alg».proof.Proof.Bridge

noncomputable section

namespace Cert.Proof

open Idealize.ShloMosaic Idealize.SL.Sem

theorem algebraic : Cert.algebraic_KernelIdeal_ReferenceIdeal := by
  intro m ρ m' ρ' hpre hagree
  refine ⟨fun c => Cert.KernelIdeal.Body.GK (F := Ideal) m c, Cert.KernelIdeal.Body.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v104_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact Cert.Bridge.bridge m hpre c

end Cert.Proof

end
-- ==== Proof.lean ====
/- The proof of `Cert.Claim`: a two-layer graph convolution with batch normalisation, fused into one kernel that
   runs over sixteen grid points (eight prepare 128-row slabs of the adjacency, its degrees and the first feature
   product; the eighth of them also runs the whole serial tail; eight more normalise and write one block of the
   result each), against the plain reference.
   The kernel keeps five scratch buffers between points, three of them filled slab by slab, so its frame is proved
   here through a row-wise invariant (Proof/K, Proof/KI: the three control cases of the body, the invariant's
   preservation, the obligation at a point, the run), once for the word-level program and once for its idealization.
   The reference's frame is its run with the result dropped. No operation was rewritten by the idealization, so
   `preserves` is trivial. -/
import proofs.«169710_g34591666602572_cont_8to1_b_883_10_alg».proof.Defs
import proofs.«169710_g34591666602572_cont_8to1_b_883_10_alg».proof.Proof.K.Obl
import proofs.«169710_g34591666602572_cont_8to1_b_883_10_alg».proof.Proof.KI.Obl
import proofs.«169710_g34591666602572_cont_8to1_b_883_10_alg».proof.Proof.RefRead
import proofs.«169710_g34591666602572_cont_8to1_b_883_10_alg».proof.Proof.Algebraic
import proofs.«169710_g34591666602572_cont_8to1_b_883_10_alg».proof.Proof.Gen.Kernel
import proofs.«169710_g34591666602572_cont_8to1_b_883_10_alg».proof.Proof.Gen.KernelIdeal
import proofs.«169710_g34591666602572_cont_8to1_b_883_10_alg».proof.Proof.Gen.ReferenceIdeal
import proofs.«169710_g34591666602572_cont_8to1_b_883_10_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
